-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S3072x1024 : Shape := ⟨2, ![3072, 1024]⟩
abbrev S3072 : Shape := ⟨1, ![3072]⟩
abbrev S8x1024 : Shape := ⟨2, ![8, 1024]⟩
abbrev S1024x8 : Shape := ⟨2, ![1024, 8]⟩
abbrev S16x1x1 : Shape := ⟨3, ![16, 1, 1]⟩
abbrev S1024x1024 : Shape := ⟨2, ![1024, 1024]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S8x1024 : S_.BroadcastsInDim S8x1024 (![] : Fin 0 → Fin S8x1024.rank)
  reducesTo_S8x1024_S_d0_1 : S8x1024.ReducesTo [0, 1] S_
  bcast_S_S1024x8 : S_.BroadcastsInDim S1024x8 (![] : Fin 0 → Fin S1024x8.rank)
  reducesTo_S1024x8_S_d0_1 : S1024x8.ReducesTo [0, 1] S_
  bcast_S_S16x1x1 : S_.BroadcastsInDim S16x1x1 (![] : Fin 0 → Fin S16x1x1.rank)
  reducesTo_S16x1x1_S_d0_1_2 : S16x1x1.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S8x1024 .f32) (main_arg8 : FVec F S1024x8 .f32) (main_arg9 : FVec F S16x1x1 .f32) (main_arg10 : FVec F S1024x1024 .f32) (main_arg11 : FVec F S1024 .f32) (main_v33 : IVec S_ 1) : IVec S_ 1 :=
  let main_v34 : FVec F S8x1024 .f32 := Host.absf main_arg7
  let main_cst_12 : FVec F S_ .f32 := constant S_ .f32 0x7F800000#32
  let main_v35 : FVec F S8x1024 .f32 := broadcastInDim S8x1024 ![] bcast_S_S8x1024 main_cst_12
  let main_v36 : IVec S8x1024 1 := cmpf .olt main_v34 main_v35
  let main_c_13 : IVec S_ 1 := constantI S_ 1 1#1
  let main_v37 : IVec S_ 1 := (fun x v => Host.reduce IntOp.andi x v reducesTo_S8x1024_S_d0_1 h_S_) main_v36 main_c_13
  let main_v38 : IVec S_ 1 := andi main_v33 main_v37
  let main_v39 : FVec F S1024x8 .f32 := Host.absf main_arg8
  let main_cst_14 : FVec F S_ .f32 := constant S_ .f32 0x7F800000#32
  let main_v40 : FVec F S1024x8 .f32 := broadcastInDim S1024x8 ![] bcast_S_S1024x8 main_cst_14
  let main_v41 : IVec S1024x8 1 := cmpf .olt main_v39 main_v40
  let main_c_15 : IVec S_ 1 := constantI S_ 1 1#1
  let main_v42 : IVec S_ 1 := (fun x v => Host.reduce IntOp.andi x v reducesTo_S1024x8_S_d0_1 h_S_) main_v41 main_c_15
  let main_v43 : IVec S_ 1 := andi main_v38 main_v42
  let main_v44 : FVec F S16x1x1 .f32 := Host.absf main_arg9
  let main_cst_16 : FVec F S_ .f32 := constant S_ .f32 0x7F800000#32
  let main_v45 : FVec F S16x1x1 .f32 := broadcastInDim S16x1x1 ![] bcast_S_S16x1x1 main_cst_16
  let main_v46 : IVec S16x1x1 1 := cmpf .olt main_v44 main_v45
  let main_c_17 : IVec S_ 1 := constantI S_ 1 1#1
  let main_v47 : IVec S_ 1 := (fun x v => Host.reduce IntOp.andi x v reducesTo_S16x1x1_S_d0_1_2 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x8 .f32) (main_arg5 : FVec F S8x1024 .f32) (main_arg6 : FVec F S1024x8 .f32) (main_arg7 : FVec F S8x1024 .f32) (main_arg8 : FVec F S1024x8 .f32) (main_arg9 : FVec F S16x1x1 .f32) (main_arg10 : FVec F S1024x1024 .f32) (main_arg11 : FVec F S1024 .f32) (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  let main_v19 : FVec F S1024x8 .f32 := Host.absf main_arg4
  let main_cst_6 : FVec F S_ .f32 := constant S_ .f32 0x7F800000#32
  let main_v20 : FVec F S1024x8 .f32 := broadcastInDim S1024x8 ![] bcast_S_S1024x8 main_cst_6
  let main_v21 : IVec S1024x8 1 := cmpf .olt main_v19 main_v20
  let main_c_7 : IVec S_ 1 := constantI S_ 1 1#1
  let main_v22 : IVec S_ 1 := (fun x v => Host.reduce IntOp.andi x v reducesTo_S1024x8_S_d0_1 h_S_) main_v21 main_c_7
  let main_v23 : IVec S_ 1 := andi main_v18 main_v22
  let main_v24 : FVec F S8x1024 .f32 := Host.absf main_arg5
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  let main_v29 : FVec F S1024x8 .f32 := Host.absf main_arg6
  let main_cst_10 : FVec F S_ .f32 := constant S_ .f32 0x7F800000#32
  let main_v30 : FVec F S1024x8 .f32 := broadcastInDim S1024x8 ![] bcast_S_S1024x8 main_cst_10
  let main_v31 : IVec S1024x8 1 := cmpf .olt main_v29 main_v30
  let main_c_11 : IVec S_ 1 := constantI S_ 1 1#1
  let main_v32 : IVec S_ 1 := (fun x v => Host.reduce IntOp.andi x v reducesTo_S1024x8_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x1024x1024 .f32) (main_arg1 : FVec F S3072x1024 .f32) (main_arg2 : FVec F S3072 .f32) (main_arg3 : FVec F S8x1024 .f32) (main_arg4 : FVec F S1024x8 .f32) (main_arg5 : FVec F S8x1024 .f32) (main_arg6 : FVec F S1024x8 .f32) (main_arg7 : FVec F S8x1024 .f32) (main_arg8 : FVec F S1024x8 .f32) (main_arg9 : FVec F S16x1x1 .f32) (main_arg10 : FVec F S1024x1024 .f32) (main_arg11 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S8x1024 .f32 := Host.absf main_arg3
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_arg4 main_arg5 main_arg6 main_arg7 main_arg8 main_arg9 main_arg10 main_arg11 main_v13 main_v16
-- ==== Kernel.lean ====
abbrev S4x1024x1024 : Shape := ⟨3, ![4, 1024, 1024]⟩
abbrev S3072x1024 : Shape := ⟨2, ![3072, 1024]⟩
abbrev S3072 : Shape := ⟨1, ![3072]⟩
abbrev S8x1024 : Shape := ⟨2, ![8, 1024]⟩
abbrev S1024x8 : Shape := ⟨2, ![1024, 8]⟩
abbrev S16x1x1 : Shape := ⟨3, ![16, 1, 1]⟩
abbrev S1024x1024 : Shape := ⟨2, ![1024, 1024]⟩
abbrev S1024 : Shape := ⟨1, ![1024]⟩
abbrev S4x16x1024x64 : Shape := ⟨4, ![4, 16, 1024, 64]⟩
abbrev S1x1024x1024 : Shape := ⟨3, ![1, 1024, 1024]⟩
abbrev S1x16x1024x64 : Shape := ⟨4, ![1, 16, 1024, 64]⟩
abbrev S1x1024 : Shape := ⟨2, ![1, 1024]⟩
abbrev S1024x16x64 : Shape := ⟨3, ![1024, 16, 64]⟩
abbrev S16x1024x64 : Shape := ⟨3, ![16, 1024, 64]⟩
abbrev S16x1024 : Shape := ⟨2, ![16, 1024]⟩
abbrev S16x1024x1 : Shape := ⟨3, ![16, 1024, 1]⟩
abbrev S_ : Shape := ⟨0, ![]⟩
abbrev S1x4x1024x64 : Shape := ⟨4, ![1, 4, 1024, 64]⟩
abbrev S4x1x1 : Shape := ⟨3, ![4, 1, 1]⟩
abbrev S1x1024x256 : Shape := ⟨3, ![1, 1024, 256]⟩
abbrev S4x1024x64 : Shape := ⟨3, ![4, 1024, 64]⟩
abbrev S4x1024 : Shape := ⟨2, ![4, 1024]⟩
abbrev S4x1024x1 : Shape := ⟨3, ![4, 1024, 1]⟩
abbrev S1024x4x64 : Shape := ⟨3, ![1024, 4, 64]⟩
abbrev S1024x256 : Shape := ⟨2, ![1024, 256]⟩

abbrev nBuf : Space → Nat
  | .hbm => 41
  | .vmem => 36
  | .smem => 0
  | _ => 0

abbrev bufTy : (tb : Table) → Fin (tcTables nBuf tb) → BufTy
  | .hbm, ⟨0, _⟩ => ⟨S4x1024x1024, .f32⟩
  | .hbm, ⟨1, _⟩ => ⟨S3072x1024, .f32⟩
  | .hbm, ⟨2, _⟩ => ⟨S3072, .f32⟩
  | .hbm, ⟨3, _⟩ => ⟨S8x1024, .f32⟩
  | .hbm, ⟨4, _⟩ => ⟨S1024x8, .f32⟩
  | .hbm, ⟨5, _⟩ => ⟨S8x1024, .f32⟩
  | .hbm, ⟨6, _⟩ => ⟨S1024x8, .f32⟩
  | .hbm, ⟨7, _⟩ => ⟨S8x1024, .f32⟩
  | .hbm, ⟨8, _⟩ => ⟨S1024x8, .f32⟩
  | .hbm, ⟨9, _⟩ => ⟨S16x1x1, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x8, .f32⟩
  | .hbm, ⟨25, _⟩ => ⟨S8x1024, .f32⟩
  | .hbm, ⟨26, _⟩ => ⟨S1024x8, .f32⟩
  | .hbm, ⟨27, _⟩ => ⟨S8x1024, .f32⟩
  | .hbm, ⟨28, _⟩ => ⟨S1024x8, .f32⟩
  | .hbm, ⟨29, _⟩ => ⟨S8x1024, .f32⟩
  | .hbm, ⟨30, _⟩ => ⟨S4x16x1024x64, .bf16⟩
  | .hbm, ⟨31, _⟩ => ⟨S4x16x1024x64, .bf16⟩
  | .hbm, ⟨32, _⟩ => ⟨S4x16x1024x64, .bf16⟩
  | .hbm, ⟨33, _⟩ => ⟨S_, .f32⟩
  | .hbm, ⟨34, _⟩ => ⟨S16x1x1, .f32⟩
  | .hbm, ⟨35, _⟩ => ⟨S16x1x1, .f32⟩
  | .hbm, ⟨36, _⟩ => ⟨S16x1x1, .f32⟩
  | .hbm, ⟨37, _⟩ => ⟨S4x1024x1024, .bf16⟩
  | .hbm, ⟨38, _⟩ => ⟨S1024x1024, .f32⟩
  | .hbm, ⟨39, _⟩ => ⟨S1024x1024, .bf16⟩
  | .hbm, ⟨40, _⟩ => ⟨S4x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024x8, .f32⟩
  | .local _ .vmem, ⟨9, _⟩ => ⟨S8x1024, .f32⟩
  | .local _ .vmem, ⟨10, _⟩ => ⟨S1024x8, .f32⟩
  | .local _ .vmem, ⟨11, _⟩ => ⟨S8x1024, .f32⟩
  | .local _ .vmem, ⟨12, _⟩ => ⟨S1024x8, .f32⟩
  | .local _ .vmem, ⟨13, _⟩ => ⟨S8x1024, .f32⟩
  | .local _ .vmem, ⟨14, _⟩ => ⟨S1x16x1024x64, .bf16⟩
  | .local _ .vmem, ⟨15, _⟩ => ⟨S1x16x1024x64, .bf16⟩
  | .local _ .vmem, ⟨16, _⟩ => ⟨S1x16x1024x64, .bf16⟩
  | .local _ .vmem, ⟨17, _⟩ => ⟨S1x16x1024x64, .bf16⟩
  | .local _ .vmem, ⟨18, _⟩ => ⟨S1x16x1024x64, .bf16⟩
  | .local _ .vmem, ⟨19, _⟩ => ⟨S1x16x1024x64, .bf16⟩
  | .local _ .vmem, ⟨20, _⟩ => ⟨S1x4x1024x64, .bf16⟩
  | .local _ .vmem, ⟨21, _⟩ => ⟨S1x4x1024x64, .bf16⟩
  | .local _ .vmem, ⟨22, _⟩ => ⟨S1x4x1024x64, .bf16⟩
  | .local _ .vmem, ⟨23, _⟩ => ⟨S1x4x1024x64, .bf16⟩
  | .local _ .vmem, ⟨24, _⟩ => ⟨S1x4x1024x64, .bf16⟩
  | .local _ .vmem, ⟨25, _⟩ => ⟨S1x4x1024x64, .bf16⟩
  | .local _ .vmem, ⟨26, _⟩ => ⟨S4x1x1, .f32⟩
  | .local _ .vmem, ⟨27, _⟩ => ⟨S4x1x1, .f32⟩
  | .local _ .vmem, ⟨28, _⟩ => ⟨S1x1024x256, .bf16⟩
  | .local _ .vmem, ⟨29, _⟩ => ⟨S1x1024x256, .bf16⟩
  | .local _ .vmem, ⟨30, _⟩ => ⟨S1x1024x1024, .bf16⟩
  | .local _ .vmem, ⟨31, _⟩ => ⟨S1x1024x1024, .bf16⟩
  | .local _ .vmem, ⟨32, _⟩ => ⟨S1024x1024, .bf16⟩
  | .local _ .vmem, ⟨33, _⟩ => ⟨S1024, .f32⟩
  | .local _ .vmem, ⟨34, _⟩ => ⟨S1x1024x1024, .f32⟩
  | .local _ .vmem, ⟨35, _⟩ => ⟨S1x1024x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem3_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x16x1024x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x1024x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x16x1024x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  transposes_S1024x1024_S1024x1024_1_0 : S1024x1024.Transposes [1, 0] S1024x1024
  bitsLt_bf16_f32 : FTy.bits .bf16 < FTy.bits .f32
  transposes_S8x1024_S1024x8_1_0 : S8x1024.Transposes [1, 0] S1024x8
  transposes_S1024x8_S8x1024_1_0 : S1024x8.Transposes [1, 0] S8x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S1024_S1x1024 : S1024.ShapeCasts S1x1024
  broadcasts_S1x1024_S1024x1024 : S1x1024.Broadcasts S1024x1024
  shapeCasts_S1024x1024_S1024x16x64 : S1024x1024.ShapeCasts S1024x16x64
  transposes_S1024x16x64_p1_0_2_S16x1024x64 : S1024x16x64.Transposes [1, 0, 2] S16x1024x64
  reduces_S16x1024x64_S16x1024 : S16x1024x64.Reduces [2] S16x1024
  shapeCasts_S16x1024_S16x1024x1 : S16x1024.ShapeCasts S16x1024x1
  broadcasts_S16x1024x1_S16x1024x64 : S16x1024x1.Broadcasts S16x1024x64
  shapeCasts_S16x1024x64_S1x16x1024x64 : S16x1024x64.ShapeCasts S1x16x1024x64
  inb_S1x16x1024x64_S1x16x1024x64_0_0_0_0 : ∀ a, (![0, 0, 0, 0] : Fin 4 → Nat) a + S1x16x1024x64.size a ≤ S1x16x1024x64.size a
  h_S1x16x1024x64 : 0 < S1x16x1024x64.numel
  packedbf16_S1x16x1024x64_S1x16x1024x64_0_0_0_0 : (Rect.unit (s := S1x16x1024x64) ![0, 0, 0, 0] S1x16x1024x64.size inb_S1x16x1024x64_S1x16x1024x64_0_0_0_0).PackedRows (EltTy.packing .bf16)
  bcast_S_S16x1x1 : S_.BroadcastsInDim S16x1x1 (![] : Fin 0 → Fin S16x1x1.rank)
  inb_S1x4x1024x64_S1x4x1024x64_0_0_0_0 : ∀ a, (![0, 0, 0, 0] : Fin 4 → Nat) a + S1x4x1024x64.size a ≤ S1x4x1024x64.size a
  h_S1x4x1024x64 : 0 < S1x4x1024x64.numel
  shapeCasts_S1x4x1024x64_S1x4x1024x64 : S1x4x1024x64.ShapeCasts S1x4x1024x64
  shapeCasts_S1x4x1024x64_S4x1024x64 : S1x4x1024x64.ShapeCasts S4x1024x64
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  broadcasts_S4x1x1_S4x1024x1024 : S4x1x1.Broadcasts S4x1024x1024
  reduces_S4x1024x1024_S4x1024 : S4x1024x1024.Reduces [2] S4x1024
  shapeCasts_S4x1024_S4x1024x1 : S4x1024.ShapeCasts S4x1024x1
  broadcasts_S4x1024x1_S4x1024x1024 : S4x1024x1.Broadcasts S4x1024x1024
  transposes_S4x1024x64_p1_0_2_S1024x4x64 : S4x1024x64.Transposes [1, 0, 2] S1024x4x64
  shapeCasts_S1024x4x64_S1024x256 : S1024x4x64.ShapeCasts S1024x256
  shapeCasts_S1024x256_S1x1024x256 : S1024x256.ShapeCasts S1x1024x256
  inb_S1x1024x256_S1x1024x256_0_0_0 : ∀ a, (![0, 0, 0] : Fin 3 → Nat) a + S1x1024x256.size a ≤ S1x1024x256.size a
  h_S1x1024x256 : 0 < S1x1024x256.numel
  packedbf16_S1x1024x256_S1x1024x256_0_0_0 : (Rect.unit (s := S1x1024x256) ![0, 0, 0] S1x1024x256.size inb_S1x1024x256_S1x1024x256_0_0_0).PackedRows (EltTy.packing .bf16)
  shapeCasts_S1x1024x1024_S1x1024x1024 : S1x1024x1024.ShapeCasts S1x1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S1024x8_S1024x8_1_0_0_1_n_n_wf : DotDims.WF S1024x1024 S1024x8 S1024x8 [1] [0] [0] [1] [] []
  dot_S1024x8_S8x1024_S1024x1024_1_0_0_1_n_n_wf : DotDims.WF S1024x8 S8x1024 S1024x1024 [1] [0] [0] [1] [] []
  dot_S4x1024x64_S4x1024x64_S4x1024x1024_2_2_1_1_0_0_wf : DotDims.WF S4x1024x64 S4x1024x64 S4x1024x1024 [2] [2] [1] [1] [0] [0]
  dot_S4x1024x1024_S4x1024x64_S4x1024x64_2_1_1_2_0_0_wf : DotDims.WF S4x1024x1024 S4x1024x64 S4x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x1024x1024.size a
  hwx0_0 : ∀ i : grid0.Coords, EltTy.bits .f32 = 32 ∨ (Rect.block (s := S4x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x8.size a ≤ S1024x8.size a
  hwx0_7 : ∀ i : grid0.Coords, EltTy.bits .f32 = 32 ∨ (Rect.block (s := S1024x8) S1024x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x1024.size a ≤ S8x1024.size a
  hwx0_8 : ∀ i : grid0.Coords, EltTy.bits .f32 = 32 ∨ (Rect.block (s := S8x1024) S8x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x8.size a ≤ S1024x8.size a
  hwx0_9 : ∀ i : grid0.Coords, EltTy.bits .f32 = 32 ∨ (Rect.block (s := S1024x8) S1024x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x1024.size a ≤ S8x1024.size a
  hwx0_10 : ∀ i : grid0.Coords, EltTy.bits .f32 = 32 ∨ (Rect.block (s := S8x1024) S8x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x8.size a ≤ S1024x8.size a
  hwx0_11 : ∀ i : grid0.Coords, EltTy.bits .f32 = 32 ∨ (Rect.block (s := S1024x8) S1024x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8x1024.size a ≤ S8x1024.size a
  hwx0_12 : ∀ i : grid0.Coords, EltTy.bits .f32 = 32 ∨ (Rect.block (s := S8x1024) S8x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x16x1024x64.size a ≤ S4x16x1024x64.size a
  hwx0_13 : ∀ i : grid0.Coords, EltTy.bits .bf16 = 32 ∨ (Rect.block (s := S4x16x1024x64) S1x16x1024x64.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x16x1024x64.size a ≤ S4x16x1024x64.size a
  hwx0_14 : ∀ i : grid0.Coords, EltTy.bits .bf16 = 32 ∨ (Rect.block (s := S4x16x1024x64) S1x16x1024x64.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x16x1024x64.size a ≤ S4x16x1024x64.size a
  hwx0_15 : ∀ i : grid0.Coords, EltTy.bits .bf16 = 32 ∨ (Rect.block (s := S4x16x1024x64) S1x16x1024x64.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x1024x64.size a ≤ S4x16x1024x64.size a
  hwx1_0 : ∀ i : grid1.Coords, EltTy.bits .bf16 = 32 ∨ (Rect.block (s := S4x16x1024x64) S1x4x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x1024x64.size a ≤ S4x16x1024x64.size a
  hwx1_1 : ∀ i : grid1.Coords, EltTy.bits .bf16 = 32 ∨ (Rect.block (s := S4x16x1024x64) S1x4x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x1024x64.size a ≤ S4x16x1024x64.size a
  hwx1_2 : ∀ i : grid1.Coords, EltTy.bits .bf16 = 32 ∨ (Rect.block (s := S4x16x1024x64) S1x4x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x1x1.size a ≤ S16x1x1.size a
  hwx1_3 : ∀ i : grid1.Coords, EltTy.bits .f32 = 32 ∨ (Rect.block (s := S16x1x1) S4x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x256.size a ≤ S4x1024x1024.size a
  hwx1_4 : ∀ i : grid1.Coords, EltTy.bits .bf16 = 32 ∨ (Rect.block (s := S4x1024x1024) S1x1024x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S4x1024x1024.size a
  hwx2_0 : ∀ i : grid2.Coords, EltTy.bits .bf16 = 32 ∨ (Rect.block (s := S4x1024x1024) S1x1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S4x1024x1024.size a
  hwx2_3 : ∀ i : grid2.Coords, EltTy.bits .f32 = 32 ∨ (Rect.block (s := S4x1024x1024) S1x1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf
def dot_S4x1024x64_S4x1024x64_S4x1024x1024_2_2_1_1_0_0 : DotDims S4x1024x64 S4x1024x64 S4x1024x1024 where
  lhsContracting := [2]
  rhsContracting := [2]
  lhsNonContracting := [1]
  rhsNonContracting := [1]
  lhsBatch := [0]
  rhsBatch := [0]
  wf := dot_S4x1024x64_S4x1024x64_S4x1024x1024_2_2_1_1_0_0_wf
def dot_S4x1024x1024_S4x1024x64_S4x1024x64_2_1_1_2_0_0 : DotDims S4x1024x1024 S4x1024x64 S4x1024x64 where
  lhsContracting := [2]
  rhsContracting := [1]
  lhsNonContracting := [1]
  rhsNonContracting := [2]
  lhsBatch := [0]
  rhsBatch := [0]
  wf := dot_S4x1024x1024_S4x1024x64_S4x1024x64_2_1_1_2_0_0_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S8x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1024x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S8x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1024x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S8x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18_0) S1x16x1024x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v18_1) S1x16x1024x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_2) S1x16x1024x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v18_0) S1x4x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18_1) S1x4x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18_2) S1x4x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S4x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v22) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x1024x1024 : Shape := ⟨3, ![4, 1024, 1024]⟩
abbrev S3072x1024 : Shape := ⟨2, ![3072, 1024]⟩
abbrev S3072 : Shape := ⟨1, ![3072]⟩
abbrev S8x1024 : Shape := ⟨2, ![8, 1024]⟩
abbrev S1024x8 : Shape := ⟨2, ![1024, 8]⟩
abbrev S16x1x1 : Shape := ⟨3, ![16, 1, 1]⟩
abbrev S1024x1024 : Shape := ⟨2, ![1024, 1024]⟩
abbrev S1024 : Shape := ⟨1, ![1024]⟩
abbrev S4x1024x3072 : Shape := ⟨3, ![4, 1024, 3072]⟩
abbrev S1x1x3072 : Shape := ⟨3, ![1, 1, 3072]⟩
abbrev S4x1024x8 : Shape := ⟨3, ![4, 1024, 8]⟩
abbrev S_ : Shape := ⟨0, ![]⟩
abbrev S4x1024x16x64 : Shape := ⟨4, ![4, 1024, 16, 64]⟩
abbrev S4x16x1024x64 : Shape := ⟨4, ![4, 16, 1024, 64]⟩
abbrev S4x16x1024 : Shape := ⟨3, ![4, 16, 1024]⟩
abbrev S4x16x1024x1 : Shape := ⟨4, ![4, 16, 1024, 1]⟩
abbrev S4x16x1024x1024 : Shape := ⟨4, ![4, 16, 1024, 1024]⟩
abbrev S1x16x1x1 : Shape := ⟨4, ![1, 16, 1, 1]⟩
abbrev S1x1x1024 : Shape := ⟨3, ![1, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S3072x1024, .f32⟩
  | .hbm, ⟨2, _⟩ => ⟨S3072, .f32⟩
  | .hbm, ⟨3, _⟩ => ⟨S8x1024, .f32⟩
  | .hbm, ⟨4, _⟩ => ⟨S1024x8, .f32⟩
  | .hbm, ⟨5, _⟩ => ⟨S8x1024, .f32⟩
  | .hbm, ⟨6, _⟩ => ⟨S1024x8, .f32⟩
  | .hbm, ⟨7, _⟩ => ⟨S8x1024, .f32⟩
  | .hbm, ⟨8, _⟩ => ⟨S1024x8, .f32⟩
  | .hbm, ⟨9, _⟩ => ⟨S16x1x1, .f32⟩
  | .hbm, ⟨10, _⟩ => ⟨S1024x1024, .f32⟩
  | .hbm, ⟨11, _⟩ => ⟨S1024, .f32⟩
  | .hbm, ⟨12, _⟩ => ⟨S4x1024x3072, .f32⟩
  | .hbm, ⟨13, _⟩ => ⟨S1x1x3072, .f32⟩
  | .hbm, ⟨14, _⟩ => ⟨S4x1024x3072, .f32⟩
  | .hbm, ⟨15, _⟩ => ⟨S4x1024x3072, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S4x1024x8, .f32⟩
  | .hbm, ⟨20, _⟩ => ⟨S4x1024x1024, .f32⟩
  | .hbm, ⟨21, _⟩ => ⟨S_, .f32⟩
  | .hbm, ⟨22, _⟩ => ⟨S4x1024x1024, .f32⟩
  | .hbm, ⟨23, _⟩ => ⟨S4x1024x1024, .f32⟩
  | .hbm, ⟨24, _⟩ => ⟨S4x1024x1024, .f32⟩
  | .hbm, ⟨25, _⟩ => ⟨S4x1024x8, .f32⟩
  | .hbm, ⟨26, _⟩ => ⟨S4x1024x1024, .f32⟩
  | .hbm, ⟨27, _⟩ => ⟨S_, .f32⟩
  | .hbm, ⟨28, _⟩ => ⟨S4x1024x1024, .f32⟩
  | .hbm, ⟨29, _⟩ => ⟨S4x1024x1024, .f32⟩
  | .hbm, ⟨30, _⟩ => ⟨S4x1024x1024, .f32⟩
  | .hbm, ⟨31, _⟩ => ⟨S4x1024x8, .f32⟩
  | .hbm, ⟨32, _⟩ => ⟨S4x1024x1024, .f32⟩
  | .hbm, ⟨33, _⟩ => ⟨S_, .f32⟩
  | .hbm, ⟨34, _⟩ => ⟨S4x1024x1024, .f32⟩
  | .hbm, ⟨35, _⟩ => ⟨S4x1024x1024, .f32⟩
  | .hbm, ⟨36, _⟩ => ⟨S4x1024x1024, .f32⟩
  | .hbm, ⟨37, _⟩ => ⟨S4x1024x16x64, .f32⟩
  | .hbm, ⟨38, _⟩ => ⟨S4x16x1024x64, .f32⟩
  | .hbm, ⟨39, _⟩ => ⟨S4x1024x16x64, .f32⟩
  | .hbm, ⟨40, _⟩ => ⟨S4x16x1024x64, .f32⟩
  | .hbm, ⟨41, _⟩ => ⟨S4x1024x16x64, .f32⟩
  | .hbm, ⟨42, _⟩ => ⟨S4x16x1024x64, .f32⟩
  | .hbm, ⟨43, _⟩ => ⟨S4x16x1024x64, .f32⟩
  | .hbm, ⟨44, _⟩ => ⟨S_, .f32⟩
  | .hbm, ⟨45, _⟩ => ⟨S4x16x1024, .f32⟩
  | .hbm, ⟨46, _⟩ => ⟨S4x16x1024x1, .f32⟩
  | .hbm, ⟨47, _⟩ => ⟨S4x16x1024x1, .f32⟩
  | .hbm, ⟨48, _⟩ => ⟨S_, .f32⟩
  | .hbm, ⟨49, _⟩ => ⟨S4x16x1024x1, .f32⟩
  | .hbm, ⟨50, _⟩ => ⟨S4x16x1024x1, .f32⟩
  | .hbm, ⟨51, _⟩ => ⟨S4x16x1024x64, .f32⟩
  | .hbm, ⟨52, _⟩ => ⟨S4x16x1024x64, .f32⟩
  | .hbm, ⟨53, _⟩ => ⟨S4x16x1024x64, .f32⟩
  | .hbm, ⟨54, _⟩ => ⟨S_, .f32⟩
  | .hbm, ⟨55, _⟩ => ⟨S4x16x1024, .f32⟩
  | .hbm, ⟨56, _⟩ => ⟨S4x16x1024x1, .f32⟩
  | .hbm, ⟨57, _⟩ => ⟨S4x16x1024x1, .f32⟩
  | .hbm, ⟨58, _⟩ => ⟨S_, .f32⟩
  | .hbm, ⟨59, _⟩ => ⟨S4x16x1024x1, .f32⟩
  | .hbm, ⟨60, _⟩ => ⟨S4x16x1024x1, .f32⟩
  | .hbm, ⟨61, _⟩ => ⟨S4x16x1024x64, .f32⟩
  | .hbm, ⟨62, _⟩ => ⟨S4x16x1024x64, .f32⟩
  | .hbm, ⟨63, _⟩ => ⟨S4x16x1024x1024, .f32⟩
  | .hbm, ⟨64, _⟩ => ⟨S_, .f32⟩
  | .hbm, ⟨65, _⟩ => ⟨S16x1x1, .f32⟩
  | .hbm, ⟨66, _⟩ => ⟨S16x1x1, .f32⟩
  | .hbm, ⟨67, _⟩ => ⟨S16x1x1, .f32⟩
  | .hbm, ⟨68, _⟩ => ⟨S1x16x1x1, .f32⟩
  | .hbm, ⟨69, _⟩ => ⟨S4x16x1024x1024, .f32⟩
  | .hbm, ⟨70, _⟩ => ⟨S4x16x1024x1024, .f32⟩
  | .hbm, ⟨71, _⟩ => ⟨S_, .f32⟩
  | .hbm, ⟨72, _⟩ => ⟨S4x16x1024, .f32⟩
  | .hbm, ⟨73, _⟩ => ⟨S_, .f32⟩
  | .hbm, ⟨74, _⟩ => ⟨S4x16x1024, .f32⟩
  | .hbm, ⟨75, _⟩ => ⟨S4x16x1024, .f32⟩
  | .hbm, ⟨76, _⟩ => ⟨S4x16x1024x1, .f32⟩
  | .hbm, ⟨77, _⟩ => ⟨S4x16x1024x1024, .f32⟩
  | .hbm, ⟨78, _⟩ => ⟨S4x16x1024x1024, .f32⟩
  | .hbm, ⟨79, _⟩ => ⟨S4x16x1024x1024, .f32⟩
  | .hbm, ⟨80, _⟩ => ⟨S_, .f32⟩
  | .hbm, ⟨81, _⟩ => ⟨S4x16x1024, .f32⟩
  | .hbm, ⟨82, _⟩ => ⟨S4x16x1024x1, .f32⟩
  | .hbm, ⟨83, _⟩ => ⟨S4x16x1024x1024, .f32⟩
  | .hbm, ⟨84, _⟩ => ⟨S4x16x1024x1024, .f32⟩
  | .hbm, ⟨85, _⟩ => ⟨S4x16x1024x64, .f32⟩
  | .hbm, ⟨86, _⟩ => ⟨S4x1024x16x64, .f32⟩
  | .hbm, ⟨87, _⟩ => ⟨S4x1024x1024, .f32⟩
  | .hbm, ⟨88, _⟩ => ⟨S4x1024x1024, .f32⟩
  | .hbm, ⟨89, _⟩ => ⟨S1x1x1024, .f32⟩
  | .hbm, ⟨90, _⟩ => ⟨S4x1024x1024, .f32⟩
  | .hbm, ⟨91, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x1024x3072_0_1_2 : S1x1x3072.BroadcastsInDim S4x1024x3072 (![0, 1, 2] : Fin 3 → Fin S4x1024x3072.rank)
  slices_S4x1024x3072_S4x1024x1024_0_0_0 : S4x1024x3072.Slices ![0, 0, 0] S4x1024x1024
  slices_S4x1024x3072_S4x1024x1024_0_0_1024 : S4x1024x3072.Slices ![0, 0, 1024] S4x1024x1024
  slices_S4x1024x3072_S4x1024x1024_0_0_2048 : S4x1024x3072.Slices ![0, 0, 2048] S4x1024x1024
  bcast_S_S4x1024x1024 : S_.BroadcastsInDim S4x1024x1024 (![] : Fin 0 → Fin S4x1024x1024.rank)
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  reducesTo_S4x16x1024x64_S4x16x1024_d3 : S4x16x1024x64.ReducesTo [3] S4x16x1024
  h_S_ : 0 < S_.numel
  bcast_S4x16x1024_S4x16x1024x1_0_1_2 : S4x16x1024.BroadcastsInDim S4x16x1024x1 (![0, 1, 2] : Fin 3 → Fin S4x16x1024x1.rank)
  bcast_S_S4x16x1024x1 : S_.BroadcastsInDim S4x16x1024x1 (![] : Fin 0 → Fin S4x16x1024x1.rank)
  bcast_S4x16x1024x1_S4x16x1024x64_0_1_2_3 : S4x16x1024x1.BroadcastsInDim S4x16x1024x64 (![0, 1, 2, 3] : Fin 4 → Fin S4x16x1024x64.rank)
  bcast_S_S16x1x1 : S_.BroadcastsInDim S16x1x1 (![] : Fin 0 → Fin S16x1x1.rank)
  bcast_S16x1x1_S1x16x1x1_1_2_3 : S16x1x1.BroadcastsInDim S1x16x1x1 (![1, 2, 3] : Fin 3 → Fin S1x16x1x1.rank)
  bcast_S1x16x1x1_S4x16x1024x1024_0_1_2_3 : S1x16x1x1.BroadcastsInDim S4x16x1024x1024 (![0, 1, 2, 3] : Fin 4 → Fin S4x16x1024x1024.rank)
  reducesTo_S4x16x1024x1024_S4x16x1024_d3 : S4x16x1024x1024.ReducesTo [3] S4x16x1024
  bcast_S_S4x16x1024 : S_.BroadcastsInDim S4x16x1024 (![] : Fin 0 → Fin S4x16x1024.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  dot_S4x1024x1024_S3072x1024_S4x1024x3072_2_1_01_0_n_n_wf : DotDims.WF S4x1024x1024 S3072x1024 S4x1024x3072 [2] [1] [0, 1] [0] [] []
  dot_S4x1024x1024_S8x1024_S4x1024x8_2_1_01_0_n_n_wf : DotDims.WF S4x1024x1024 S8x1024 S4x1024x8 [2] [1] [0, 1] [0] [] []
  dot_S4x1024x8_S1024x8_S4x1024x1024_2_1_01_0_n_n_wf : DotDims.WF S4x1024x8 S1024x8 S4x1024x1024 [2] [1] [0, 1] [0] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]
  dot_S4x1024x1024_S1024x1024_S4x1024x1024_2_1_01_0_n_n_wf : DotDims.WF S4x1024x1024 S1024x1024 S4x1024x1024 [2] [1] [0, 1] [0] [] []

variable [Facts₀]

def dot_S4x1024x1024_S3072x1024_S4x1024x3072_2_1_01_0_n_n : DotDims S4x1024x1024 S3072x1024 S4x1024x3072 where
  lhsContracting := [2]
  rhsContracting := [1]
  lhsNonContracting := [0, 1]
  rhsNonContracting := [0]
  lhsBatch := []
  rhsBatch := []
  wf := dot_S4x1024x1024_S3072x1024_S4x1024x3072_2_1_01_0_n_n_wf
def dot_S4x1024x1024_S8x1024_S4x1024x8_2_1_01_0_n_n : DotDims S4x1024x1024 S8x1024 S4x1024x8 where
  lhsContracting := [2]
  rhsContracting := [1]
  lhsNonContracting := [0, 1]
  rhsNonContracting := [0]
  lhsBatch := []
  rhsBatch := []
  wf := dot_S4x1024x1024_S8x1024_S4x1024x8_2_1_01_0_n_n_wf
def dot_S4x1024x8_S1024x8_S4x1024x1024_2_1_01_0_n_n : DotDims S4x1024x8 S1024x8 S4x1024x1024 where
  lhsContracting := [2]
  rhsContracting := [1]
  lhsNonContracting := [0, 1]
  rhsNonContracting := [0]
  lhsBatch := []
  rhsBatch := []
  wf := dot_S4x1024x8_S1024x8_S4x1024x1024_2_1_01_0_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf
def dot_S4x1024x1024_S1024x1024_S4x1024x1024_2_1_01_0_n_n : DotDims S4x1024x1024 S1024x1024 S4x1024x1024 where
  lhsContracting := [2]
  rhsContracting := [1]
  lhsNonContracting := [0, 1]
  rhsNonContracting := [0]
  lhsBatch := []
  rhsBatch := []
  wf := dot_S4x1024x1024_S1024x1024_S4x1024x1024_2_1_01_0_n_n_wf

class Facts : Prop extends Facts₀ where

variable [Facts]
-- ==== Proof.KernelRun.lean ====
/-
  The idealized kernel's run with its result NAMED: every weakly fair execution of @main terminates, nothing
  faulting, with the result array at the last segment boundary's contents `W6 … main_v25` — what the third
  region's write-backs leave — and the twelve argument arrays as launched.
-/
import proofs.«113965_j91061896609820_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read out of the final contents beside the arguments. -/
theorem run_named : θ_run defs (onTc (τ := τ) (main (F := F))) ⟨m, fun _ => 0, ρ⟩ (fun r => ∀ c : Dev nD,
      r.2.mem ((c.tc : Thread nD τ).loc main_v25) = W6 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v25 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.ValueRun

end
-- ==== Proof.Spec.lean ====
/-
  Cosine attention with low-rank adapters, stage by stage, as functions of whole arrays over the extended
  reals, index by index. Nothing here mentions a program: both programs are later shown to compute these
  functions.

  Stage 1 (per batch n, token l): three projections of the token's row x[n, l, :] — one per third s of the
  stacked weight W (3072 rows) — each the dense product with rows s·1024 … s·1024+1023 of W plus the bias,
  plus twice the rank-8 path (x·Aᵀ)·Bᵀ; the 1024 output columns are read as 16 heads of 64 lanes, and the
  first two projections are divided, head by head and token by token, by the larger of the head vector's
  Euclidean norm and a tiny floor.
  Stage 2 (per batch n, head h): the logits q·k over the 64 lanes, times the head's scale
  exp(min(logit_scale, log 100)); a softmax along the keys (subtract the row's maximum, exponentiate, divide
  by the row's sum); the probabilities' mix of the value rows; heads laid side by side again as 1024 columns.
  Stage 3: the dense product with the output weight's rows plus its bias.
-/
import Idealize.ShloMosaic.Lib.ValueIdx
import Idealize.ShloMosaic.PureOps.Ideal.Laws

noncomputable section

namespace Cert.AttnSpec

open Idealize.ShloMosaic Idealize.ShloMosaic.ValueIdx

abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal
abbrev Arr4 (a b c d : ℕ) : Type := (⟨4, ![a, b, c, d]⟩ : Shape).Idx → EReal

/-- The adapter scale 2, as the exact value of its 32-bit pattern. -/
abbrev two : EReal := Ideal.ofBits .f32 0x40000000#32
/-- The floor under a norm: the single-precision number nearest 1e-12, as the exact value of its pattern. -/
abbrev tiny : EReal := Ideal.ofBits .f32 0x2B8CBCCC#32
/-- The value a running maximum starts from: the pattern of −∞. -/
abbrev negInf : EReal := Ideal.ofBits .f32 0xFF800000#32
/-- The clamp on the logit scale: the single-precision number nearest log 100, as the exact value of its pattern. -/
abbrev cap : EReal := Ideal.ofBits .f32 0x40935D8E#32

/-- Row `o` of the `s`-th third of the stacked weight. -/
def wrow (s : Fin 3) (o : Fin 1024) : Fin 3072 := ⟨s.val * 1024 + o.val, by have := s.isLt; have := o.isLt; omega⟩

/-- Lane `d` of head `h` among the 1024 columns. -/
def headCol (h : Fin 16) (d : Fin 64) : Fin 1024 := ⟨h.val * 64 + d.val, by have := h.isLt; have := d.isLt; omega⟩
/-- The head a column belongs to, and its lane there. -/
def headOf (c : Fin 1024) : Fin 16 := ⟨c.val / 64, by have := c.isLt; omega⟩
def laneOf (c : Fin 1024) : Fin 64 := ⟨c.val % 64, by omega⟩

/-- Head `j` of the `g`-th group of four heads, among the sixteen. -/
def grp (g j : Fin 4) : Fin 16 := ⟨g.val * 4 + j.val, by have := g.isLt; have := j.isLt; omega⟩
/-- Lane `e` of the `j`-th head of a group, among the group's 256 columns. -/
def slabCol (j : Fin 4) (e : Fin 64) : Fin 256 := ⟨j.val * 64 + e.val, by have := j.isLt; have := e.isLt; omega⟩

/-- One projection at (n, l, o): (x·Wₛᵀ + bₛ) + ((x·Aᵀ)·Bᵀ)·2. -/
def proj (X : Arr3 4 1024 1024) (W : Arr2 3072 1024) (bias : Arr1 3072) (A : Arr2 8 1024) (B : Arr2 1024 8)
    (s : Fin 3) (n : Fin 4) (l o : Fin 1024) : EReal :=
  ((∑ c : Fin 1024, X (ix3 n l c) * W (ix2 (wrow s o) c)) + bias (ix1 (wrow s o)))
    + (∑ r : Fin 8, (∑ c : Fin 1024, X (ix3 n l c) * A (ix2 r c)) * B (ix2 o r)) * two

/-- A projection's columns read as heads: entry (n, h, l, d) is column h·64 + d of row (n, l). -/
def heads (P : Fin 4 → Fin 1024 → Fin 1024 → EReal) : Arr4 4 16 1024 64 :=
  fun i => P (i 0) (i 2) (headCol (i 1) (i 3))

/-- Each head vector (the 64 lanes at a fixed n, h, l) divided by the larger of its norm and the floor. -/
def unit (T : Arr4 4 16 1024 64) : Arr4 4 16 1024 64 :=
  fun i => Ideal.div (T i)
    (max (Ideal.sqrt (∑ e : Fin 64, T (ix4 (i 0) (i 1) (i 2) e) * T (ix4 (i 0) (i 1) (i 2) e))) tiny)

/-- The normalised queries, the normalised keys and the values, as functions of the arguments. -/
def queries (X : Arr3 4 1024 1024) (W : Arr2 3072 1024) (bias : Arr1 3072) (A : Arr2 8 1024) (B : Arr2 1024 8) :
    Arr4 4 16 1024 64 := unit (heads (proj X W bias A B 0))
def keys (X : Arr3 4 1024 1024) (W : Arr2 3072 1024) (bias : Arr1 3072) (A : Arr2 8 1024) (B : Arr2 1024 8) :
    Arr4 4 16 1024 64 := unit (heads (proj X W bias A B 1))
def values (X : Arr3 4 1024 1024) (W : Arr2 3072 1024) (bias : Arr1 3072) (A : Arr2 8 1024) (B : Arr2 1024 8) :
    Arr4 4 16 1024 64 := heads (proj X W bias A B 2)

/-- Each head's scale: exp of the logit scale clamped above. -/
def scaleOf (ls : Arr3 16 1 1) : Arr3 16 1 1 := fun i => Ideal.exp (min (ls i) cap)

/-- The logit of query token `l` against key token `m` in head (n, h). -/
def logit (Q K : Arr4 4 16 1024 64) (sc : Arr3 16 1 1) (n : Fin 4) (h : Fin 16) (l m : Fin 1024) : EReal :=
  (∑ e : Fin 64, Q (ix4 n h l e) * K (ix4 n h m e)) * sc (ix3 h 0 0)

/-- A row's maximum, taken from −∞ (and once more against −∞, as both programs do). -/
def peak (f : Fin 1024 → EReal) : EReal := max negInf (Finset.univ.fold max negInf f)

/-- exp of a logit less its row's maximum. -/
def weight (Q K : Arr4 4 16 1024 64) (sc : Arr3 16 1 1) (n : Fin 4) (h : Fin 16) (l m : Fin 1024) : EReal :=
  Ideal.exp (logit Q K sc n h l m - peak (logit Q K sc n h l))

/-- The softmax probability: a weight over its row's sum. -/
def prob (Q K : Arr4 4 16 1024 64) (sc : Arr3 16 1 1) (n : Fin 4) (h : Fin 16) (l m : Fin 1024) : EReal :=
  Ideal.div (weight Q K sc n h l m) (∑ m' : Fin 1024, weight Q K sc n h l m')

/-- The attention output at (n, l, c): in column c's head, the probabilities' mix of that lane of the values. -/
def mix (Q K V : Arr4 4 16 1024 64) (sc : Arr3 16 1 1) : Arr3 4 1024 1024 :=
  fun i => ∑ m : Fin 1024, prob Q K sc (i 0) (headOf (i 2)) (i 1) m * V (ix4 (i 0) (headOf (i 2)) m (laneOf (i 2)))

/-- The output projection at (n, l, o): row (n, l) against row o of the weight, plus the bias. -/
def outProj (T : Arr3 4 1024 1024) (Wo : Arr2 1024 1024) (bo : Arr1 1024) : Arr3 4 1024 1024 :=
  fun i => (∑ c : Fin 1024, T (ix3 (i 0) (i 1) c) * Wo (ix2 (i 2) c)) + bo (ix1 (i 2))

/-- The whole block, as a function of the twelve arguments. -/
def block (X : Arr3 4 1024 1024) (W : Arr2 3072 1024) (bias : Arr1 3072)
    (Aq : Arr2 8 1024) (Bq : Arr2 1024 8) (Ak : Arr2 8 1024) (Bk : Arr2 1024 8) (Av : Arr2 8 1024) (Bv : Arr2 1024 8)
    (ls : Arr3 16 1 1) (Wo : Arr2 1024 1024) (bo : Arr1 1024) : Arr3 4 1024 1024 :=
  outProj (mix (queries X W bias Aq Bq) (keys X W bias Ak Bk) (values X W bias Av Bv) (scaleOf ls)) Wo bo

end Cert.AttnSpec

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.OutProjBlock.lean ====
/-
  The third kernel's store payload read at an index: row l of the point's [1,1024,1024] block against column o
  of the transposed weight, plus the bias — the output projection at (n, l, o) once the blocks are known to be
  batch n of the attention output, the weight transposed, and the bias.
-/
import proofs.«113965_j91061896609820_2_alg».proof.Proof.Gen.KernelIdeal.Skeleton
import proofs.«113965_j91061896609820_2_alg».proof.Proof.Spec
import proofs.«113965_j91061896609820_2_alg».proof.Proof.LibIndex
import Idealize.ShloMosaic.Lib.ValueLayout

noncomputable section

namespace Cert.KernelIdeal.Blocks

open Cert.KernelIdeal Cert.KernelIdeal.Gen Cert.AttnSpec Idealize.ShloMosaic Idealize.ShloMosaic.ValueIdx

/-- The dense product's dimension record is the plain rows-by-columns one. -/
theorem dense_plain : dot_S1024x1024_S1024x1024_S1024x1024_1_0_0_1_n_n = DotDims.plain 1024 1024 1024 := rfl

theorem outProj_block (T : Arr3 4 1024 1024) (Wo : Arr2 1024 1024) (bo : Arr1 1024) (n : Fin 4)
    (x0 : Vec Ideal S1x1024x1024 .bf16) (x1 : Vec Ideal S1024x1024 .bf16) (x2 : Vec Ideal S1024 .f32)
    (hx : ∀ l c : Fin 1024, x0 (ix3 0 l c) = T (ix3 n l c))
    (hw : ∀ c o : Fin 1024, x1 (ix2 c o) = Wo (ix2 o c))
    (hb : ∀ o : Fin 1024, x2 (ix1 o) = bo (ix1 o))
    (l o : Fin 1024) :
    k2_pay1 x0 x1 x2 (ix3 0 l o) = outProj T Wo bo (ix3 n l o) := by
  unfold k2_pay1
  simp only [matmul]
  rw [shapeCast_ab_1ab_apply, addf_apply, Ideal.matmul_constant_zero_apply,
    Cert.LayoutLib.dot_plain_sum _ dense_plain, broadcastTo_1b_ab_apply, shapeCast_a_1a_apply, hb]
  show _ = (∑ c : Fin 1024, T (ix3 n l c) * Wo (ix2 o c)) + bo (ix1 o)
  refine congrArg (· + bo (ix1 o)) (Finset.sum_congr rfl fun k _ => ?_)
  rw [shapeCast_1ab_ab_apply, shapeCast_self, shapeCast_self, hx, hw]

end Cert.KernelIdeal.Blocks

end
-- ==== Proof.RegionOut.lean ====
/-
  The third region's result array after its four grid points, as one function of the arrays the region finds on
  entry: point t writes back block t = batch t of the output projection, and the four blocks fill the array.
  Stated for ANY entry contents V, under coordinate hypotheses saying what the three input arrays are.
-/
import proofs.«113965_j91061896609820_2_alg».proof.Proof.Gen.KernelIdeal.Frame
import proofs.«113965_j91061896609820_2_alg».proof.Proof.OutProjBlock
import Idealize.ShloMosaic.Lib.Pipeline.Value

set_option maxRecDepth 16384

noncomputable section

namespace Cert.KernelIdeal.Arrays

open Cert.KernelIdeal Cert.KernelIdeal.Gen Cert.KernelIdeal.Blocks Cert.AttnSpec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The third region's index maps over its grid: point t stages batch t of the first operand and of the result;
    the weight and the bias are staged whole. -/
theorem idx_out : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 1) = 0
    ∧ win2_3.index t (0 : Fin 3) = t.val ∧ win2_3.index t (1 : Fin 3) = 0 ∧ win2_3.index t (2 : Fin 3) = 0
    ∧ t.val < 4 :=
  (by decide +kernel : ∀ t : Fin grid2.N, _)

/-- What point t writes back is block t of the output projection of the entry arrays. -/
theorem flushed_out (c : Dev nD) (T : Arr3 4 1024 1024) (Wo : Arr2 1024 1024) (bo : Arr1 1024)
    (hT : ∀ (n : Fin 4) (l k : Fin 1024), (V c (Pipeline.arrRef spec2 0) : S4x1024x1024.Idx → EReal) (ix3 n l k) = T (ix3 n l k))
    (hW : ∀ k o : Fin 1024, (V c (Pipeline.arrRef spec2 1) : S1024x1024.Idx → EReal) (ix2 k o) = Wo (ix2 o k))
    (hB : ∀ o : Fin 1024, (V c (Pipeline.arrRef spec2 2) : S1024.Idx → EReal) (ix1 o) = bo (ix1 o))
    (t : Fin cfg2.N) :
    (dat2 V c).flushed 3 t = ((cfg2.win 3).blk t).view.read (Elt Ideal) (outProj T Wo bo) := by
  show (cfg2.win 3).cut (grid2.coords t) ((dat2 V c).after 3 t) = _
  rw [after2_3]
  unfold out2_3
  rw [View.canon_unit_zero hz3]
  simp only [View.ld_unit_zero (S := S1x1024x1024) hz3, View.ld_unit_zero (S := S1024x1024) hz2, View.ld_unit_zero (S := S1024) hz1]
  obtain ⟨e00, e01, e02, e10, e11, e20, e30, e31, e32, hn⟩ := idx_out t
  funext y
  obtain ⟨u, l, o, rfl⟩ : ∃ (u : Fin 1) (l o : Fin 1024), y = ix3 u l o := ⟨y 0, y 1, y 2, eq_ix3 y⟩
  obtain rfl : u = 0 := Subsingleton.elim _ _
  have hemb : ((cfg2.win 3).blk t).view.emb (ix3 (0 : Fin 1) l o) = ix3 (⟨t.val, hn⟩ : Fin 4) l o := by
    funext a; apply Fin.ext
    match a with
    | ⟨0, _⟩ => show win2_3.index t (0 : Fin 3) * 1 + 1 * 0 = t.val; omega
    | ⟨1, _⟩ => show win2_3.index t (1 : Fin 3) * 1024 + 1 * l.val = l.val; omega
    | ⟨2, _⟩ => show win2_3.index t (2 : Fin 3) * 1024 + 1 * o.val = o.val; omega
  show k2_pay1 (iblk2 V c 0 t) (iblk2 V c 1 t) (iblk2 V c 2 t) (ix3 (0 : Fin 1) l o)
    = outProj T Wo bo (((cfg2.win 3).blk t).view.emb (ix3 (0 : Fin 1) l o))
  rw [hemb]
  refine outProj_block T Wo bo ⟨t.val, hn⟩ (iblk2 V c 0 t) (iblk2 V c 1 t) (iblk2 V c 2 t) ?_ ?_ ?_ l o
  · intro l' k
    have he : ((cfg2.win 0).blk t).view.emb (ix3 (0 : Fin 1) l' k) = ix3 (⟨t.val, hn⟩ : Fin 4) l' k := by
      funext a; apply Fin.ext
      match a with
      | ⟨0, _⟩ => show win2_0.index t (0 : Fin 3) * 1 + 1 * 0 = t.val; omega
      | ⟨1, _⟩ => show win2_0.index t (1 : Fin 3) * 1024 + 1 * l'.val = l'.val; omega
      | ⟨2, _⟩ => show win2_0.index t (2 : Fin 3) * 1024 + 1 * k.val = k.val; omega
    exact (congrArg (V c (Pipeline.arrRef spec2 0) : S4x1024x1024.Idx → EReal) he).trans (hT _ _ _)
  · intro k o'
    have he : ((cfg2.win 1).blk t).view.emb (ix2 k o') = ix2 k o' := by
      funext a; apply Fin.ext
      match a with
      | ⟨0, _⟩ => show win2_1.index t (0 : Fin 2) * 1024 + 1 * k.val = k.val; omega
      | ⟨1, _⟩ => show win2_1.index t (1 : Fin 2) * 1024 + 1 * o'.val = o'.val; omega
    exact (congrArg (V c (Pipeline.arrRef spec2 1) : S1024x1024.Idx → EReal) he).trans (hW _ _)
  · intro o'
    have he : ((cfg2.win 2).blk t).view.emb (ix1 o') = ix1 o' := by
      funext a; apply Fin.ext
      match a with
      | ⟨0, _⟩ => show win2_2.index t (0 : Fin 1) * 1024 + 1 * o'.val = o'.val; omega
    exact (congrArg (V c (Pipeline.arrRef spec2 2) : S1024.Idx → EReal) he).trans (hB _)

/-- Every index of the result array lies in the block of the point named by its batch coordinate. -/
theorem cover_out (i : S4x1024x1024.Idx) :
    ∃ t : Fin cfg2.N, (cfg2.win 3).flush t = true ∧ i ∈ ((cfg2.win 3).blk t).view.set := by
  have h0 : (i 0).val < 4 := (i 0).isLt
  have h1 : (i 1).val < 1024 := (i 1).isLt
  have h2 : (i 2).val < 1024 := (i 2).isLt
  let t : Fin cfg2.N := ⟨(i 0).val, by rw [show cfg2.N = 4 from N_2]; exact h0⟩
  obtain ⟨e00, e01, e02, e10, e11, e20, e30, e31, e32, hn⟩ := idx_out t
  refine ⟨t, flush2_3 t, ?_⟩
  show i ∈ ((View.whole main_v25).slice (win2_3.rect t)).set
  rw [View.set_slice_whole, Rect.mem_set_unit]
  intro a
  match a with
  | ⟨0, _⟩ => show win2_3.index t (0 : Fin 3) * 1 ≤ (i 0).val ∧ (i 0).val < win2_3.index t (0 : Fin 3) * 1 + 1
              have : t.val = (i 0).val := rfl
              omega
  | ⟨1, _⟩ => show win2_3.index t (1 : Fin 3) * 1024 ≤ (i 1).val ∧ (i 1).val < win2_3.index t (1 : Fin 3) * 1024 + 1024; omega
  | ⟨2, _⟩ => show win2_3.index t (2 : Fin 3) * 1024 ≤ (i 2).val ∧ (i 2).val < win2_3.index t (2 : Fin 3) * 1024 + 1024; omega

/-- The result array after the region: the output projection of the entry arrays. -/
theorem array_out (c : Dev nD) (T : Arr3 4 1024 1024) (Wo : Arr2 1024 1024) (bo : Arr1 1024)
    (hT : ∀ (n : Fin 4) (l k : Fin 1024), (V c (Pipeline.arrRef spec2 0) : S4x1024x1024.Idx → EReal) (ix3 n l k) = T (ix3 n l k))
    (hW : ∀ k o : Fin 1024, (V c (Pipeline.arrRef spec2 1) : S1024x1024.Idx → EReal) (ix2 k o) = Wo (ix2 o k))
    (hB : ∀ o : Fin 1024, (V c (Pipeline.arrRef spec2 2) : S1024.Idx → EReal) (ix1 o) = bo (ix1 o)) :
    (dat2 V c).arrAt 3 cfg2.N = outProj T Wo bo :=
  (dat2 V c).arrAt_eq_of_cover 3 (outProj T Wo bo) (fun t _ => flushed_out V c T Wo bo hT hW hB t) cover_out

end Cert.KernelIdeal.Arrays

end
-- ==== Proof.MixBlock.lean ====
/-
  The attention kernel's payload read at one element. The block it stores is four heads' outputs laid side by
  side; at row l and lane e of the j-th of them it is the softmax-weighted mix of that lane of the value rows:
  the logits are the contraction of the query row with each key row over the 64 lanes, times the head's scale;
  the row's maximum is subtracted, the exponentials are divided by their row sum, and the resulting
  probabilities contract with the values over the 1024 key positions. Each non-pointwise step (the two batched
  contractions, the two row reductions, the broadcasts and the changes of layout) is first read at explicit
  coordinates; the theorem then chains them.
-/
import proofs.«113965_j91061896609820_2_alg».proof.Proof.Gen.KernelIdeal.Skeleton
import proofs.«113965_j91061896609820_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks.MixAux
open Cert.KernelIdeal Cert.KernelIdeal.Gen Cert.AttnSpec Idealize.ShloMosaic Idealize.ShloMosaic.ValueIdx

/-- The logits' contraction: the head axis carried along, the 64 lanes of both operands contracted. -/
abbrev dotQK := dot_S4x1024x64_S4x1024x64_S4x1024x1024_2_2_1_1_0_0
/-- The mix's contraction: the head axis carried along, the 1024 key positions contracted. -/
abbrev dotPV := dot_S4x1024x1024_S4x1024x64_S4x1024x64_2_1_1_2_0_0

/-! ## Layout steps at coordinates -/

/-- A loaded [1, 4, 1024, 64] block viewed as [4, 1024, 64] reads (b, l, e) at (0, b, l, e). -/
theorem block_cast_apply (x : FVec Ideal S1x4x1024x64 .bf16) (h0 : S1x4x1024x64.ShapeCasts S1x4x1024x64)
    (h1 : S1x4x1024x64.ShapeCasts S4x1024x64) (b : Fin 4) (l : Fin 1024) (e : Fin 64) :
    shapeCast S4x1024x64 (shapeCast S1x4x1024x64 x h0) h1 (ix3 b l e) = x (ix4 (0 : Fin 1) b l e) := by
  rw [shapeCast_self]
  exact shapeCast_1abc_abc_apply x h1 b l e

/-- The [4, 1, 1] scales broadcast over rows and columns read the head's one scale. -/
theorem scale_bcast_apply (s : FVec Ideal S4x1x1 .f32) (h0 : S4x1x1.ShapeCasts S4x1x1)
    (hb : S4x1x1.Broadcasts S4x1024x1024) (b : Fin 4) (l m : Fin 1024) :
    broadcastTo S4x1024x1024 (shapeCast S4x1x1 s h0) hb (ix3 b l m) = s (ix3 b (0 : Fin 1) (0 : Fin 1)) := by
  rw [shapeCast_self]
  refine broadcastTo_apply s hb (ix3 b l m) (ix3 b (0 : Fin 1) (0 : Fin 1)) fun a => ?_
  match a with
  | ⟨0, _⟩ => rfl
  | ⟨1, _⟩ => rfl
  | ⟨2, _⟩ => rfl

/-- A per-row quantity [4, 1024] kept as a column [4, 1024, 1] and broadcast along the row reads the row's value. -/
theorem keepdims_bcast_apply (v : FVec Ideal S4x1024 .f32) (hc : S4x1024.ShapeCasts S4x1024x1)
    (hb : S4x1024x1.Broadcasts S4x1024x1024) (b : Fin 4) (l m : Fin 1024) :
    broadcastTo S4x1024x1024 (shapeCast S4x1024x1 v hc) hb (ix3 b l m) = v (ix2 b l) := by
  refine (broadcastTo_apply _ hb (ix3 b l m) (ix3 b l (0 : Fin 1)) fun a => ?_).trans ?_
  · match a with
    | ⟨0, _⟩ => rfl
    | ⟨1, _⟩ => rfl
    | ⟨2, _⟩ => rfl
  · refine shapeCast_apply v hc _ (ix2 b l) ?_
    rw [Shape.rowMajor_val_two, Shape.rowMajor_val_three]
    show b.val * 1024 + l.val = (b.val * 1024 + l.val) * 1 + 0
    omega

/-! ## The row reductions at coordinates -/

/-- The source index over row (b, l) with coordinate m on the reduced axis is (b, l, m). -/
theorem lift_row (h : S4x1024x1024.Reduces [(2 : Fin 3)] S4x1024) (b : Fin 4) (l m : Fin 1024) :
    h.lift (ix2 b l) m = ix3 b l m :=
  funext fun c => Fin.ext (by match c with | ⟨0, _⟩ => rfl | ⟨1, _⟩ => rfl | ⟨2, _⟩ => rfl)

/-- A row's maximum: the fold of max from −∞ over the row's 1024 entries. -/
theorem rowmax_apply (src : FVec Ideal S4x1024x1024 .f32) (h : S4x1024x1024.Reduces [(2 : Fin 3)] S4x1024)
    (hφ : FKind.Formats .f32) (hacc : (0xFF800000#32 : BitVec 32) = FKind.maximumf.neutral .f32 hφ)
    (b : Fin 4) (l : Fin 1024) :
    multiReduction .maximumf [(2 : Fin 3)] S4x1024 src 0xFF800000#32 h hφ hacc (ix2 b l)
      = (Finset.univ : Finset (Fin 1024)).fold max negInf (fun m => src (ix3 b l m)) := by
  refine (Ideal.multiReduction_maximumf_single src _ h hφ hacc (ix2 b l)).trans ?_
  show (Finset.univ : Finset (Fin 1024)).fold max negInf (src ∘ h.lift (ix2 b l)) = _
  congr 1
  funext m
  exact congrArg src (lift_row h b l m)

/-- A row's sum: the sum of the row's 1024 entries (the zero accumulator drops out). -/
theorem rowsum_apply (src : FVec Ideal S4x1024x1024 .f32) (h : S4x1024x1024.Reduces [(2 : Fin 3)] S4x1024)
    (hφ : FKind.Formats .f32) (hacc : (0x00000000#32 : BitVec 32) = FKind.add.neutral .f32 hφ)
    (b : Fin 4) (l : Fin 1024) :
    multiReduction .add [(2 : Fin 3)] S4x1024 src 0x00000000#32 h hφ hacc (ix2 b l)
      = ∑ m : Fin 1024, src (ix3 b l m) := by
  refine (Ideal.multiReduction_add_single src _ h hφ hacc (ix2 b l)).trans ?_
  show ∑ m : Fin 1024, src (h.lift (ix2 b l) m) = _
  exact Finset.sum_congr rfl fun m _ => congrArg src (lift_row h b l m)

/-! ## The two batched contractions at coordinates

For each, the operand indices at output (b, l, ·) and contraction coordinate k: the head coordinate is the
output's, the free coordinate the output's row or column, the contracted one k. -/

theorem qk_lhs_0 (i : S4x1024x1024.Idx) (q : dotQK.contr.Idx) : (dotQK.lhsIdx i q 0).val = (i 0).val := by
  unfold DotDims.lhsIdx
  rw [dif_pos (show (0 : Fin S4x1024x64.rank) ∈ dotQK.lhsBatch by decide)]
  rfl
theorem qk_lhs_1 (i : S4x1024x1024.Idx) (q : dotQK.contr.Idx) : (dotQK.lhsIdx i q 1).val = (i 1).val := by
  unfold DotDims.lhsIdx
  rw [dif_neg (show ¬(1 : Fin S4x1024x64.rank) ∈ dotQK.lhsBatch by decide),
    dif_pos (show (1 : Fin S4x1024x64.rank) ∈ dotQK.lhsNonContracting by decide)]
  rfl
theorem qk_lhs_2 (i : S4x1024x1024.Idx) (q : dotQK.contr.Idx) :
    (dotQK.lhsIdx i q 2).val = (q ⟨0, by decide⟩).val :=
  dotQK.lhsIdx_val_of_single rfl i q
theorem qk_rhs_0 (i : S4x1024x1024.Idx) (q : dotQK.contr.Idx) : (dotQK.rhsIdx i q 0).val = (i 0).val := by
  unfold DotDims.rhsIdx
  rw [dif_pos (show (0 : Fin S4x1024x64.rank) ∈ dotQK.rhsBatch by decide)]
  rfl
theorem qk_rhs_1 (i : S4x1024x1024.Idx) (q : dotQK.contr.Idx) : (dotQK.rhsIdx i q 1).val = (i 2).val := by
  unfold DotDims.rhsIdx
  rw [dif_neg (show ¬(1 : Fin S4x1024x64.rank) ∈ dotQK.rhsBatch by decide),
    dif_pos (show (1 : Fin S4x1024x64.rank) ∈ dotQK.rhsNonContracting by decide)]
  rfl
theorem qk_rhs_2 (i : S4x1024x1024.Idx) (q : dotQK.contr.Idx) :
    (dotQK.rhsIdx i q 2).val = (q ⟨0, by decide⟩).val :=
  dotQK.rhsIdx_val_of_single rfl i q

/-- Query rows against key rows, into the zero accumulator: at (b, l, m) the sum over the 64 lanes of the
    query at (b, l, ·) times the key at (b, m, ·). -/
theorem qk_apply (q k : FVec Ideal S4x1024x64 .bf16) (b : Fin 4) (l m : Fin 1024) :
    matmul dotQK none q k (constant S4x1024x1024 .f32 0x00000000#32) (ix3 b l m)
      = ∑ e : Fin 64, q (ix3 b l e) * k (ix3 b m e) := by
  show FloatOps.matmul dotQK none q k (constant S4x1024x1024 .f32 0x00000000#32) (ix3 b l m) = _
  rw [Ideal.matmul_constant_zero_apply, ← Equiv.sum_comp (contrEquiv1 dotQK 64 rfl rfl).symm]
  refine Finset.sum_congr rfl fun e _ => ?_
  have he := contrEquiv1_symm_val dotQK 64 rfl rfl e
  have el : dotQK.lhsIdx (ix3 b l m) ((contrEquiv1 dotQK 64 rfl rfl).symm e) = ix3 b l e :=
    funext fun a => Fin.ext (by
      match a with
      | ⟨0, _⟩ => exact qk_lhs_0 _ _
      | ⟨1, _⟩ => exact qk_lhs_1 _ _
      | ⟨2, _⟩ => exact (qk_lhs_2 _ _).trans he)
  have er : dotQK.rhsIdx (ix3 b l m) ((contrEquiv1 dotQK 64 rfl rfl).symm e) = ix3 b m e :=
    funext fun a => Fin.ext (by
      match a with
      | ⟨0, _⟩ => exact qk_rhs_0 _ _
      | ⟨1, _⟩ => exact qk_rhs_1 _ _
      | ⟨2, _⟩ => exact (qk_rhs_2 _ _).trans he)
  rw [el, er]

theorem pv_lhs_0 (i : S4x1024x64.Idx) (q : dotPV.contr.Idx) : (dotPV.lhsIdx i q 0).val = (i 0).val := by
  unfold DotDims.lhsIdx
  rw [dif_pos (show (0 : Fin S4x1024x1024.rank) ∈ dotPV.lhsBatch by decide)]
  rfl
theorem pv_lhs_1 (i : S4x1024x64.Idx) (q : dotPV.contr.Idx) : (dotPV.lhsIdx i q 1).val = (i 1).val := by
  unfold DotDims.lhsIdx
  rw [dif_neg (show ¬(1 : Fin S4x1024x1024.rank) ∈ dotPV.lhsBatch by decide),
    dif_pos (show (1 : Fin S4x1024x1024.rank) ∈ dotPV.lhsNonContracting by decide)]
  rfl
theorem pv_lhs_2 (i : S4x1024x64.Idx) (q : dotPV.contr.Idx) :
    (dotPV.lhsIdx i q 2).val = (q ⟨0, by decide⟩).val :=
  dotPV.lhsIdx_val_of_single rfl i q
theorem pv_rhs_0 (i : S4x1024x64.Idx) (q : dotPV.contr.Idx) : (dotPV.rhsIdx i q 0).val = (i 0).val := by
  unfold DotDims.rhsIdx
  rw [dif_pos (show (0 : Fin S4x1024x64.rank) ∈ dotPV.rhsBatch by decide)]
  rfl
theorem pv_rhs_1 (i : S4x1024x64.Idx) (q : dotPV.contr.Idx) :
    (dotPV.rhsIdx i q 1).val = (q ⟨0, by decide⟩).val :=
  dotPV.rhsIdx_val_of_single rfl i q
theorem pv_rhs_2 (i : S4x1024x64.Idx) (q : dotPV.contr.Idx) : (dotPV.rhsIdx i q 2).val = (i 2).val := by
  unfold DotDims.rhsIdx
  rw [dif_neg (show ¬(2 : Fin S4x1024x64.rank) ∈ dotPV.rhsBatch by decide),
    dif_pos (show (2 : Fin S4x1024x64.rank) ∈ dotPV.rhsNonContracting by decide)]
  rfl

/-- Probability rows against value columns, into the zero accumulator: at (b, l, e) the sum over the 1024 key
    positions of the probability at (b, l, ·) times the value at (b, ·, e). -/
theorem pv_apply (p : FVec Ideal S4x1024x1024 .bf16) (v : FVec Ideal S4x1024x64 .bf16) (b : Fin 4) (l : Fin 1024)
    (e : Fin 64) :
    matmul dotPV none p v (constant S4x1024x64 .f32 0x00000000#32) (ix3 b l e)
      = ∑ m : Fin 1024, p (ix3 b l m) * v (ix3 b m e) := by
  show FloatOps.matmul dotPV none p v (constant S4x1024x64 .f32 0x00000000#32) (ix3 b l e) = _
  rw [Ideal.matmul_constant_zero_apply, ← Equiv.sum_comp (contrEquiv1 dotPV 1024 rfl rfl).symm]
  refine Finset.sum_congr rfl fun m _ => ?_
  have hm := contrEquiv1_symm_val dotPV 1024 rfl rfl m
  have el : dotPV.lhsIdx (ix3 b l e) ((contrEquiv1 dotPV 1024 rfl rfl).symm m) = ix3 b l m :=
    funext fun a => Fin.ext (by
      match a with
      | ⟨0, _⟩ => exact pv_lhs_0 _ _
      | ⟨1, _⟩ => exact pv_lhs_1 _ _
      | ⟨2, _⟩ => exact (pv_lhs_2 _ _).trans hm)
  have er : dotPV.rhsIdx (ix3 b l e) ((contrEquiv1 dotPV 1024 rfl rfl).symm m) = ix3 b m e :=
    funext fun a => Fin.ext (by
      match a with
      | ⟨0, _⟩ => exact pv_rhs_0 _ _
      | ⟨1, _⟩ => exact (pv_rhs_1 _ _).trans hm
      | ⟨2, _⟩ => exact pv_rhs_2 _ _)
  rw [el, er]

/-- The mix [4, 1024, 64] with the head axis moved inside the rows, flattened to 256 columns and given a leading
    unit axis: the stored block at (0, l, j·64 + e) is the mix at (j, l, e). -/
theorem out_layout_apply (y : FVec Ideal S4x1024x64 .f32) (ht : S4x1024x64.Transposes [1, 0, 2] S1024x4x64)
    (hc : S1024x4x64.ShapeCasts S1024x256) (hb : FTy.bits .bf16 < FTy.bits .f32)
    (hc' : S1024x256.ShapeCasts S1x1024x256) (l : Fin 1024) (j : Fin 4) (e : Fin 64) :
    shapeCast S1x1024x256 (truncf .bf16 (shapeCast S1024x256 (transpose S1024x4x64 [1, 0, 2] y ht) hc) hb) hc'
        (ix3 (0 : Fin 1) l (slabCol j e)) = y (ix3 j l e) := by
  refine (shapeCast_ab_1ab_apply _ hc' (0 : Fin 1) l (slabCol j e)).trans ?_
  show shapeCast S1024x256 (transpose S1024x4x64 [1, 0, 2] y ht) hc (ix2 l (slabCol j e)) = _
  refine (shapeCast_apply _ hc (ix2 l (slabCol j e)) (ix3 l j e) ?_).trans ?_
  · rw [Shape.rowMajor_val_three, Shape.rowMajor_val_two]
    show (l.val * 4 + j.val) * 64 + e.val = l.val * 256 + (j.val * 64 + e.val)
    omega
  · exact transpose_apply _ y ht (ix3 l j e) (ix3 j l e) fun c =>
      match c with | ⟨0, _⟩ => rfl | ⟨1, _⟩ => rfl | ⟨2, _⟩ => rfl

/-! ## The payload's stages -/

/-- The four heads' scaled logits, as the payload forms them from the loaded query, key and scale blocks. -/
def blkLogit (x0 x1 : FVec Ideal S1x4x1024x64 .bf16) (x3 : FVec Ideal S4x1x1 .f32) : FVec Ideal S4x1024x1024 .f32 :=
  mulf
    (matmul dotQK none
      (shapeCast S4x1024x64 (shapeCast S1x4x1024x64 x0 shapeCasts_S1x4x1024x64_S1x4x1024x64)
        shapeCasts_S1x4x1024x64_S4x1024x64)
      (shapeCast S4x1024x64 (shapeCast S1x4x1024x64 x1 shapeCasts_S1x4x1024x64_S1x4x1024x64)
        shapeCasts_S1x4x1024x64_S4x1024x64)
      (constant S4x1024x1024 .f32 0x00000000#32))
    (broadcastTo S4x1024x1024 (shapeCast S4x1x1 x3 shapeCasts_S4x1x1_S4x1x1) broadcasts_S4x1x1_S4x1024x1024)

/-- Each row's maximum, taken from −∞ and once more against −∞. -/
def blkPeak (L : FVec Ideal S4x1024x1024 .f32) : FVec Ideal S4x1024 .f32 :=
  maximumf (broadcast S4x1024 (Scalar.ofBits .f32 0xFF800000#32))
    (multiReduction .maximumf [2] S4x1024 L 0xFF800000#32 reduces_S4x1024x1024_S4x1024 (.inl rfl) rfl)

/-- exp of each logit less its row's maximum. -/
def blkExp (L : FVec Ideal S4x1024x1024 .f32) : FVec Ideal S4x1024x1024 .f32 :=
  exp (subf L (broadcastTo S4x1024x1024 (shapeCast S4x1024x1 (blkPeak L) shapeCasts_S4x1024_S4x1024x1)
    broadcasts_S4x1024x1_S4x1024x1024))

/-- Each exponential over its row's sum. -/
def blkProb (L : FVec Ideal S4x1024x1024 .f32) : FVec Ideal S4x1024x1024 .f32 :=
  divf (blkExp L)
    (broadcastTo S4x1024x1024
      (shapeCast S4x1024x1
        (multiReduction .add [2] S4x1024 (blkExp L) 0x00000000#32 reduces_S4x1024x1024_S4x1024 (.inl rfl) rfl)
        shapeCasts_S4x1024_S4x1024x1)
      broadcasts_S4x1024x1_S4x1024x1024)

/-- The payload is the stored layout of the probabilities' contraction with the value block. -/
theorem k1_pay1_eq (x0 x1 x2 : FVec Ideal S1x4x1024x64 .bf16) (x3 : FVec Ideal S4x1x1 .f32) :
    k1_pay1 x0 x1 x2 x3
      = shapeCast S1x1024x256
          (truncf .bf16
            (shapeCast S1024x256
              (transpose S1024x4x64 [1, 0, 2]
                (matmul dotPV none (truncf .bf16 (blkProb (blkLogit x0 x1 x3)) bitsLt_bf16_f32)
                  (shapeCast S4x1024x64 (shapeCast S1x4x1024x64 x2 shapeCasts_S1x4x1024x64_S1x4x1024x64)
                    shapeCasts_S1x4x1024x64_S4x1024x64)
                  (constant S4x1024x64 .f32 0x00000000#32))
                transposes_S4x1024x64_p1_0_2_S1024x4x64)
              shapeCasts_S1024x4x64_S1024x256)
            bitsLt_bf16_f32)
          shapeCasts_S1024x256_S1x1024x256 := rfl

/-! ## The stages at coordinates -/

theorem blkPeak_apply (L : FVec Ideal S4x1024x1024 .f32) (b : Fin 4) (l : Fin 1024) :
    blkPeak L (ix2 b l) = peak fun m => L (ix3 b l m) := by
  unfold blkPeak peak
  rw [maximumf_apply, broadcast_apply]
  exact congrArg (max _) (rowmax_apply L reduces_S4x1024x1024_S4x1024 (.inl rfl) rfl b l)

theorem blkExp_apply (L : FVec Ideal S4x1024x1024 .f32) (b : Fin 4) (l m : Fin 1024) :
    blkExp L (ix3 b l m) = Ideal.exp (L (ix3 b l m) - peak fun m' => L (ix3 b l m')) := by
  have h := (keepdims_bcast_apply (blkPeak L) shapeCasts_S4x1024_S4x1024x1 broadcasts_S4x1024x1_S4x1024x1024
    b l m).trans (blkPeak_apply L b l)
  unfold blkExp
  show Ideal.exp (subf L _ (ix3 b l m)) = _
  rw [subf_apply, h]

theorem blkProb_apply (L : FVec Ideal S4x1024x1024 .f32) (b : Fin 4) (l m : Fin 1024) :
    blkProb L (ix3 b l m)
      = Ideal.div (Ideal.exp (L (ix3 b l m) - peak fun m' => L (ix3 b l m')))
          (∑ m' : Fin 1024, Ideal.exp (L (ix3 b l m') - peak fun m'' => L (ix3 b l m''))) := by
  have h := (keepdims_bcast_apply
    (multiReduction .add [2] S4x1024 (blkExp L) 0x00000000#32 reduces_S4x1024x1024_S4x1024 (.inl rfl) rfl)
    shapeCasts_S4x1024_S4x1024x1 broadcasts_S4x1024x1_S4x1024x1024 b l m).trans
    (rowsum_apply (blkExp L) reduces_S4x1024x1024_S4x1024 (.inl rfl) rfl b l)
  unfold blkProb
  rw [divf_apply, h]
  simp only [blkExp_apply]

/-- A column of head h at lane d lies in head h, at lane d. -/
theorem headOf_headCol (h : Fin 16) (d : Fin 64) : headOf (headCol h d) = h :=
  Fin.ext (by
    unfold headOf headCol
    show (h.val * 64 + d.val) / 64 = h.val
    have := d.isLt
    omega)
theorem laneOf_headCol (h : Fin 16) (d : Fin 64) : laneOf (headCol h d) = d :=
  Fin.ext (by
    unfold laneOf headCol
    show (h.val * 64 + d.val) % 64 = d.val
    have := d.isLt
    omega)

/-- The payload's scaled logits are the specification's, for head g·4 + j of batch n. -/
theorem blkLogit_apply (Q K : Arr4 4 16 1024 64) (sc : Arr3 16 1 1) (n g : Fin 4)
    (x0 x1 : FVec Ideal S1x4x1024x64 .bf16) (x3 : FVec Ideal S4x1x1 .f32)
    (hq : ∀ (j : Fin 4) (l : Fin 1024) (e : Fin 64), x0 (ix4 0 j l e) = Q (ix4 n (grp g j) l e))
    (hk : ∀ (j : Fin 4) (l : Fin 1024) (e : Fin 64), x1 (ix4 0 j l e) = K (ix4 n (grp g j) l e))
    (hs : ∀ j : Fin 4, x3 (ix3 j 0 0) = sc (ix3 (grp g j) 0 0))
    (j : Fin 4) (l m : Fin 1024) :
    blkLogit x0 x1 x3 (ix3 j l m) = logit Q K sc n (grp g j) l m := by
  unfold blkLogit logit
  rw [mulf_apply, qk_apply, scale_bcast_apply, hs]
  congr 1
  refine Finset.sum_congr rfl fun e _ => ?_
  rw [block_cast_apply, block_cast_apply, hq, hk]

/-- So its probabilities are the specification's. -/
theorem blkProb_eq_prob (Q K : Arr4 4 16 1024 64) (sc : Arr3 16 1 1) (n g : Fin 4)
    (L : FVec Ideal S4x1024x1024 .f32) (j : Fin 4)
    (hL : ∀ l m : Fin 1024, L (ix3 j l m) = logit Q K sc n (grp g j) l m) (l m : Fin 1024) :
    blkProb L (ix3 j l m) = prob Q K sc n (grp g j) l m := by
  have hrow : (fun m' : Fin 1024 => L (ix3 j l m')) = logit Q K sc n (grp g j) l := funext (hL l)
  rw [blkProb_apply, hrow]
  unfold prob weight
  rw [hL l m]
  exact congrArg (Ideal.div _) (Finset.sum_congr rfl fun m' _ => by rw [hL l m'])

end Cert.KernelIdeal.Blocks.MixAux

namespace Cert.KernelIdeal.Blocks
open Cert.KernelIdeal Cert.KernelIdeal.Gen Cert.AttnSpec Idealize.ShloMosaic Idealize.ShloMosaic.ValueIdx
open MixAux

/-- The attention kernel's stored block, at row l and lane e of the j-th head of group g, is the specification's
    mix at batch n, row l, column (g·4 + j)·64 + e, when the loaded blocks are that group's queries, keys, values
    and scales. -/
theorem mix_block (Q K V : Arr4 4 16 1024 64) (sc : Arr3 16 1 1) (n g : Fin 4)
    (x0 x1 x2 : Vec Ideal S1x4x1024x64 .bf16) (x3 : Vec Ideal S4x1x1 .f32)
    (hq : ∀ (j : Fin 4) (l : Fin 1024) (e : Fin 64), x0 (ix4 0 j l e) = Q (ix4 n (grp g j) l e))
    (hk : ∀ (j : Fin 4) (l : Fin 1024) (e : Fin 64), x1 (ix4 0 j l e) = K (ix4 n (grp g j) l e))
    (hv : ∀ (j : Fin 4) (l : Fin 1024) (e : Fin 64), x2 (ix4 0 j l e) = V (ix4 n (grp g j) l e))
    (hs : ∀ j : Fin 4, x3 (ix3 j 0 0) = sc (ix3 (grp g j) 0 0))
    (l : Fin 1024) (j : Fin 4) (e : Fin 64) :
    k1_pay1 x0 x1 x2 x3 (ix3 0 l (slabCol j e)) = mix Q K V sc (ix3 n l (headCol (grp g j) e)) := by
  refine (congrFun (k1_pay1_eq x0 x1 x2 x3) _).trans ?_
  refine (out_layout_apply _ _ _ _ _ l j e).trans ?_
  refine (pv_apply _ _ j l e).trans ?_
  show _ = ∑ m : Fin 1024, prob Q K sc n (headOf (headCol (grp g j) e)) l m
    * V (ix4 n (headOf (headCol (grp g j) e)) m (laneOf (headCol (grp g j) e)))
  rw [headOf_headCol, laneOf_headCol]
  refine Finset.sum_congr rfl fun m _ => ?_
  have hp := blkProb_eq_prob Q K sc n g (blkLogit x0 x1 x3) j (blkLogit_apply Q K sc n g x0 x1 x3 hq hk hs j) l m
  have hval := (block_cast_apply x2 shapeCasts_S1x4x1024x64_S1x4x1024x64 shapeCasts_S1x4x1024x64_S4x1024x64 j m e).trans
    (hv j m e)
  rw [truncf_apply, hp, hval]

end Cert.KernelIdeal.Blocks

end
-- ==== Proof.RegionMix.lean ====
/-
  The second region's result array after its sixteen grid points, as one function of the arrays the region finds
  on entry: point t writes back the 256 columns of head group t % 4 in batch t / 4 of the attention output, and
  the sixteen blocks fill the array. Stated for ANY entry contents V, under coordinate hypotheses saying what the
  four input arrays are.
-/
import proofs.«113965_j91061896609820_2_alg».proof.Proof.Gen.KernelIdeal.Frame
import proofs.«113965_j91061896609820_2_alg».proof.Proof.MixBlock
import Idealize.ShloMosaic.Lib.Pipeline.Value

set_option maxRecDepth 16384

noncomputable section

namespace Cert.KernelIdeal.Arrays

open Cert.KernelIdeal Cert.KernelIdeal.Gen Cert.KernelIdeal.Blocks Cert.AttnSpec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz3' : (![0, 0, 0] : Fin 3 → Nat) = fun _ => 0 := funext fun a => by fin_cases a <;> rfl
theorem hz4 : (![0, 0, 0, 0] : Fin 4 → Nat) = fun _ => 0 := funext fun a => by fin_cases a <;> rfl

/-- The second region's index maps over its sixteen grid points: point t is batch t / 4 and head group t % 4; it
    stages that batch's four heads of the queries, keys and values, the group's four scales, and writes back the
    group's 256 columns of that batch's rows. -/
theorem idx_mix : ∀ t : Fin cfg1.N,
    win1_0.index t (0 : Fin 4) = t.val / 4 ∧ win1_0.index t (1 : Fin 4) = t.val % 4 ∧ win1_0.index t (2 : Fin 4) = 0 ∧ win1_0.index t (3 : Fin 4) = 0
    ∧ win1_1.index t (0 : Fin 4) = t.val / 4 ∧ win1_1.index t (1 : Fin 4) = t.val % 4 ∧ win1_1.index t (2 : Fin 4) = 0 ∧ win1_1.index t (3 : Fin 4) = 0
    ∧ win1_2.index t (0 : Fin 4) = t.val / 4 ∧ win1_2.index t (1 : Fin 4) = t.val % 4 ∧ win1_2.index t (2 : Fin 4) = 0 ∧ win1_2.index t (3 : Fin 4) = 0
    ∧ win1_3.index t (0 : Fin 3) = t.val % 4 ∧ win1_3.index t (1 : Fin 3) = 0 ∧ win1_3.index t (2 : Fin 3) = 0
    ∧ win1_4.index t (0 : Fin 3) = t.val / 4 ∧ win1_4.index t (1 : Fin 3) = 0 ∧ win1_4.index t (2 : Fin 3) = t.val % 4
    ∧ t.val < 16 :=
  (by decide +kernel : ∀ t : Fin grid1.N, _)

/-- What point t writes back is its block of the attention output of the entry arrays. -/
theorem flushed_mix (c : Dev nD) (Q K Vv : Arr4 4 16 1024 64) (sc : Arr3 16 1 1)
    (hQ : ∀ (n : Fin 4) (h : Fin 16) (l : Fin 1024) (e : Fin 64), (V c (Pipeline.arrRef spec1 0) : S4x16x1024x64.Idx → EReal) (ix4 n h l e) = Q (ix4 n h l e))
    (hK : ∀ (n : Fin 4) (h : Fin 16) (l : Fin 1024) (e : Fin 64), (V c (Pipeline.arrRef spec1 1) : S4x16x1024x64.Idx → EReal) (ix4 n h l e) = K (ix4 n h l e))
    (hV : ∀ (n : Fin 4) (h : Fin 16) (l : Fin 1024) (e : Fin 64), (V c (Pipeline.arrRef spec1 2) : S4x16x1024x64.Idx → EReal) (ix4 n h l e) = Vv (ix4 n h l e))
    (hS : ∀ h : Fin 16, (V c (Pipeline.arrRef spec1 3) : S16x1x1.Idx → EReal) (ix3 h 0 0) = sc (ix3 h 0 0))
    (t : Fin cfg1.N) :
    (dat1 V c).flushed 4 t = ((cfg1.win 4).blk t).view.read (Elt Ideal) (mix Q K Vv sc) := by
  show (cfg1.win 4).cut (grid1.coords t) ((dat1 V c).after 4 t) = _
  rw [after1_4]
  unfold out1_4
  rw [View.canon_unit_zero hz3']
  simp only [View.ld_unit_zero (S := S1x4x1024x64) hz4, View.ld_unit_zero (S := S4x1x1) hz3']
  obtain ⟨a00, a01, a02, a03, a10, a11, a12, a13, a20, a21, a22, a23, a30, a31, a32, a40, a41, a42, ht⟩ := idx_mix t
  funext y
  obtain ⟨u, l, cc, rfl⟩ : ∃ (u : Fin 1) (l : Fin 1024) (cc : Fin 256), y = ix3 u l cc := ⟨y 0, y 1, y 2, eq_ix3 y⟩
  obtain rfl : u = 0 := Subsingleton.elim _ _
  have hcc : cc.val < 256 := cc.isLt
  obtain ⟨j, e, rfl⟩ : ∃ (j : Fin 4) (e : Fin 64), cc = slabCol j e :=
    ⟨⟨cc.val / 64, by omega⟩, ⟨cc.val % 64, by omega⟩, Fin.ext (by show cc.val = cc.val / 64 * 64 + cc.val % 64; omega)⟩
  have hj : j.val < 4 := j.isLt
  have he64 : e.val < 64 := e.isLt
  let n : Fin 4 := ⟨t.val / 4, by omega⟩
  let g : Fin 4 := ⟨t.val % 4, by omega⟩
  have hemb : ((cfg1.win 4).blk t).view.emb (ix3 (0 : Fin 1) l (slabCol j e)) = ix3 n l (headCol (grp g j) e) := by
    funext a; apply Fin.ext
    match a with
    | ⟨0, _⟩ => show win1_4.index t (0 : Fin 3) * 1 + 1 * 0 = t.val / 4; omega
    | ⟨1, _⟩ => show win1_4.index t (1 : Fin 3) * 1024 + 1 * l.val = l.val; omega
    | ⟨2, _⟩ => show win1_4.index t (2 : Fin 3) * 256 + 1 * (j.val * 64 + e.val) = (t.val % 4 * 4 + j.val) * 64 + e.val; omega
  show k1_pay1 (iblk1 V c 0 t) (iblk1 V c 1 t) (iblk1 V c 2 t) (iblk1 V c 3 t) (ix3 (0 : Fin 1) l (slabCol j e))
    = mix Q K Vv sc (((cfg1.win 4).blk t).view.emb (ix3 (0 : Fin 1) l (slabCol j e)))
  rw [hemb]
  refine mix_block Q K Vv sc n g (iblk1 V c 0 t) (iblk1 V c 1 t) (iblk1 V c 2 t) (iblk1 V c 3 t) ?_ ?_ ?_ ?_ l j e
  · intro j' l' e'
    have he : ((cfg1.win 0).blk t).view.emb (ix4 (0 : Fin 1) j' l' e') = ix4 n (grp g j') l' e' := by
      funext a; apply Fin.ext
      match a with
      | ⟨0, _⟩ => show win1_0.index t (0 : Fin 4) * 1 + 1 * 0 = t.val / 4; omega
      | ⟨1, _⟩ => show win1_0.index t (1 : Fin 4) * 4 + 1 * j'.val = t.val % 4 * 4 + j'.val; omega
      | ⟨2, _⟩ => show win1_0.index t (2 : Fin 4) * 1024 + 1 * l'.val = l'.val; omega
      | ⟨3, _⟩ => show win1_0.index t (3 : Fin 4) * 64 + 1 * e'.val = e'.val; omega
    exact (congrArg (V c (Pipeline.arrRef spec1 0) : S4x16x1024x64.Idx → EReal) he).trans (hQ _ _ _ _)
  · intro j' l' e'
    have he : ((cfg1.win 1).blk t).view.emb (ix4 (0 : Fin 1) j' l' e') = ix4 n (grp g j') l' e' := by
      funext a; apply Fin.ext
      match a with
      | ⟨0, _⟩ => show win1_1.index t (0 : Fin 4) * 1 + 1 * 0 = t.val / 4; omega
      | ⟨1, _⟩ => show win1_1.index t (1 : Fin 4) * 4 + 1 * j'.val = t.val % 4 * 4 + j'.val; omega
      | ⟨2, _⟩ => show win1_1.index t (2 : Fin 4) * 1024 + 1 * l'.val = l'.val; omega
      | ⟨3, _⟩ => show win1_1.index t (3 : Fin 4) * 64 + 1 * e'.val = e'.val; omega
    exact (congrArg (V c (Pipeline.arrRef spec1 1) : S4x16x1024x64.Idx → EReal) he).trans (hK _ _ _ _)
  · intro j' l' e'
    have he : ((cfg1.win 2).blk t).view.emb (ix4 (0 : Fin 1) j' l' e') = ix4 n (grp g j') l' e' := by
      funext a; apply Fin.ext
      match a with
      | ⟨0, _⟩ => show win1_2.index t (0 : Fin 4) * 1 + 1 * 0 = t.val / 4; omega
      | ⟨1, _⟩ => show win1_2.index t (1 : Fin 4) * 4 + 1 * j'.val = t.val % 4 * 4 + j'.val; omega
      | ⟨2, _⟩ => show win1_2.index t (2 : Fin 4) * 1024 + 1 * l'.val = l'.val; omega
      | ⟨3, _⟩ => show win1_2.index t (3 : Fin 4) * 64 + 1 * e'.val = e'.val; omega
    exact (congrArg (V c (Pipeline.arrRef spec1 2) : S4x16x1024x64.Idx → EReal) he).trans (hV _ _ _ _)
  · intro j'
    have he : ((cfg1.win 3).blk t).view.emb (ix3 j' (0 : Fin 1) (0 : Fin 1)) = ix3 (grp g j') (0 : Fin 1) (0 : Fin 1) := by
      funext a; apply Fin.ext
      match a with
      | ⟨0, _⟩ => show win1_3.index t (0 : Fin 3) * 4 + 1 * j'.val = t.val % 4 * 4 + j'.val; omega
      | ⟨1, _⟩ => show win1_3.index t (1 : Fin 3) * 1 + 1 * 0 = 0; omega
      | ⟨2, _⟩ => show win1_3.index t (2 : Fin 3) * 1 + 1 * 0 = 0; omega
    exact (congrArg (V c (Pipeline.arrRef spec1 3) : S16x1x1.Idx → EReal) he).trans (hS _)

/-- Every index of the attention output lies in the block of the point named by its batch and its column's group. -/
theorem cover_mix (i : S4x1024x1024.Idx) :
    ∃ t : Fin cfg1.N, (cfg1.win 4).flush t = true ∧ i ∈ ((cfg1.win 4).blk t).view.set := by
  have h0 : (i 0).val < 4 := (i 0).isLt
  have h1 : (i 1).val < 1024 := (i 1).isLt
  have h2 : (i 2).val < 1024 := (i 2).isLt
  let t : Fin cfg1.N := ⟨(i 0).val * 4 + (i 2).val / 256, by rw [show cfg1.N = 16 from N_1]; omega⟩
  obtain ⟨a00, a01, a02, a03, a10, a11, a12, a13, a20, a21, a22, a23, a30, a31, a32, a40, a41, a42, ht⟩ := idx_mix t
  have htv : t.val = (i 0).val * 4 + (i 2).val / 256 := rfl
  refine ⟨t, flush1_4 t, ?_⟩
  show i ∈ ((View.whole main_v22).slice (win1_4.rect t)).set
  rw [View.set_slice_whole, Rect.mem_set_unit]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 256 ≤ (i 2).val ∧ (i 2).val < win1_4.index t (2 : Fin 3) * 256 + 256; omega

/-- The attention output after the region: the mix of the entry arrays. -/
theorem array_mix (c : Dev nD) (Q K Vv : Arr4 4 16 1024 64) (sc : Arr3 16 1 1)
    (hQ : ∀ (n : Fin 4) (h : Fin 16) (l : Fin 1024) (e : Fin 64), (V c (Pipeline.arrRef spec1 0) : S4x16x1024x64.Idx → EReal) (ix4 n h l e) = Q (ix4 n h l e))
    (hK : ∀ (n : Fin 4) (h : Fin 16) (l : Fin 1024) (e : Fin 64), (V c (Pipeline.arrRef spec1 1) : S4x16x1024x64.Idx → EReal) (ix4 n h l e) = K (ix4 n h l e))
    (hV : ∀ (n : Fin 4) (h : Fin 16) (l : Fin 1024) (e : Fin 64), (V c (Pipeline.arrRef spec1 2) : S4x16x1024x64.Idx → EReal) (ix4 n h l e) = Vv (ix4 n h l e))
    (hS : ∀ h : Fin 16, (V c (Pipeline.arrRef spec1 3) : S16x1x1.Idx → EReal) (ix3 h 0 0) = sc (ix3 h 0 0)) :
    (dat1 V c).arrAt 4 cfg1.N = mix Q K Vv sc :=
  (dat1 V c).arrAt_eq_of_cover 4 (mix Q K Vv sc) (fun t _ => flushed_mix V c Q K Vv sc hQ hK hV hS t) cover_mix

end Cert.KernelIdeal.Arrays

end
-- ==== Proof.QkvBlock.lean ====
import proofs.«113965_j91061896609820_2_alg».proof.Proof.Gen.KernelIdeal.Skeleton
import proofs.«113965_j91061896609820_2_alg».proof.Proof.Spec
import proofs.«113965_j91061896609820_2_alg».proof.Proof.LibIndex

/-!
  The first kernel's three stored blocks are the specification's queries, keys and values.

  Each block is one projection of the token rows: the dense product with a third of the stacked weight, plus that
  third's bias, plus twice the rank-8 path (x·a)·b. Its 1024 columns are read as 16 heads of 64 lanes and the heads
  are moved in front of the tokens. For the queries and the keys every lane vector is then divided by the larger of
  its Euclidean norm and a tiny floor. Over the extended reals each product into a zero accumulator is a plain sum
  over the shared axis and narrowing a value changes nothing, so every entry can be read off coordinate by
  coordinate and compared with the specification's entry at (n, h, l, d).
-/

noncomputable section

namespace Cert.KernelIdeal.Blocks
open Cert.KernelIdeal Cert.KernelIdeal.Gen Cert.AttnSpec Idealize.ShloMosaic Idealize.ShloMosaic.ValueIdx

/-! ### The three plain products into a zero accumulator, as sums over the shared axis -/

theorem dense_apply (xb w : FVec Ideal S1024x1024 .bf16) (l o : Fin 1024) :
    matmul dot_S1024x1024_S1024x1024_S1024x1024_1_0_0_1_n_n none xb w (constant S1024x1024 .f32 0x00000000#32) (ix2 l o)
      = ∑ c : Fin 1024, xb (ix2 l c) * w (ix2 c o) :=
  (Ideal.matmul_constant_zero_apply _ none xb w (ix2 l o)).trans (Cert.LayoutLib.dot_plain_sum _ rfl xb w l o)

theorem down_apply (xf : FVec Ideal S1024x1024 .f32) (a : FVec Ideal S1024x8 .f32) (l : Fin 1024) (r : Fin 8) :
    matmul dot_S1024x1024_S1024x8_S1024x8_1_0_0_1_n_n none xf a (constant S1024x8 .f32 0x00000000#32) (ix2 l r)
      = ∑ c : Fin 1024, xf (ix2 l c) * a (ix2 c r) :=
  (Ideal.matmul_constant_zero_apply _ none xf a (ix2 l r)).trans (Cert.LayoutLib.dot_plain_sum _ rfl xf a l r)

theorem up_apply (m : FVec Ideal S1024x8 .f32) (bb : FVec Ideal S8x1024 .f32) (l o : Fin 1024) :
    matmul dot_S1024x8_S8x1024_S1024x1024_1_0_0_1_n_n none m bb (constant S1024x1024 .f32 0x00000000#32) (ix2 l o)
      = ∑ r : Fin 8, m (ix2 l r) * bb (ix2 r o) :=
  (Ideal.matmul_constant_zero_apply _ none m bb (ix2 l o)).trans (Cert.LayoutLib.dot_plain_sum _ rfl m bb l o)

/-! ### Layout operations of this kernel read at coordinates -/

/-- The bias laid out as one row and repeated down the rows reads, at (l, o), the bias at o. -/
theorem biasRows_apply (bv : FVec Ideal S1024 .f32) (l o : Fin 1024) :
    broadcastTo S1024x1024 (shapeCast S1x1024 bv shapeCasts_S1024_S1x1024) broadcasts_S1x1024_S1024x1024 (ix2 l o)
      = bv (ix1 o) :=
  (broadcastTo_1b_ab_apply _ _ l o).trans (shapeCast_a_1a_apply bv _ 0 o)

/-- The 1024 columns read as 16 heads of 64 lanes, heads moved in front of the tokens: entry (h, l, d) is
    column h·64 + d of row l. -/
theorem headsLayout_apply {α : Type} (v : S1024x1024.Idx → α) (h : Fin 16) (l : Fin 1024) (d : Fin 64) :
    transpose S16x1024x64 [1, 0, 2] (shapeCast S1024x16x64 v shapeCasts_S1024x1024_S1024x16x64)
        transposes_S1024x16x64_p1_0_2_S16x1024x64 (ix3 h l d)
      = v (ix2 l (headCol h d)) := by
  refine (transpose_apply _ _ _ (ix3 h l d) (ix3 l h d) fun c => ?_).trans ?_
  · match c with
    | ⟨0, _⟩ => rfl
    | ⟨1, _⟩ => rfl
    | ⟨2, _⟩ => rfl
  · refine shapeCast_apply v _ _ _ ?_
    rw [Shape.rowMajor_val_two, Shape.rowMajor_val_three]
    show l.val * 1024 + (h.val * 64 + d.val) = (l.val * 16 + h.val) * 64 + d.val
    omega

/-- The source index over (p, q) with coordinate k on the summed last axis is (p, q, k). -/
theorem lift_lane {a b c : ℕ} (hr : (⟨3, ![a, b, c]⟩ : Shape).Reduces [(2 : Fin 3)] ⟨2, ![a, b]⟩)
    (p : Fin a) (q : Fin b) (k : Fin c) : hr.lift (ix2 p q) k = ix3 p q k :=
  funext fun x => Fin.ext (by match x with | ⟨0, _⟩ => rfl | ⟨1, _⟩ => rfl | ⟨2, _⟩ => rfl)

/-- A sum along the last axis of [a, b, c], read at (p, q), is the sum of that lane vector's entries. -/
theorem laneSum_apply {a b c : ℕ} (x : FVec Ideal ⟨3, ![a, b, c]⟩ .f32)
    (hr : (⟨3, ![a, b, c]⟩ : Shape).Reduces [(2 : Fin 3)] ⟨2, ![a, b]⟩) (hφ : FKind.Formats FTy.f32)
    (hacc : (0x00000000#32 : BitVec FTy.f32.bits) = FKind.add.neutral FTy.f32 hφ) (p : Fin a) (q : Fin b) :
    multiReduction (F := Ideal) .add [(2 : Fin 3)] ⟨2, ![a, b]⟩ x 0x00000000#32 hr hφ hacc (ix2 p q)
      = ∑ k : Fin c, x (ix3 p q k) :=
  (Ideal.multiReduction_add_single x _ hr hφ hacc (ix2 p q)).trans
    (Finset.sum_congr rfl fun k _ => congrArg x (lift_lane hr p q k))

/-- A matrix [a, b] cast to [a, b, 1] (a lane sum's keepdims) reads, at (p, q, u), the matrix at (p, q). -/
theorem shapeCast_keep_apply {α : Type} {a b : ℕ} (x : (⟨2, ![a, b]⟩ : Shape).Idx → α)
    (hc : (⟨2, ![a, b]⟩ : Shape).ShapeCasts ⟨3, ![a, b, 1]⟩) (p : Fin a) (q : Fin b) (u : Fin 1) :
    shapeCast ⟨3, ![a, b, 1]⟩ x hc (ix3 p q u) = x (ix2 p q) :=
  shapeCast_apply x hc _ _ (by
    have hu : u.val = 0 := by omega
    rw [Shape.rowMajor_val_two, Shape.rowMajor_val_three]
    show p.val * b + q.val = (p.val * b + q.val) * 1 + u.val
    omega)

/-- A keepdims array [a, b, 1] repeated along the last axis to [a, b, c] reads, at (p, q, k), the array at (p, q, 0). -/
theorem broadcastTo_keep_apply {α : Type} {a b c : ℕ} (v : (⟨3, ![a, b, 1]⟩ : Shape).Idx → α)
    (hb : (⟨3, ![a, b, 1]⟩ : Shape).Broadcasts ⟨3, ![a, b, c]⟩) (p : Fin a) (q : Fin b) (k : Fin c) :
    broadcastTo ⟨3, ![a, b, c]⟩ v hb (ix3 p q k) = v (ix3 p q (0 : Fin 1)) := by
  refine broadcastTo_apply v hb (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ### One projection laid out by heads, and the normalisation, as terms over their operands -/

/-- The dense product plus the bias plus twice the low-rank path, its 1024 columns read as 16 heads of 64 lanes
    with the heads in front. -/
def headsOf (xb : FVec Ideal S1024x1024 .bf16) (xf : FVec Ideal S1024x1024 .f32) (w : FVec Ideal S1024x1024 .bf16)
    (bv : FVec Ideal S1024 .f32) (a : FVec Ideal S1024x8 .f32) (bb : FVec Ideal S8x1024 .f32) :
    FVec Ideal S16x1024x64 .f32 :=
  transpose S16x1024x64 [1, 0, 2]
    (shapeCast S1024x16x64
      (addf
        (addf (matmul dot_S1024x1024_S1024x1024_S1024x1024_1_0_0_1_n_n none xb w (constant S1024x1024 .f32 0x00000000#32))
          (broadcastTo S1024x1024 (shapeCast S1x1024 bv shapeCasts_S1024_S1x1024) broadcasts_S1x1024_S1024x1024))
        (mulf
          (matmul dot_S1024x8_S8x1024_S1024x1024_1_0_0_1_n_n none
            (matmul dot_S1024x1024_S1024x8_S1024x8_1_0_0_1_n_n none xf a (constant S1024x8 .f32 0x00000000#32)) bb
            (constant S1024x1024 .f32 0x00000000#32))
          (broadcast S1024x1024 (Scalar.ofBits (F := Ideal) .f32 0x40000000#32))))
      shapeCasts_S1024x1024_S1024x16x64)
    transposes_S1024x16x64_p1_0_2_S16x1024x64

theorem headsOf_apply (xb : FVec Ideal S1024x1024 .bf16) (xf : FVec Ideal S1024x1024 .f32) (w : FVec Ideal S1024x1024 .bf16)
    (bv : FVec Ideal S1024 .f32) (a : FVec Ideal S1024x8 .f32) (bb : FVec Ideal S8x1024 .f32)
    (h : Fin 16) (l : Fin 1024) (d : Fin 64) :
    headsOf xb xf w bv a bb (ix3 h l d)
      = ((∑ c : Fin 1024, xb (ix2 l c) * w (ix2 c (headCol h d))) + bv (ix1 (headCol h d)))
        + (∑ r : Fin 8, (∑ c : Fin 1024, xf (ix2 l c) * a (ix2 c r)) * bb (ix2 r (headCol h d))) * two := by
  unfold headsOf
  rw [headsLayout_apply, addf_apply, addf_apply, mulf_apply, dense_apply, biasRows_apply, up_apply]
  simp only [down_apply]
  rfl

/-- Each head vector divided by the larger of its norm and the floor, then narrowed (which changes nothing here). -/
def unitOf (t : FVec Ideal S16x1024x64 .f32) : FVec Ideal S16x1024x64 .bf16 :=
  truncf .bf16
    (divf t
      (broadcastTo S16x1024x64
        (maximumf
          (sqrt (shapeCast S16x1024x1
            (multiReduction .add [2] S16x1024 (mulf t t) 0x00000000#32 reduces_S16x1024x64_S16x1024 (.inl rfl) rfl)
            shapeCasts_S16x1024_S16x1024x1))
          (broadcast S16x1024x1 (Scalar.ofBits (F := Ideal) .f32 0x2B8CBCCC#32)))
        broadcasts_S16x1024x1_S16x1024x64))
    bitsLt_bf16_f32

theorem unitOf_apply (t : FVec Ideal S16x1024x64 .f32) (h : Fin 16) (l : Fin 1024) (d : Fin 64) :
    unitOf t (ix3 h l d)
      = Ideal.div (t (ix3 h l d)) (max (Ideal.sqrt (∑ e : Fin 64, t (ix3 h l e) * t (ix3 h l e))) tiny) := by
  unfold unitOf
  rw [truncf_apply, divf_apply, broadcastTo_keep_apply, maximumf_apply]
  show Ideal.div _ (max (Ideal.sqrt (shapeCast S16x1024x1 _ _ (ix3 h l (0 : Fin 1)))) tiny) = _
  rw [shapeCast_keep_apply]
  refine congrArg (fun z => Ideal.div (t (ix3 h l d)) (max (Ideal.sqrt z) tiny)) ?_
  exact laneSum_apply (mulf t t) _ _ _ h l

/-! ### The loaded blocks and the stored block read at coordinates -/

theorem pay4_apply (x0 : Vec Ideal S1x1024x1024 .f32) (l c : Fin 1024) : k0_pay4 x0 (ix2 l c) = x0 (ix3 0 l c) := by
  unfold k0_pay4
  exact shapeCast_1ab_ab_apply x0 _ l c

theorem pay5_apply (x0 : Vec Ideal S1x1024x1024 .f32) (l c : Fin 1024) : k0_pay5 x0 (ix2 l c) = x0 (ix3 0 l c) := by
  unfold k0_pay5
  exact pay4_apply x0 l c

theorem store_apply (v : FVec Ideal S16x1024x64 .bf16) (h : Fin 16) (l : Fin 1024) (d : Fin 64) :
    shapeCast S1x16x1024x64 v shapeCasts_S16x1024x64_S1x16x1024x64 (ix4 0 h l d) = v (ix3 h l d) :=
  shapeCast_abc_1abc_apply v _ 0 h l d

/-! ### The projection by heads is the specification's, and so is the normalisation -/

theorem headsOf_eq_heads (X : Arr3 4 1024 1024) (W : Arr2 3072 1024) (bias : Arr1 3072) (A : Arr2 8 1024) (B : Arr2 1024 8)
    (s : Fin 3) (n : Fin 4)
    (xb : FVec Ideal S1024x1024 .bf16) (xf : FVec Ideal S1024x1024 .f32) (w : FVec Ideal S1024x1024 .bf16)
    (bv : FVec Ideal S1024 .f32) (a : FVec Ideal S1024x8 .f32) (bb : FVec Ideal S8x1024 .f32)
    (hxb : ∀ l c : Fin 1024, xb (ix2 l c) = X (ix3 n l c))
    (hxf : ∀ l c : Fin 1024, xf (ix2 l c) = X (ix3 n l c))
    (hw : ∀ c o : Fin 1024, w (ix2 c o) = W (ix2 (wrow s o) c))
    (hb : ∀ o : Fin 1024, bv (ix1 o) = bias (ix1 (wrow s o)))
    (ha : ∀ (c : Fin 1024) (r : Fin 8), a (ix2 c r) = A (ix2 r c))
    (hbb : ∀ (r : Fin 8) (o : Fin 1024), bb (ix2 r o) = B (ix2 o r))
    (h : Fin 16) (l : Fin 1024) (d : Fin 64) :
    headsOf xb xf w bv a bb (ix3 h l d) = heads (proj X W bias A B s) (ix4 n h l d) := by
  rw [headsOf_apply]
  show _ = proj X W bias A B s n l (headCol h d)
  unfold proj
  rw [hb]
  congr 1
  · congr 1
    exact Finset.sum_congr rfl fun c _ => by rw [hxb, hw]
  · congr 1
    exact Finset.sum_congr rfl fun r _ => by
      rw [hbb]
      congr 1
      exact Finset.sum_congr rfl fun c _ => by rw [hxf, ha]

theorem unitOf_eq_unit (T : Arr4 4 16 1024 64) (n : Fin 4) (t : FVec Ideal S16x1024x64 .f32)
    (ht : ∀ (h : Fin 16) (l : Fin 1024) (d : Fin 64), t (ix3 h l d) = T (ix4 n h l d))
    (h : Fin 16) (l : Fin 1024) (d : Fin 64) : unitOf t (ix3 h l d) = unit T (ix4 n h l d) := by
  rw [unitOf_apply, ht]
  show _ = Ideal.div (T (ix4 n h l d)) (max (Ideal.sqrt (∑ e : Fin 64, T (ix4 n h l e) * T (ix4 n h l e))) tiny)
  congr 3
  exact Finset.sum_congr rfl fun e _ => by rw [ht]

/-! ### The three stored blocks -/

theorem queries_block (X : Arr3 4 1024 1024) (W : Arr2 3072 1024) (bias : Arr1 3072) (A : Arr2 8 1024) (B : Arr2 1024 8) (n : Fin 4)
    (x0 : Vec Ideal S1x1024x1024 .f32) (x1 : Vec Ideal S1024x1024 .bf16) (x4 : Vec Ideal S1024 .f32)
    (x7 : Vec Ideal S1024x8 .f32) (x8 : Vec Ideal S8x1024 .f32)
    (hx : ∀ l c : Fin 1024, x0 (ix3 0 l c) = X (ix3 n l c))
    (hw : ∀ c o : Fin 1024, x1 (ix2 c o) = W (ix2 (wrow 0 o) c))
    (hb : ∀ o : Fin 1024, x4 (ix1 o) = bias (ix1 (wrow 0 o)))
    (ha : ∀ (c : Fin 1024) (r : Fin 8), x7 (ix2 c r) = A (ix2 r c))
    (hbb : ∀ (r : Fin 8) (o : Fin 1024), x8 (ix2 r o) = B (ix2 o r))
    (h : Fin 16) (l : Fin 1024) (d : Fin 64) :
    k0_pay1 (k0_pay18 (k0_pay8 x4) (k0_pay15 x0 x1) (k0_pay16 x0 x7 x8) (k0_pay17 (F := Ideal))) (ix4 0 h l d)
      = queries X W bias A B (ix4 n h l d) := by
  have e : k0_pay1 (k0_pay18 (k0_pay8 x4) (k0_pay15 x0 x1) (k0_pay16 x0 x7 x8) (k0_pay17 (F := Ideal)))
      = shapeCast S1x16x1024x64
          (unitOf (headsOf (k0_pay5 x0) (k0_pay4 x0) (shapeCast S1024x1024 x1 shapeCasts_S1024x1024_S1024x1024)
            (shapeCast S1024 x4 shapeCasts_S1024_S1024) (shapeCast S1024x8 x7 shapeCasts_S1024x8_S1024x8)
            (shapeCast S8x1024 x8 shapeCasts_S8x1024_S8x1024)))
          shapeCasts_S16x1024x64_S1x16x1024x64 := rfl
  rw [e, store_apply, shapeCast_self, shapeCast_self, shapeCast_self, shapeCast_self]
  exact unitOf_eq_unit _ n _
    (headsOf_eq_heads X W bias A B 0 n _ _ _ _ _ _ (fun l c => (pay5_apply x0 l c).trans (hx l c))
      (fun l c => (pay4_apply x0 l c).trans (hx l c)) hw hb ha hbb) h l d

theorem keys_block (X : Arr3 4 1024 1024) (W : Arr2 3072 1024) (bias : Arr1 3072) (A : Arr2 8 1024) (B : Arr2 1024 8) (n : Fin 4)
    (x0 : Vec Ideal S1x1024x1024 .f32) (x2 : Vec Ideal S1024x1024 .bf16) (x5 : Vec Ideal S1024 .f32)
    (x9 : Vec Ideal S1024x8 .f32) (x10 : Vec Ideal S8x1024 .f32)
    (hx : ∀ l c : Fin 1024, x0 (ix3 0 l c) = X (ix3 n l c))
    (hw : ∀ c o : Fin 1024, x2 (ix2 c o) = W (ix2 (wrow 1 o) c))
    (hb : ∀ o : Fin 1024, x5 (ix1 o) = bias (ix1 (wrow 1 o)))
    (ha : ∀ (c : Fin 1024) (r : Fin 8), x9 (ix2 c r) = A (ix2 r c))
    (hbb : ∀ (r : Fin 8) (o : Fin 1024), x10 (ix2 r o) = B (ix2 o r))
    (h : Fin 16) (l : Fin 1024) (d : Fin 64) :
    k0_pay2 (k0_pay19 (k0_pay4 x0) (k0_pay5 x0) (k0_pay6 x2) (k0_pay9 x5) (k0_pay11 x9) (k0_pay12 x10)) (ix4 0 h l d)
      = keys X W bias A B (ix4 n h l d) := by
  have e : k0_pay2 (k0_pay19 (k0_pay4 x0) (k0_pay5 x0) (k0_pay6 x2) (k0_pay9 x5) (k0_pay11 x9) (k0_pay12 x10))
      = shapeCast S1x16x1024x64
          (unitOf (headsOf (k0_pay5 x0) (k0_pay4 x0) (shapeCast S1024x1024 x2 shapeCasts_S1024x1024_S1024x1024)
            (shapeCast S1024 x5 shapeCasts_S1024_S1024) (shapeCast S1024x8 x9 shapeCasts_S1024x8_S1024x8)
            (shapeCast S8x1024 x10 shapeCasts_S8x1024_S8x1024)))
          shapeCasts_S16x1024x64_S1x16x1024x64 := rfl
  rw [e, store_apply, shapeCast_self, shapeCast_self, shapeCast_self, shapeCast_self]
  exact unitOf_eq_unit _ n _
    (headsOf_eq_heads X W bias A B 1 n _ _ _ _ _ _ (fun l c => (pay5_apply x0 l c).trans (hx l c))
      (fun l c => (pay4_apply x0 l c).trans (hx l c)) hw hb ha hbb) h l d

theorem values_block (X : Arr3 4 1024 1024) (W : Arr2 3072 1024) (bias : Arr1 3072) (A : Arr2 8 1024) (B : Arr2 1024 8) (n : Fin 4)
    (x0 : Vec Ideal S1x1024x1024 .f32) (x3 : Vec Ideal S1024x1024 .bf16) (x6 : Vec Ideal S1024 .f32)
    (x11 : Vec Ideal S1024x8 .f32) (x12 : Vec Ideal S8x1024 .f32)
    (hx : ∀ l c : Fin 1024, x0 (ix3 0 l c) = X (ix3 n l c))
    (hw : ∀ c o : Fin 1024, x3 (ix2 c o) = W (ix2 (wrow 2 o) c))
    (hb : ∀ o : Fin 1024, x6 (ix1 o) = bias (ix1 (wrow 2 o)))
    (ha : ∀ (c : Fin 1024) (r : Fin 8), x11 (ix2 c r) = A (ix2 r c))
    (hbb : ∀ (r : Fin 8) (o : Fin 1024), x12 (ix2 r o) = B (ix2 o r))
    (h : Fin 16) (l : Fin 1024) (d : Fin 64) :
    k0_pay3 (k0_pay20 (k0_pay4 x0) (k0_pay5 x0) (k0_pay7 x3) (k0_pay10 x6) (k0_pay13 x11) (k0_pay14 x12)) (ix4 0 h l d)
      = values X W bias A B (ix4 n h l d) := by
  have e : k0_pay3 (k0_pay20 (k0_pay4 x0) (k0_pay5 x0) (k0_pay7 x3) (k0_pay10 x6) (k0_pay13 x11) (k0_pay14 x12))
      = shapeCast S1x16x1024x64
          (truncf .bf16 (headsOf (k0_pay5 x0) (k0_pay4 x0) (shapeCast S1024x1024 x3 shapeCasts_S1024x1024_S1024x1024)
            (shapeCast S1024 x6 shapeCasts_S1024_S1024) (shapeCast S1024x8 x11 shapeCasts_S1024x8_S1024x8)
            (shapeCast S8x1024 x12 shapeCasts_S8x1024_S8x1024)) bitsLt_bf16_f32)
          shapeCasts_S16x1024x64_S1x16x1024x64 := rfl
  rw [e, store_apply, truncf_apply, shapeCast_self, shapeCast_self, shapeCast_self, shapeCast_self]
  exact headsOf_eq_heads X W bias A B 2 n _ _ _ _ _ _ (fun l c => (pay5_apply x0 l c).trans (hx l c))
      (fun l c => (pay4_apply x0 l c).trans (hx l c)) hw hb ha hbb h l d

end Cert.KernelIdeal.Blocks
end
-- ==== Proof.RegionQkv.lean ====
/-
  The first region's three result arrays after its four grid points, each as one function of the arrays the region
  finds on entry: point t writes back batch t of the normalised queries, of the normalised keys and of the values,
  and the four blocks fill each array. Stated for ANY entry contents V, under coordinate hypotheses saying what the
  input arrays are (the input rows, a transposed third of the weight, a third of the bias, the two adapter factors
  transposed).
-/
import proofs.«113965_j91061896609820_2_alg».proof.Proof.Gen.KernelIdeal.Frame
import proofs.«113965_j91061896609820_2_alg».proof.Proof.QkvBlock
import Idealize.ShloMosaic.Lib.Pipeline.Value

set_option maxRecDepth 16384

noncomputable section

namespace Cert.KernelIdeal.Arrays

open Cert.KernelIdeal Cert.KernelIdeal.Gen Cert.KernelIdeal.Blocks Cert.AttnSpec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz1q : (![0] : Fin 1 → Nat) = fun _ => 0 := funext fun a => by fin_cases a <;> rfl
theorem hz2q : (![0, 0] : Fin 2 → Nat) = fun _ => 0 := funext fun a => by fin_cases a <;> rfl
theorem hz3q : (![0, 0, 0] : Fin 3 → Nat) = fun _ => 0 := funext fun a => by fin_cases a <;> rfl
theorem hz4q : (![0, 0, 0, 0] : Fin 4 → Nat) = fun _ => 0 := funext fun a => by fin_cases a <;> rfl

/-- The first region's index maps over its four grid points: point t stages batch t of the input and of each of the three
    results; the nine weight and bias operands are staged whole. -/
theorem pt_lt (t : Fin cfg0.N) : t.val < 4 := Nat.lt_of_lt_of_eq t.isLt (show cfg0.N = 4 from N_0)
theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_4 : ∀ t : Fin cfg0.N, win0_4.index t (0 : Fin 1) = 0 :=
  (by decide +kernel : ∀ t : Fin grid0.N, _)
theorem idx0_5 : ∀ t : Fin cfg0.N, win0_5.index t (0 : Fin 1) = 0 :=
  (by decide +kernel : ∀ t : Fin grid0.N, _)
theorem idx0_6 : ∀ t : Fin cfg0.N, win0_6.index t (0 : Fin 1) = 0 :=
  (by decide +kernel : ∀ t : Fin grid0.N, _)
theorem idx0_13 : ∀ t : Fin cfg0.N, win0_13.index t (0 : Fin 4) = t.val ∧ win0_13.index t (1 : Fin 4) = 0 ∧ win0_13.index t (2 : Fin 4) = 0 ∧ win0_13.index t (3 : Fin 4) = 0 :=
  (by decide +kernel : ∀ t : Fin grid0.N, _)
theorem idx0_14 : ∀ t : Fin cfg0.N, win0_14.index t (0 : Fin 4) = t.val ∧ win0_14.index t (1 : Fin 4) = 0 ∧ win0_14.index t (2 : Fin 4) = 0 ∧ win0_14.index t (3 : Fin 4) = 0 :=
  (by decide +kernel : ∀ t : Fin grid0.N, _)
theorem idx0_15 : ∀ t : Fin cfg0.N, win0_15.index t (0 : Fin 4) = t.val ∧ win0_15.index t (1 : Fin 4) = 0 ∧ win0_15.index t (2 : Fin 4) = 0 ∧ win0_15.index t (3 : Fin 4) = 0 :=
  (by decide +kernel : ∀ t : Fin grid0.N, _)

/-- What point t writes back to the array of queries is batch t of the queries of the entry arrays. -/
theorem flushed_queries (c : Dev nD) (X : Arr3 4 1024 1024) (W : Arr2 3072 1024) (bias : Arr1 3072) (A : Arr2 8 1024) (B : Arr2 1024 8)
    (hX : ∀ (n : Fin 4) (l k : Fin 1024), (V c (Pipeline.arrRef spec0 0) : S4x1024x1024.Idx → EReal) (ix3 n l k) = X (ix3 n l k))
    (hW : ∀ k o : Fin 1024, (V c (Pipeline.arrRef spec0 1) : S1024x1024.Idx → EReal) (ix2 k o) = W (ix2 (wrow 0 o) k))
    (hB : ∀ o : Fin 1024, (V c (Pipeline.arrRef spec0 4) : S1024.Idx → EReal) (ix1 o) = bias (ix1 (wrow 0 o)))
    (hA : ∀ (k : Fin 1024) (r : Fin 8), (V c (Pipeline.arrRef spec0 7) : S1024x8.Idx → EReal) (ix2 k r) = A (ix2 r k))
    (hBB : ∀ (r : Fin 8) (o : Fin 1024), (V c (Pipeline.arrRef spec0 8) : S8x1024.Idx → EReal) (ix2 r o) = B (ix2 o r))
    (t : Fin cfg0.N) :
    (dat0 V c).flushed 13 t = ((cfg0.win 13).blk t).view.read (Elt Ideal) (queries X W bias A B) := by
  show (cfg0.win 13).cut (grid0.coords t) ((dat0 V c).after 13 t) = _
  rw [after0_13]
  unfold out0_13
  rw [View.canon_unit_zero hz4q]
  simp only [View.ld_unit_zero (S := S1x1024x1024) hz3q, View.ld_unit_zero (S := S1024x1024) hz2q, View.ld_unit_zero (S := S1024) hz1q,
    View.ld_unit_zero (S := S1024x8) hz2q, View.ld_unit_zero (S := S8x1024) hz2q]
  have hn := pt_lt t
  obtain ⟨x0a, x0b, x0c⟩ := idx0_0 t
  obtain ⟨wa, wb⟩ := idx0_1 t
  have ba := idx0_4 t
  obtain ⟨aa, ab⟩ := idx0_7 t
  obtain ⟨ca, cb⟩ := idx0_8 t
  obtain ⟨oa, ob, oc, od⟩ := idx0_13 t
  funext y
  obtain ⟨u, h, l, d, rfl⟩ : ∃ (u : Fin 1) (h : Fin 16) (l : Fin 1024) (d : Fin 64), y = ix4 u h l d := ⟨y 0, y 1, y 2, y 3, eq_ix4 y⟩
  obtain rfl : u = 0 := Subsingleton.elim _ _
  have hemb : ((cfg0.win 13).blk t).view.emb (ix4 (0 : Fin 1) h l d) = ix4 (⟨t.val, hn⟩ : Fin 4) h l d := by
    funext a; apply Fin.ext
    match a with
    | ⟨0, _⟩ => show win0_13.index t (0 : Fin 4) * 1 + 1 * 0 = t.val; omega
    | ⟨1, _⟩ => show win0_13.index t (1 : Fin 4) * 16 + 1 * h.val = h.val; omega
    | ⟨2, _⟩ => show win0_13.index t (2 : Fin 4) * 1024 + 1 * l.val = l.val; omega
    | ⟨3, _⟩ => show win0_13.index t (3 : Fin 4) * 64 + 1 * d.val = d.val; omega
  show k0_pay1 (k0_pay18 (k0_pay8 (iblk0 V c 4 t)) (k0_pay15 (iblk0 V c 0 t) (iblk0 V c 1 t)) (k0_pay16 (iblk0 V c 0 t) (iblk0 V c 7 t) (iblk0 V c 8 t)) (k0_pay17 (F := Ideal))) (ix4 (0 : Fin 1) h l d)
    = queries X W bias A B (((cfg0.win 13).blk t).view.emb (ix4 (0 : Fin 1) h l d))
  rw [hemb]
  refine queries_block X W bias A B ⟨t.val, hn⟩ (iblk0 V c 0 t) (iblk0 V c 1 t) (iblk0 V c 4 t) (iblk0 V c 7 t) (iblk0 V c 8 t) ?_ ?_ ?_ ?_ ?_ h l d
  · intro l' k
    have he : ((cfg0.win 0).blk t).view.emb (ix3 (0 : Fin 1) l' k) = ix3 (⟨t.val, hn⟩ : Fin 4) l' k := by
      funext a; apply Fin.ext
      match a with
      | ⟨0, _⟩ => show win0_0.index t (0 : Fin 3) * 1 + 1 * 0 = t.val; omega
      | ⟨1, _⟩ => show win0_0.index t (1 : Fin 3) * 1024 + 1 * l'.val = l'.val; omega
      | ⟨2, _⟩ => show win0_0.index t (2 : Fin 3) * 1024 + 1 * k.val = k.val; omega
    exact (congrArg (V c (Pipeline.arrRef spec0 0) : S4x1024x1024.Idx → EReal) he).trans (hX _ _ _)
  · intro k o
    have he : ((cfg0.win 1).blk t).view.emb (ix2 k o) = ix2 k o := by
      funext a; apply Fin.ext
      match a with
      | ⟨0, _⟩ => show win0_1.index t (0 : Fin 2) * 1024 + 1 * k.val = k.val; omega
      | ⟨1, _⟩ => show win0_1.index t (1 : Fin 2) * 1024 + 1 * o.val = o.val; omega
    exact (congrArg (V c (Pipeline.arrRef spec0 1) : S1024x1024.Idx → EReal) he).trans (hW _ _)
  · intro o
    have he : ((cfg0.win 4).blk t).view.emb (ix1 o) = ix1 o := by
      funext a; apply Fin.ext
      match a with
      | ⟨0, _⟩ => show win0_4.index t (0 : Fin 1) * 1024 + 1 * o.val = o.val; omega
    exact (congrArg (V c (Pipeline.arrRef spec0 4) : S1024.Idx → EReal) he).trans (hB _)
  · intro k r
    have he : ((cfg0.win 7).blk t).view.emb (ix2 k r) = ix2 k r := by
      funext a; apply Fin.ext
      match a with
      | ⟨0, _⟩ => show win0_7.index t (0 : Fin 2) * 1024 + 1 * k.val = k.val; omega
      | ⟨1, _⟩ => show win0_7.index t (1 : Fin 2) * 8 + 1 * r.val = r.val; omega
    exact (congrArg (V c (Pipeline.arrRef spec0 7) : S1024x8.Idx → EReal) he).trans (hA _ _)
  · intro r o
    have he : ((cfg0.win 8).blk t).view.emb (ix2 r o) = ix2 r o := by
      funext a; apply Fin.ext
      match a with
      | ⟨0, _⟩ => show win0_8.index t (0 : Fin 2) * 8 + 1 * r.val = r.val; omega
      | ⟨1, _⟩ => show win0_8.index t (1 : Fin 2) * 1024 + 1 * o.val = o.val; omega
    exact (congrArg (V c (Pipeline.arrRef spec0 8) : S8x1024.Idx → EReal) he).trans (hBB _ _)

/-- Every index of the array of queries lies in the block of the point named by its batch coordinate. -/
theorem cover_queries (i : S4x16x1024x64.Idx) :
    ∃ t : Fin cfg0.N, (cfg0.win 13).flush t = true ∧ i ∈ ((cfg0.win 13).blk t).view.set := by
  have h0 : (i 0).val < 4 := (i 0).isLt
  have h1 : (i 1).val < 16 := (i 1).isLt
  have h2 : (i 2).val < 1024 := (i 2).isLt
  have h3 : (i 3).val < 64 := (i 3).isLt
  let t : Fin cfg0.N := ⟨(i 0).val, by rw [show cfg0.N = 4 from N_0]; exact h0⟩
  obtain ⟨oa, ob, oc, od⟩ := idx0_13 t
  have htv : t.val = (i 0).val := rfl
  refine ⟨t, flush0_13 t, ?_⟩
  show i ∈ ((View.whole main_v18_0).slice (win0_13.rect t)).set
  rw [View.set_slice_whole, Rect.mem_set_unit]
  intro a
  match a with
  | ⟨0, _⟩ => show win0_13.index t (0 : Fin 4) * 1 ≤ (i 0).val ∧ (i 0).val < win0_13.index t (0 : Fin 4) * 1 + 1; omega
  | ⟨1, _⟩ => show win0_13.index t (1 : Fin 4) * 16 ≤ (i 1).val ∧ (i 1).val < win0_13.index t (1 : Fin 4) * 16 + 16; omega
  | ⟨2, _⟩ => show win0_13.index t (2 : Fin 4) * 1024 ≤ (i 2).val ∧ (i 2).val < win0_13.index t (2 : Fin 4) * 1024 + 1024; omega
  | ⟨3, _⟩ => show win0_13.index t (3 : Fin 4) * 64 ≤ (i 3).val ∧ (i 3).val < win0_13.index t (3 : Fin 4) * 64 + 64; omega

/-- The array of queries after the region. -/
theorem array_queries (c : Dev nD) (X : Arr3 4 1024 1024) (W : Arr2 3072 1024) (bias : Arr1 3072) (A : Arr2 8 1024) (B : Arr2 1024 8)
    (hX : ∀ (n : Fin 4) (l k : Fin 1024), (V c (Pipeline.arrRef spec0 0) : S4x1024x1024.Idx → EReal) (ix3 n l k) = X (ix3 n l k))
    (hW : ∀ k o : Fin 1024, (V c (Pipeline.arrRef spec0 1) : S1024x1024.Idx → EReal) (ix2 k o) = W (ix2 (wrow 0 o) k))
    (hB : ∀ o : Fin 1024, (V c (Pipeline.arrRef spec0 4) : S1024.Idx → EReal) (ix1 o) = bias (ix1 (wrow 0 o)))
    (hA : ∀ (k : Fin 1024) (r : Fin 8), (V c (Pipeline.arrRef spec0 7) : S1024x8.Idx → EReal) (ix2 k r) = A (ix2 r k))
    (hBB : ∀ (r : Fin 8) (o : Fin 1024), (V c (Pipeline.arrRef spec0 8) : S8x1024.Idx → EReal) (ix2 r o) = B (ix2 o r)) :
    (dat0 V c).arrAt 13 cfg0.N = queries X W bias A B :=
  (dat0 V c).arrAt_eq_of_cover 13 (queries X W bias A B) (fun t _ => flushed_queries V c X W bias A B hX hW hB hA hBB t) cover_queries

/-- What point t writes back to the array of keys is batch t of the keys of the entry arrays. -/
theorem flushed_keys (c : Dev nD) (X : Arr3 4 1024 1024) (W : Arr2 3072 1024) (bias : Arr1 3072) (A : Arr2 8 1024) (B : Arr2 1024 8)
    (hX : ∀ (n : Fin 4) (l k : Fin 1024), (V c (Pipeline.arrRef spec0 0) : S4x1024x1024.Idx → EReal) (ix3 n l k) = X (ix3 n l k))
    (hW : ∀ k o : Fin 1024, (V c (Pipeline.arrRef spec0 2) : S1024x1024.Idx → EReal) (ix2 k o) = W (ix2 (wrow 1 o) k))
    (hB : ∀ o : Fin 1024, (V c (Pipeline.arrRef spec0 5) : S1024.Idx → EReal) (ix1 o) = bias (ix1 (wrow 1 o)))
    (hA : ∀ (k : Fin 1024) (r : Fin 8), (V c (Pipeline.arrRef spec0 9) : S1024x8.Idx → EReal) (ix2 k r) = A (ix2 r k))
    (hBB : ∀ (r : Fin 8) (o : Fin 1024), (V c (Pipeline.arrRef spec0 10) : S8x1024.Idx → EReal) (ix2 r o) = B (ix2 o r))
    (t : Fin cfg0.N) :
    (dat0 V c).flushed 14 t = ((cfg0.win 14).blk t).view.read (Elt Ideal) (keys X W bias A B) := by
  show (cfg0.win 14).cut (grid0.coords t) ((dat0 V c).after 14 t) = _
  rw [after0_14]
  unfold out0_14
  rw [View.canon_unit_zero hz4q]
  simp only [View.ld_unit_zero (S := S1x1024x1024) hz3q, View.ld_unit_zero (S := S1024x1024) hz2q, View.ld_unit_zero (S := S1024) hz1q,
    View.ld_unit_zero (S := S1024x8) hz2q, View.ld_unit_zero (S := S8x1024) hz2q]
  have hn := pt_lt t
  obtain ⟨x0a, x0b, x0c⟩ := idx0_0 t
  obtain ⟨wa, wb⟩ := idx0_2 t
  have ba := idx0_5 t
  obtain ⟨aa, ab⟩ := idx0_9 t
  obtain ⟨ca, cb⟩ := idx0_10 t
  obtain ⟨oa, ob, oc, od⟩ := idx0_14 t
  funext y
  obtain ⟨u, h, l, d, rfl⟩ : ∃ (u : Fin 1) (h : Fin 16) (l : Fin 1024) (d : Fin 64), y = ix4 u h l d := ⟨y 0, y 1, y 2, y 3, eq_ix4 y⟩
  obtain rfl : u = 0 := Subsingleton.elim _ _
  have hemb : ((cfg0.win 14).blk t).view.emb (ix4 (0 : Fin 1) h l d) = ix4 (⟨t.val, hn⟩ : Fin 4) h l d := by
    funext a; apply Fin.ext
    match a with
    | ⟨0, _⟩ => show win0_14.index t (0 : Fin 4) * 1 + 1 * 0 = t.val; omega
    | ⟨1, _⟩ => show win0_14.index t (1 : Fin 4) * 16 + 1 * h.val = h.val; omega
    | ⟨2, _⟩ => show win0_14.index t (2 : Fin 4) * 1024 + 1 * l.val = l.val; omega
    | ⟨3, _⟩ => show win0_14.index t (3 : Fin 4) * 64 + 1 * d.val = d.val; omega
  show k0_pay2 (k0_pay19 (k0_pay4 (iblk0 V c 0 t)) (k0_pay5 (iblk0 V c 0 t)) (k0_pay6 (iblk0 V c 2 t)) (k0_pay9 (iblk0 V c 5 t)) (k0_pay11 (iblk0 V c 9 t)) (k0_pay12 (iblk0 V c 10 t))) (ix4 (0 : Fin 1) h l d)
    = keys X W bias A B (((cfg0.win 14).blk t).view.emb (ix4 (0 : Fin 1) h l d))
  rw [hemb]
  refine keys_block X W bias A B ⟨t.val, hn⟩ (iblk0 V c 0 t) (iblk0 V c 2 t) (iblk0 V c 5 t) (iblk0 V c 9 t) (iblk0 V c 10 t) ?_ ?_ ?_ ?_ ?_ h l d
  · intro l' k
    have he : ((cfg0.win 0).blk t).view.emb (ix3 (0 : Fin 1) l' k) = ix3 (⟨t.val, hn⟩ : Fin 4) l' k := by
      funext a; apply Fin.ext
      match a with
      | ⟨0, _⟩ => show win0_0.index t (0 : Fin 3) * 1 + 1 * 0 = t.val; omega
      | ⟨1, _⟩ => show win0_0.index t (1 : Fin 3) * 1024 + 1 * l'.val = l'.val; omega
      | ⟨2, _⟩ => show win0_0.index t (2 : Fin 3) * 1024 + 1 * k.val = k.val; omega
    exact (congrArg (V c (Pipeline.arrRef spec0 0) : S4x1024x1024.Idx → EReal) he).trans (hX _ _ _)
  · intro k o
    have he : ((cfg0.win 2).blk t).view.emb (ix2 k o) = ix2 k o := by
      funext a; apply Fin.ext
      match a with
      | ⟨0, _⟩ => show win0_2.index t (0 : Fin 2) * 1024 + 1 * k.val = k.val; omega
      | ⟨1, _⟩ => show win0_2.index t (1 : Fin 2) * 1024 + 1 * o.val = o.val; omega
    exact (congrArg (V c (Pipeline.arrRef spec0 2) : S1024x1024.Idx → EReal) he).trans (hW _ _)
  · intro o
    have he : ((cfg0.win 5).blk t).view.emb (ix1 o) = ix1 o := by
      funext a; apply Fin.ext
      match a with
      | ⟨0, _⟩ => show win0_5.index t (0 : Fin 1) * 1024 + 1 * o.val = o.val; omega
    exact (congrArg (V c (Pipeline.arrRef spec0 5) : S1024.Idx → EReal) he).trans (hB _)
  · intro k r
    have he : ((cfg0.win 9).blk t).view.emb (ix2 k r) = ix2 k r := by
      funext a; apply Fin.ext
      match a with
      | ⟨0, _⟩ => show win0_9.index t (0 : Fin 2) * 1024 + 1 * k.val = k.val; omega
      | ⟨1, _⟩ => show win0_9.index t (1 : Fin 2) * 8 + 1 * r.val = r.val; omega
    exact (congrArg (V c (Pipeline.arrRef spec0 9) : S1024x8.Idx → EReal) he).trans (hA _ _)
  · intro r o
    have he : ((cfg0.win 10).blk t).view.emb (ix2 r o) = ix2 r o := by
      funext a; apply Fin.ext
      match a with
      | ⟨0, _⟩ => show win0_10.index t (0 : Fin 2) * 8 + 1 * r.val = r.val; omega
      | ⟨1, _⟩ => show win0_10.index t (1 : Fin 2) * 1024 + 1 * o.val = o.val; omega
    exact (congrArg (V c (Pipeline.arrRef spec0 10) : S8x1024.Idx → EReal) he).trans (hBB _ _)

/-- Every index of the array of keys lies in the block of the point named by its batch coordinate. -/
theorem cover_keys (i : S4x16x1024x64.Idx) :
    ∃ t : Fin cfg0.N, (cfg0.win 14).flush t = true ∧ i ∈ ((cfg0.win 14).blk t).view.set := by
  have h0 : (i 0).val < 4 := (i 0).isLt
  have h1 : (i 1).val < 16 := (i 1).isLt
  have h2 : (i 2).val < 1024 := (i 2).isLt
  have h3 : (i 3).val < 64 := (i 3).isLt
  let t : Fin cfg0.N := ⟨(i 0).val, by rw [show cfg0.N = 4 from N_0]; exact h0⟩
  obtain ⟨oa, ob, oc, od⟩ := idx0_14 t
  have htv : t.val = (i 0).val := rfl
  refine ⟨t, flush0_14 t, ?_⟩
  show i ∈ ((View.whole main_v18_1).slice (win0_14.rect t)).set
  rw [View.set_slice_whole, Rect.mem_set_unit]
  intro a
  match a with
  | ⟨0, _⟩ => show win0_14.index t (0 : Fin 4) * 1 ≤ (i 0).val ∧ (i 0).val < win0_14.index t (0 : Fin 4) * 1 + 1; omega
  | ⟨1, _⟩ => show win0_14.index t (1 : Fin 4) * 16 ≤ (i 1).val ∧ (i 1).val < win0_14.index t (1 : Fin 4) * 16 + 16; omega
  | ⟨2, _⟩ => show win0_14.index t (2 : Fin 4) * 1024 ≤ (i 2).val ∧ (i 2).val < win0_14.index t (2 : Fin 4) * 1024 + 1024; omega
  | ⟨3, _⟩ => show win0_14.index t (3 : Fin 4) * 64 ≤ (i 3).val ∧ (i 3).val < win0_14.index t (3 : Fin 4) * 64 + 64; omega

/-- The array of keys after the region. -/
theorem array_keys (c : Dev nD) (X : Arr3 4 1024 1024) (W : Arr2 3072 1024) (bias : Arr1 3072) (A : Arr2 8 1024) (B : Arr2 1024 8)
    (hX : ∀ (n : Fin 4) (l k : Fin 1024), (V c (Pipeline.arrRef spec0 0) : S4x1024x1024.Idx → EReal) (ix3 n l k) = X (ix3 n l k))
    (hW : ∀ k o : Fin 1024, (V c (Pipeline.arrRef spec0 2) : S1024x1024.Idx → EReal) (ix2 k o) = W (ix2 (wrow 1 o) k))
    (hB : ∀ o : Fin 1024, (V c (Pipeline.arrRef spec0 5) : S1024.Idx → EReal) (ix1 o) = bias (ix1 (wrow 1 o)))
    (hA : ∀ (k : Fin 1024) (r : Fin 8), (V c (Pipeline.arrRef spec0 9) : S1024x8.Idx → EReal) (ix2 k r) = A (ix2 r k))
    (hBB : ∀ (r : Fin 8) (o : Fin 1024), (V c (Pipeline.arrRef spec0 10) : S8x1024.Idx → EReal) (ix2 r o) = B (ix2 o r)) :
    (dat0 V c).arrAt 14 cfg0.N = keys X W bias A B :=
  (dat0 V c).arrAt_eq_of_cover 14 (keys X W bias A B) (fun t _ => flushed_keys V c X W bias A B hX hW hB hA hBB t) cover_keys

/-- What point t writes back to the array of values is batch t of the values of the entry arrays. -/
theorem flushed_values (c : Dev nD) (X : Arr3 4 1024 1024) (W : Arr2 3072 1024) (bias : Arr1 3072) (A : Arr2 8 1024) (B : Arr2 1024 8)
    (hX : ∀ (n : Fin 4) (l k : Fin 1024), (V c (Pipeline.arrRef spec0 0) : S4x1024x1024.Idx → EReal) (ix3 n l k) = X (ix3 n l k))
    (hW : ∀ k o : Fin 1024, (V c (Pipeline.arrRef spec0 3) : S1024x1024.Idx → EReal) (ix2 k o) = W (ix2 (wrow 2 o) k))
    (hB : ∀ o : Fin 1024, (V c (Pipeline.arrRef spec0 6) : S1024.Idx → EReal) (ix1 o) = bias (ix1 (wrow 2 o)))
    (hA : ∀ (k : Fin 1024) (r : Fin 8), (V c (Pipeline.arrRef spec0 11) : S1024x8.Idx → EReal) (ix2 k r) = A (ix2 r k))
    (hBB : ∀ (r : Fin 8) (o : Fin 1024), (V c (Pipeline.arrRef spec0 12) : S8x1024.Idx → EReal) (ix2 r o) = B (ix2 o r))
    (t : Fin cfg0.N) :
    (dat0 V c).flushed 15 t = ((cfg0.win 15).blk t).view.read (Elt Ideal) (values X W bias A B) := by
  show (cfg0.win 15).cut (grid0.coords t) ((dat0 V c).after 15 t) = _
  rw [after0_15]
  unfold out0_15
  rw [View.canon_unit_zero hz4q]
  simp only [View.ld_unit_zero (S := S1x1024x1024) hz3q, View.ld_unit_zero (S := S1024x1024) hz2q, View.ld_unit_zero (S := S1024) hz1q,
    View.ld_unit_zero (S := S1024x8) hz2q, View.ld_unit_zero (S := S8x1024) hz2q]
  have hn := pt_lt t
  obtain ⟨x0a, x0b, x0c⟩ := idx0_0 t
  obtain ⟨wa, wb⟩ := idx0_3 t
  have ba := idx0_6 t
  obtain ⟨aa, ab⟩ := idx0_11 t
  obtain ⟨ca, cb⟩ := idx0_12 t
  obtain ⟨oa, ob, oc, od⟩ := idx0_15 t
  funext y
  obtain ⟨u, h, l, d, rfl⟩ : ∃ (u : Fin 1) (h : Fin 16) (l : Fin 1024) (d : Fin 64), y = ix4 u h l d := ⟨y 0, y 1, y 2, y 3, eq_ix4 y⟩
  obtain rfl : u = 0 := Subsingleton.elim _ _
  have hemb : ((cfg0.win 15).blk t).view.emb (ix4 (0 : Fin 1) h l d) = ix4 (⟨t.val, hn⟩ : Fin 4) h l d := by
    funext a; apply Fin.ext
    match a with
    | ⟨0, _⟩ => show win0_15.index t (0 : Fin 4) * 1 + 1 * 0 = t.val; omega
    | ⟨1, _⟩ => show win0_15.index t (1 : Fin 4) * 16 + 1 * h.val = h.val; omega
    | ⟨2, _⟩ => show win0_15.index t (2 : Fin 4) * 1024 + 1 * l.val = l.val; omega
    | ⟨3, _⟩ => show win0_15.index t (3 : Fin 4) * 64 + 1 * d.val = d.val; omega
  show k0_pay3 (k0_pay20 (k0_pay4 (iblk0 V c 0 t)) (k0_pay5 (iblk0 V c 0 t)) (k0_pay7 (iblk0 V c 3 t)) (k0_pay10 (iblk0 V c 6 t)) (k0_pay13 (iblk0 V c 11 t)) (k0_pay14 (iblk0 V c 12 t))) (ix4 (0 : Fin 1) h l d)
    = values X W bias A B (((cfg0.win 15).blk t).view.emb (ix4 (0 : Fin 1) h l d))
  rw [hemb]
  refine values_block X W bias A B ⟨t.val, hn⟩ (iblk0 V c 0 t) (iblk0 V c 3 t) (iblk0 V c 6 t) (iblk0 V c 11 t) (iblk0 V c 12 t) ?_ ?_ ?_ ?_ ?_ h l d
  · intro l' k
    have he : ((cfg0.win 0).blk t).view.emb (ix3 (0 : Fin 1) l' k) = ix3 (⟨t.val, hn⟩ : Fin 4) l' k := by
      funext a; apply Fin.ext
      match a with
      | ⟨0, _⟩ => show win0_0.index t (0 : Fin 3) * 1 + 1 * 0 = t.val; omega
      | ⟨1, _⟩ => show win0_0.index t (1 : Fin 3) * 1024 + 1 * l'.val = l'.val; omega
      | ⟨2, _⟩ => show win0_0.index t (2 : Fin 3) * 1024 + 1 * k.val = k.val; omega
    exact (congrArg (V c (Pipeline.arrRef spec0 0) : S4x1024x1024.Idx → EReal) he).trans (hX _ _ _)
  · intro k o
    have he : ((cfg0.win 3).blk t).view.emb (ix2 k o) = ix2 k o := by
      funext a; apply Fin.ext
      match a with
      | ⟨0, _⟩ => show win0_3.index t (0 : Fin 2) * 1024 + 1 * k.val = k.val; omega
      | ⟨1, _⟩ => show win0_3.index t (1 : Fin 2) * 1024 + 1 * o.val = o.val; omega
    exact (congrArg (V c (Pipeline.arrRef spec0 3) : S1024x1024.Idx → EReal) he).trans (hW _ _)
  · intro o
    have he : ((cfg0.win 6).blk t).view.emb (ix1 o) = ix1 o := by
      funext a; apply Fin.ext
      match a with
      | ⟨0, _⟩ => show win0_6.index t (0 : Fin 1) * 1024 + 1 * o.val = o.val; omega
    exact (congrArg (V c (Pipeline.arrRef spec0 6) : S1024.Idx → EReal) he).trans (hB _)
  · intro k r
    have he : ((cfg0.win 11).blk t).view.emb (ix2 k r) = ix2 k r := by
      funext a; apply Fin.ext
      match a with
      | ⟨0, _⟩ => show win0_11.index t (0 : Fin 2) * 1024 + 1 * k.val = k.val; omega
      | ⟨1, _⟩ => show win0_11.index t (1 : Fin 2) * 8 + 1 * r.val = r.val; omega
    exact (congrArg (V c (Pipeline.arrRef spec0 11) : S1024x8.Idx → EReal) he).trans (hA _ _)
  · intro r o
    have he : ((cfg0.win 12).blk t).view.emb (ix2 r o) = ix2 r o := by
      funext a; apply Fin.ext
      match a with
      | ⟨0, _⟩ => show win0_12.index t (0 : Fin 2) * 8 + 1 * r.val = r.val; omega
      | ⟨1, _⟩ => show win0_12.index t (1 : Fin 2) * 1024 + 1 * o.val = o.val; omega
    exact (congrArg (V c (Pipeline.arrRef spec0 12) : S8x1024.Idx → EReal) he).trans (hBB _ _)

/-- Every index of the array of values lies in the block of the point named by its batch coordinate. -/
theorem cover_values (i : S4x16x1024x64.Idx) :
    ∃ t : Fin cfg0.N, (cfg0.win 15).flush t = true ∧ i ∈ ((cfg0.win 15).blk t).view.set := by
  have h0 : (i 0).val < 4 := (i 0).isLt
  have h1 : (i 1).val < 16 := (i 1).isLt
  have h2 : (i 2).val < 1024 := (i 2).isLt
  have h3 : (i 3).val < 64 := (i 3).isLt
  let t : Fin cfg0.N := ⟨(i 0).val, by rw [show cfg0.N = 4 from N_0]; exact h0⟩
  obtain ⟨oa, ob, oc, od⟩ := idx0_15 t
  have htv : t.val = (i 0).val := rfl
  refine ⟨t, flush0_15 t, ?_⟩
  show i ∈ ((View.whole main_v18_2).slice (win0_15.rect t)).set
  rw [View.set_slice_whole, Rect.mem_set_unit]
  intro a
  match a with
  | ⟨0, _⟩ => show win0_15.index t (0 : Fin 4) * 1 ≤ (i 0).val ∧ (i 0).val < win0_15.index t (0 : Fin 4) * 1 + 1; omega
  | ⟨1, _⟩ => show win0_15.index t (1 : Fin 4) * 16 ≤ (i 1).val ∧ (i 1).val < win0_15.index t (1 : Fin 4) * 16 + 16; omega
  | ⟨2, _⟩ => show win0_15.index t (2 : Fin 4) * 1024 ≤ (i 2).val ∧ (i 2).val < win0_15.index t (2 : Fin 4) * 1024 + 1024; omega
  | ⟨3, _⟩ => show win0_15.index t (3 : Fin 4) * 64 ≤ (i 3).val ∧ (i 3).val < win0_15.index t (3 : Fin 4) * 64 + 64; omega

/-- The array of values after the region. -/
theorem array_values (c : Dev nD) (X : Arr3 4 1024 1024) (W : Arr2 3072 1024) (bias : Arr1 3072) (A : Arr2 8 1024) (B : Arr2 1024 8)
    (hX : ∀ (n : Fin 4) (l k : Fin 1024), (V c (Pipeline.arrRef spec0 0) : S4x1024x1024.Idx → EReal) (ix3 n l k) = X (ix3 n l k))
    (hW : ∀ k o : Fin 1024, (V c (Pipeline.arrRef spec0 3) : S1024x1024.Idx → EReal) (ix2 k o) = W (ix2 (wrow 2 o) k))
    (hB : ∀ o : Fin 1024, (V c (Pipeline.arrRef spec0 6) : S1024.Idx → EReal) (ix1 o) = bias (ix1 (wrow 2 o)))
    (hA : ∀ (k : Fin 1024) (r : Fin 8), (V c (Pipeline.arrRef spec0 11) : S1024x8.Idx → EReal) (ix2 k r) = A (ix2 r k))
    (hBB : ∀ (r : Fin 8) (o : Fin 1024), (V c (Pipeline.arrRef spec0 12) : S8x1024.Idx → EReal) (ix2 r o) = B (ix2 o r)) :
    (dat0 V c).arrAt 15 cfg0.N = values X W bias A B :=
  (dat0 V c).arrAt_eq_of_cover 15 (values X W bias A B) (fun t _ => flushed_values V c X W bias A B hX hW hB hA hBB t) cover_values

end Cert.KernelIdeal.Arrays

end
-- ==== Proof.Entry.lean ====
/-
  What each of the three regions finds on entry, as functions of the launch memory. Before the first region the
  host slices the stacked weight and bias into thirds, transposes each weight third and the six adapter factors;
  before the second it computes the heads' scales exp(min(logit_scale, log 100)); before the third it transposes
  the output weight. Format changes are the identity at the ideal values. Between regions an array a region
  wrote is carried unchanged to the region that reads it.
-/
import proofs.«113965_j91061896609820_2_alg».proof.Proof.Gen.KernelIdeal.Frame
import proofs.«113965_j91061896609820_2_alg».proof.Proof.Spec
import Idealize.ShloMosaic.Lib.ValueLayout
import Idealize.ShloMosaic.Lib.StableHlo.Run

set_option maxRecDepth 16384

noncomputable section

namespace Cert.KernelIdeal.Entry

open Cert.KernelIdeal Cert.KernelIdeal.Gen Cert.AttnSpec
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-! ## Before the first region -/

/-- The input rows are as launched. -/
theorem entry_x (c : Dev nD) (n : Fin 4) (l k : Fin 1024) :
    (V1 m ρ c (Pipeline.arrRef spec0 0) : S4x1024x1024.Idx → EReal) (ix3 n l k) = (m ((c : Thread nD τ).loc main_arg0)) (ix3 n l k) := by
  have e : StableHlo.after hostOps0 (W0 m ρ c) (Proc.devRef .tc main_arg0) = (m ((c : Thread nD τ).loc main_arg0)) := by
    after_results <;> rfl
  exact congrFun e _

/-- The q-th weight operand at (k, o) is row s·1024 + o of the stacked weight at column k (s = 0). -/
theorem entry_wq (c : Dev nD) (k o : Fin 1024) :
    (V1 m ρ c (Pipeline.arrRef spec0 1) : S1024x1024.Idx → EReal) (ix2 k o) = (m ((c : Thread nD τ).loc main_arg1)) (ix2 (wrow 0 o) k) := by
  have e : (StableHlo.after hostOps0 (W0 m ρ c) (Proc.devRef .tc main_v7) : S1024x1024.Idx → EReal)
      = truncf (F := Ideal) .bf16 (transpose S1024x1024 [1, 0] (extractStridedSlice S1024x1024 ![0, 0] (m ((c : Thread nD τ).loc main_arg1)) slices_S3072x1024_S1024x1024_0_0) transposes_S1024x1024_S1024x1024_1_0) bitsLt_bf16_f32 := by
    after_results <;> rfl
  refine (congrFun e _).trans ?_
  rw [truncf_apply, transpose_ix2_apply]
  exact slice2_axis0_apply 0 _ _ o k (wrow 0 o) (by show 0 * 1024 + o.val = 0 + o.val; omega)

/-- The k-th weight operand at (k, o) is row s·1024 + o of the stacked weight at column k (s = 1). -/
theorem entry_wk (c : Dev nD) (k o : Fin 1024) :
    (V1 m ρ c (Pipeline.arrRef spec0 2) : S1024x1024.Idx → EReal) (ix2 k o) = (m ((c : Thread nD τ).loc main_arg1)) (ix2 (wrow 1 o) k) := by
  have e : (StableHlo.after hostOps0 (W0 m ρ c) (Proc.devRef .tc main_v9) : S1024x1024.Idx → EReal)
      = truncf (F := Ideal) .bf16 (transpose S1024x1024 [1, 0] (extractStridedSlice S1024x1024 ![1024, 0] (m ((c : Thread nD τ).loc main_arg1)) slices_S3072x1024_S1024x1024_1024_0) transposes_S1024x1024_S1024x1024_1_0) bitsLt_bf16_f32 := by
    after_results <;> rfl
  refine (congrFun e _).trans ?_
  rw [truncf_apply, transpose_ix2_apply]
  exact slice2_axis0_apply 1024 _ _ o k (wrow 1 o) (by show 1 * 1024 + o.val = 1024 + o.val; omega)

/-- The v-th weight operand at (k, o) is row s·1024 + o of the stacked weight at column k (s = 2). -/
theorem entry_wv (c : Dev nD) (k o : Fin 1024) :
    (V1 m ρ c (Pipeline.arrRef spec0 3) : S1024x1024.Idx → EReal) (ix2 k o) = (m ((c : Thread nD τ).loc main_arg1)) (ix2 (wrow 2 o) k) := by
  have e : (StableHlo.after hostOps0 (W0 m ρ c) (Proc.devRef .tc main_v11) : S1024x1024.Idx → EReal)
      = truncf (F := Ideal) .bf16 (transpose S1024x1024 [1, 0] (extractStridedSlice S1024x1024 ![2048, 0] (m ((c : Thread nD τ).loc main_arg1)) slices_S3072x1024_S1024x1024_2048_0) transposes_S1024x1024_S1024x1024_1_0) bitsLt_bf16_f32 := by
    after_results <;> rfl
  refine (congrFun e _).trans ?_
  rw [truncf_apply, transpose_ix2_apply]
  exact slice2_axis0_apply 2048 _ _ o k (wrow 2 o) (by show 2 * 1024 + o.val = 2048 + o.val; omega)

/-- The q-th bias operand at o is entry s·1024 + o of the stacked bias (s = 0). -/
theorem entry_bq (c : Dev nD) (o : Fin 1024) :
    (V1 m ρ c (Pipeline.arrRef spec0 4) : S1024.Idx → EReal) (ix1 o) = (m ((c : Thread nD τ).loc main_arg2)) (ix1 (wrow 0 o)) := by
  have e : StableHlo.after hostOps0 (W0 m ρ c) (Proc.devRef .tc main_v3)
      = extractStridedSlice S1024 ![0] (m ((c : Thread nD τ).loc main_arg2)) slices_S3072_S1024_0 := by
    after_results <;> rfl
  refine (congrFun e _).trans ?_
  exact extractStridedSlice_apply _ _ _ _ _ (fun ax => by
    match ax with
    | ⟨0, _⟩ => show 0 * 1024 + o.val = 0 + o.val; omega)

/-- The k-th bias operand at o is entry s·1024 + o of the stacked bias (s = 1). -/
theorem entry_bk (c : Dev nD) (o : Fin 1024) :
    (V1 m ρ c (Pipeline.arrRef spec0 5) : S1024.Idx → EReal) (ix1 o) = (m ((c : Thread nD τ).loc main_arg2)) (ix1 (wrow 1 o)) := by
  have e : StableHlo.after hostOps0 (W0 m ρ c) (Proc.devRef .tc main_v4)
      = extractStridedSlice S1024 ![1024] (m ((c : Thread nD τ).loc main_arg2)) slices_S3072_S1024_1024 := by
    after_results <;> rfl
  refine (congrFun e _).trans ?_
  exact extractStridedSlice_apply _ _ _ _ _ (fun ax => by
    match ax with
    | ⟨0, _⟩ => show 1 * 1024 + o.val = 1024 + o.val; omega)

/-- The v-th bias operand at o is entry s·1024 + o of the stacked bias (s = 2). -/
theorem entry_bv (c : Dev nD) (o : Fin 1024) :
    (V1 m ρ c (Pipeline.arrRef spec0 6) : S1024.Idx → EReal) (ix1 o) = (m ((c : Thread nD τ).loc main_arg2)) (ix1 (wrow 2 o)) := by
  have e : StableHlo.after hostOps0 (W0 m ρ c) (Proc.devRef .tc main_v5)
      = extractStridedSlice S1024 ![2048] (m ((c : Thread nD τ).loc main_arg2)) slices_S3072_S1024_2048 := by
    after_results <;> rfl
  refine (congrFun e _).trans ?_
  exact extractStridedSlice_apply _ _ _ _ _ (fun ax => by
    match ax with
    | ⟨0, _⟩ => show 2 * 1024 + o.val = 2048 + o.val; omega)

/-- The q-th down-projection operand is the adapter's first factor transposed. -/
theorem entry_aq (c : Dev nD) (k : Fin 1024) (r : Fin 8) :
    (V1 m ρ c (Pipeline.arrRef spec0 7) : S1024x8.Idx → EReal) (ix2 k r) = (m ((c : Thread nD τ).loc main_arg3)) (ix2 r k) := by
  have e : StableHlo.after hostOps0 (W0 m ρ c) (Proc.devRef .tc main_v12)
      = transpose S1024x8 [1, 0] (m ((c : Thread nD τ).loc main_arg3)) transposes_S8x1024_S1024x8_1_0 := by
    after_results <;> rfl
  refine (congrFun e _).trans ?_
  exact transpose_ix2_apply _ _ k r

/-- The k-th down-projection operand is the adapter's first factor transposed. -/
theorem entry_ak (c : Dev nD) (k : Fin 1024) (r : Fin 8) :
    (V1 m ρ c (Pipeline.arrRef spec0 9) : S1024x8.Idx → EReal) (ix2 k r) = (m ((c : Thread nD τ).loc main_arg5)) (ix2 r k) := by
  have e : StableHlo.after hostOps0 (W0 m ρ c) (Proc.devRef .tc main_v14)
      = transpose S1024x8 [1, 0] (m ((c : Thread nD τ).loc main_arg5)) transposes_S8x1024_S1024x8_1_0 := by
    after_results <;> rfl
  refine (congrFun e _).trans ?_
  exact transpose_ix2_apply _ _ k r

/-- The v-th down-projection operand is the adapter's first factor transposed. -/
theorem entry_av (c : Dev nD) (k : Fin 1024) (r : Fin 8) :
    (V1 m ρ c (Pipeline.arrRef spec0 11) : S1024x8.Idx → EReal) (ix2 k r) = (m ((c : Thread nD τ).loc main_arg7)) (ix2 r k) := by
  have e : StableHlo.after hostOps0 (W0 m ρ c) (Proc.devRef .tc main_v16)
      = transpose S1024x8 [1, 0] (m ((c : Thread nD τ).loc main_arg7)) transposes_S8x1024_S1024x8_1_0 := by
    after_results <;> rfl
  refine (congrFun e _).trans ?_
  exact transpose_ix2_apply _ _ k r

/-- The q-th up-projection operand is the adapter's second factor transposed. -/
theorem entry_bbq (c : Dev nD) (r : Fin 8) (o : Fin 1024) :
    (V1 m ρ c (Pipeline.arrRef spec0 8) : S8x1024.Idx → EReal) (ix2 r o) = (m ((c : Thread nD τ).loc main_arg4)) (ix2 o r) := by
  have e : StableHlo.after hostOps0 (W0 m ρ c) (Proc.devRef .tc main_v13)
      = transpose S8x1024 [1, 0] (m ((c : Thread nD τ).loc main_arg4)) transposes_S1024x8_S8x1024_1_0 := by
    after_results <;> rfl
  refine (congrFun e _).trans ?_
  exact transpose_ix2_apply _ _ r o

/-- The k-th up-projection operand is the adapter's second factor transposed. -/
theorem entry_bbk (c : Dev nD) (r : Fin 8) (o : Fin 1024) :
    (V1 m ρ c (Pipeline.arrRef spec0 10) : S8x1024.Idx → EReal) (ix2 r o) = (m ((c : Thread nD τ).loc main_arg6)) (ix2 o r) := by
  have e : StableHlo.after hostOps0 (W0 m ρ c) (Proc.devRef .tc main_v15)
      = transpose S8x1024 [1, 0] (m ((c : Thread nD τ).loc main_arg6)) transposes_S1024x8_S8x1024_1_0 := by
    after_results <;> rfl
  refine (congrFun e _).trans ?_
  exact transpose_ix2_apply _ _ r o

/-- The v-th up-projection operand is the adapter's second factor transposed. -/
theorem entry_bbv (c : Dev nD) (r : Fin 8) (o : Fin 1024) :
    (V1 m ρ c (Pipeline.arrRef spec0 12) : S8x1024.Idx → EReal) (ix2 r o) = (m ((c : Thread nD τ).loc main_arg8)) (ix2 o r) := by
  have e : StableHlo.after hostOps0 (W0 m ρ c) (Proc.devRef .tc main_v17)
      = transpose S8x1024 [1, 0] (m ((c : Thread nD τ).loc main_arg8)) transposes_S1024x8_S8x1024_1_0 := by
    after_results <;> rfl
  refine (congrFun e _).trans ?_
  exact transpose_ix2_apply _ _ r o

/-! ## Before the second region -/

/-- An argument the first stretch and the first region leave alone is, after them, as launched. -/
theorem w2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results <;> rfl)
theorem w2_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results <;> rfl)
theorem w2_arg11 (c : Dev nD) : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results <;> rfl)

/-- The second region's q operand is the array the first region left. -/
theorem entry_q (c : Dev nD) :
    (V3 m ρ c (Pipeline.arrRef spec1 0) : S4x16x1024x64.Idx → EReal) = (dat0 (V1 m ρ) c).arrAt 13 cfg0.N := by
  have e : StableHlo.after hostOps1 (W2 m ρ c) (Proc.devRef .tc main_v18_0) = W2 m ρ c (Proc.devRef .tc main_v18_0) := by
    after_results <;> rfl
  exact e.trans (W2_arr m ρ c 13)

/-- The second region's k operand is the array the first region left. -/
theorem entry_k (c : Dev nD) :
    (V3 m ρ c (Pipeline.arrRef spec1 1) : S4x16x1024x64.Idx → EReal) = (dat0 (V1 m ρ) c).arrAt 14 cfg0.N := by
  have e : StableHlo.after hostOps1 (W2 m ρ c) (Proc.devRef .tc main_v18_1) = W2 m ρ c (Proc.devRef .tc main_v18_1) := by
    after_results <;> rfl
  exact e.trans (W2_arr m ρ c 14)

/-- The second region's v operand is the array the first region left. -/
theorem entry_v (c : Dev nD) :
    (V3 m ρ c (Pipeline.arrRef spec1 2) : S4x16x1024x64.Idx → EReal) = (dat0 (V1 m ρ) c).arrAt 15 cfg0.N := by
  have e : StableHlo.after hostOps1 (W2 m ρ c) (Proc.devRef .tc main_v18_2) = W2 m ρ c (Proc.devRef .tc main_v18_2) := by
    after_results <;> rfl
  exact e.trans (W2_arr m ρ c 15)

/-- The heads' scales: exp of the logit scale clamped at log 100. -/
theorem entry_scale (c : Dev nD) (h : Fin 16) :
    (V3 m ρ c (Pipeline.arrRef spec1 3) : S16x1x1.Idx → EReal) (ix3 h 0 0) = scaleOf (m ((c : Thread nD τ).loc main_arg9)) (ix3 h 0 0) := by
  have e : StableHlo.after hostOps1 (W2 m ρ c) (Proc.devRef .tc main_v21)
      = Host.exp (minimumf (W2 m ρ c (Proc.devRef .tc main_arg9)) (broadcastInDim S16x1x1 ![] bcast_S_S16x1x1 (constant (F := Ideal) S_ .f32 0x40935D8E#32))) := by
    after_results <;> rfl
  refine (congrFun e _).trans ?_
  rw [w2_arg9]
  rfl

/-! ## Before the third region -/

/-- The third region's first operand is the array the second region left. -/
theorem entry_t (c : Dev nD) :
    (V5 m ρ c (Pipeline.arrRef spec2 0) : S4x1024x1024.Idx → EReal) = (dat1 (V3 m ρ) c).arrAt 4 cfg1.N := by
  have e : StableHlo.after hostOps2 (W4 m ρ c) (Proc.devRef .tc main_v22) = W4 m ρ c (Proc.devRef .tc main_v22) := by
    after_results <;> rfl
  exact e.trans (W4_arr m ρ c 4)

/-- An argument the second stretch and the second region leave alone is, after them, what it was after the first region. -/
theorem w4_arg10 (c : Dev nD) : W4 m ρ c (Proc.devRef .tc main_arg10) = (m ((c : Thread nD τ).loc main_arg10)) :=
  (W4_of_ne m ρ c main_arg10 (by decide)).trans ((by
    show StableHlo.after hostOps1 (W2 m ρ c) (Proc.devRef .tc main_arg10) = W2 m ρ c (Proc.devRef .tc main_arg10)
    after_results <;> rfl : W3 m ρ c (Proc.devRef .tc main_arg10) = W2 m ρ c (Proc.devRef .tc main_arg10)).trans (w2_arg10 m ρ c))
theorem w4_arg11 (c : Dev nD) : W4 m ρ c (Proc.devRef .tc main_arg11) = (m ((c : Thread nD τ).loc main_arg11)) :=
  (W4_of_ne m ρ c main_arg11 (by decide)).trans ((by
    show StableHlo.after hostOps1 (W2 m ρ c) (Proc.devRef .tc main_arg11) = W2 m ρ c (Proc.devRef .tc main_arg11)
    after_results <;> rfl : W3 m ρ c (Proc.devRef .tc main_arg11) = W2 m ρ c (Proc.devRef .tc main_arg11)).trans (w2_arg11 m ρ c))

/-- The third region's weight operand at (k, o) is the output weight at (o, k). -/
theorem entry_wo (c : Dev nD) (k o : Fin 1024) :
    (V5 m ρ c (Pipeline.arrRef spec2 1) : S1024x1024.Idx → EReal) (ix2 k o) = (m ((c : Thread nD τ).loc main_arg10)) (ix2 o k) := by
  have e : (StableHlo.after hostOps2 (W4 m ρ c) (Proc.devRef .tc main_v24) : S1024x1024.Idx → EReal)
      = truncf (F := Ideal) .bf16 (transpose S1024x1024 [1, 0] (W4 m ρ c (Proc.devRef .tc main_arg10)) transposes_S1024x1024_S1024x1024_1_0) bitsLt_bf16_f32 := by
    after_results <;> rfl
  refine (congrFun e _).trans ?_
  rw [w4_arg10, truncf_apply]
  exact transpose_ix2_apply _ _ k o

/-- The third region's bias operand is the output bias. -/
theorem entry_bo (c : Dev nD) (o : Fin 1024) :
    (V5 m ρ c (Pipeline.arrRef spec2 2) : S1024.Idx → EReal) (ix1 o) = (m ((c : Thread nD τ).loc main_arg11)) (ix1 o) := by
  have e : StableHlo.after hostOps2 (W4 m ρ c) (Proc.devRef .tc main_arg11) = W4 m ρ c (Proc.devRef .tc main_arg11) := by
    after_results <;> rfl
  exact congrFun (e.trans (w4_arg11 m ρ c)) _

end Cert.KernelIdeal.Entry

end
-- ==== Proof.Whole.lean ====
/-
  The idealized kernel's result as ONE function of its twelve arguments: the three regions' result arrays composed
  through what each region finds on entry. The first region leaves the normalised queries, the normalised keys and
  the values; the second, finding them and the heads' scales, leaves their attention output; the third, finding that
  and the transposed output weight and the bias, leaves the output projection: the block's function.
-/
import proofs.«113965_j91061896609820_2_alg».proof.Proof.KernelRun
import proofs.«113965_j91061896609820_2_alg».proof.Proof.RegionOut
import proofs.«113965_j91061896609820_2_alg».proof.Proof.RegionMix
import proofs.«113965_j91061896609820_2_alg».proof.Proof.RegionQkv
import proofs.«113965_j91061896609820_2_alg».proof.Proof.Entry

set_option maxRecDepth 16384

noncomputable section

namespace Cert.KernelIdeal.Whole

open Cert.KernelIdeal Cert.KernelIdeal.Gen Cert.AttnSpec
open Idealize.ShloMosaic Idealize.ShloMosaic.ValueIdx Idealize.ShloMosaic.TcCoe Idealize.SL.Sem

variable (m : (ℓ : Loc nD τ sig) → Buf (Elt Ideal) ℓ) (ρ : Dev nD → PrngReg)

/-- The normalised queries, keys and the values are what the first region leaves, read where the second finds them. -/
theorem found_q (c : Dev nD) (n : Fin 4) (h : Fin 16) (l : Fin 1024) (e : Fin 64) :
    (V3 m ρ c (Pipeline.arrRef spec1 0) : S4x16x1024x64.Idx → EReal) (ix4 n h l e)
      = queries (m ((c : Thread nD τ).loc main_arg0)) (m ((c : Thread nD τ).loc main_arg1)) (m ((c : Thread nD τ).loc main_arg2)) (m ((c : Thread nD τ).loc main_arg3)) (m ((c : Thread nD τ).loc main_arg4)) (ix4 n h l e) :=
  (congrFun (Entry.entry_q m ρ c) _).trans (congrFun (Arrays.array_queries (V1 m ρ) c _ _ _ _ _
    (Entry.entry_x m ρ c) (Entry.entry_wq m ρ c) (Entry.entry_bq m ρ c) (Entry.entry_aq m ρ c) (Entry.entry_bbq m ρ c)) _)
theorem found_k (c : Dev nD) (n : Fin 4) (h : Fin 16) (l : Fin 1024) (e : Fin 64) :
    (V3 m ρ c (Pipeline.arrRef spec1 1) : S4x16x1024x64.Idx → EReal) (ix4 n h l e)
      = keys (m ((c : Thread nD τ).loc main_arg0)) (m ((c : Thread nD τ).loc main_arg1)) (m ((c : Thread nD τ).loc main_arg2)) (m ((c : Thread nD τ).loc main_arg5)) (m ((c : Thread nD τ).loc main_arg6)) (ix4 n h l e) :=
  (congrFun (Entry.entry_k m ρ c) _).trans (congrFun (Arrays.array_keys (V1 m ρ) c _ _ _ _ _
    (Entry.entry_x m ρ c) (Entry.entry_wk m ρ c) (Entry.entry_bk m ρ c) (Entry.entry_ak m ρ c) (Entry.entry_bbk m ρ c)) _)
theorem found_v (c : Dev nD) (n : Fin 4) (h : Fin 16) (l : Fin 1024) (e : Fin 64) :
    (V3 m ρ c (Pipeline.arrRef spec1 2) : S4x16x1024x64.Idx → EReal) (ix4 n h l e)
      = values (m ((c : Thread nD τ).loc main_arg0)) (m ((c : Thread nD τ).loc main_arg1)) (m ((c : Thread nD τ).loc main_arg2)) (m ((c : Thread nD τ).loc main_arg7)) (m ((c : Thread nD τ).loc main_arg8)) (ix4 n h l e) :=
  (congrFun (Entry.entry_v m ρ c) _).trans (congrFun (Arrays.array_values (V1 m ρ) c _ _ _ _ _
    (Entry.entry_x m ρ c) (Entry.entry_wv m ρ c) (Entry.entry_bv m ρ c) (Entry.entry_av m ρ c) (Entry.entry_bbv m ρ c)) _)

/-- The attention output is what the second region leaves, read where the third finds it. -/
theorem found_t (c : Dev nD) (n : Fin 4) (l k : Fin 1024) :
    (V5 m ρ c (Pipeline.arrRef spec2 0) : S4x1024x1024.Idx → EReal) (ix3 n l k)
      = mix (queries (m ((c : Thread nD τ).loc main_arg0)) (m ((c : Thread nD τ).loc main_arg1)) (m ((c : Thread nD τ).loc main_arg2)) (m ((c : Thread nD τ).loc main_arg3)) (m ((c : Thread nD τ).loc main_arg4))) (keys (m ((c : Thread nD τ).loc main_arg0)) (m ((c : Thread nD τ).loc main_arg1)) (m ((c : Thread nD τ).loc main_arg2)) (m ((c : Thread nD τ).loc main_arg5)) (m ((c : Thread nD τ).loc main_arg6)))
          (values (m ((c : Thread nD τ).loc main_arg0)) (m ((c : Thread nD τ).loc main_arg1)) (m ((c : Thread nD τ).loc main_arg2)) (m ((c : Thread nD τ).loc main_arg7)) (m ((c : Thread nD τ).loc main_arg8))) (scaleOf (m ((c : Thread nD τ).loc main_arg9))) (ix3 n l k) :=
  (congrFun (Entry.entry_t m ρ c) _).trans (congrFun (Arrays.array_mix (V3 m ρ) c _ _ _ _
    (found_q m ρ c) (found_k m ρ c) (found_v m ρ c) (Entry.entry_scale m ρ c)) _)

/-- The result array at the last boundary is the whole block's function of the twelve arguments. -/
theorem result_eq (c : Dev nD) :
    W6 m ρ c (Proc.devRef .tc main_v25)
      = block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W6_arr m ρ c 3).trans (Arrays.array_out (V5 m ρ) c _ _ _ (found_t m ρ c) (Entry.entry_wo m ρ c) (Entry.entry_bo m ρ c))

/-- The idealized kernel's run, read: the result at the block's function of the arguments, the arguments unchanged. -/
theorem run : θ_run defs (onTc (τ := τ) (main (F := Ideal))) ⟨m, fun _ => 0, ρ⟩ (fun r => ∀ c : Dev nD,
      r.2.mem ((c.tc : Thread nD τ).loc main_v25)
        = block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩) (ValueRun.run_named m ρ)

end Cert.KernelIdeal.Whole

end
-- ==== Proof.RefStages.lean ====
/-
  The reference program, stage by stage: the value it writes at each of six stages is the specification's function
  of the arguments (or of the earlier stages). Each proof reads the stage at an index, one operation at a time,
  down to the arguments, and compares the result with the specification's formula at that index.
-/
import proofs.«113965_j91061896609820_2_alg».proof.Proof.Gen.ReferenceIdeal.Read
import proofs.«113965_j91061896609820_2_alg».proof.Proof.Spec

noncomputable section

namespace Cert.ReferenceIdeal.Stages
open Cert.ReferenceIdeal Cert.ReferenceIdeal.Read Cert.AttnSpec Idealize.ShloMosaic Idealize.ShloMosaic.ValueIdx

variable (x0 : Arr3 4 1024 1024) (x1 : Arr2 3072 1024) (x2 : Arr1 3072)
  (x3 : Arr2 8 1024) (x4 : Arr2 1024 8) (x5 : Arr2 8 1024) (x6 : Arr2 1024 8) (x7 : Arr2 8 1024) (x8 : Arr2 1024 8)
  (x9 : Arr3 16 1 1) (x10 : Arr2 1024 1024) (x11 : Arr1 1024)

/-- The first projection before it is read as heads: at (n, l, o) it is the dense product with row o of the first third of
    the stacked weight plus the bias, plus twice the rank-8 path. The slice of the fused product picks column
    0 · 1024 + o. -/
theorem proj0_apply (n : Fin 4) (l o : Fin 1024) :
    val_main_v11 (F := Ideal) x0 x1 x2 x3 x4 (ix3 n l o) = proj x0 x1 x2 x3 x4 0 n l o := by
  rw [val_main_v11_apply, val_main_v4_apply, val_main_v3_apply, val_main_v0_apply, val_main_v2_apply, val_main_v1_apply,
    val_main_v10_apply, val_main_v8_apply, val_main_v9_apply, val_main_cst_apply]
  simp only [val_main_v7_apply]
  have e1 : ∀ c : Fin 1024, lidx_main_v0 (idx_main_v4 (ix3 n l o)) c = ix3 n l c := fun c => funext fun a => Fin.ext (by
    match a with
    | ⟨0, _⟩ => rfl
    | ⟨1, _⟩ => rfl
    | ⟨2, _⟩ => rfl)
  have e2 : ∀ c : Fin 1024, ridx_main_v0 (idx_main_v4 (ix3 n l o)) c = ix2 (wrow 0 o) c := fun c => funext fun a => Fin.ext (by
    match a with
    | ⟨0, _⟩ => show o.val = 0 * 1024 + o.val; omega
    | ⟨1, _⟩ => rfl)
  have e3 : idx_main_v1 (idx_main_v2 (idx_main_v4 (ix3 n l o))) = ix1 (wrow 0 o) := funext fun a => Fin.ext (by
    match a with
    | ⟨0, _⟩ => show o.val = 0 * 1024 + o.val; omega)
  have e4 : ∀ (r : Fin 8) (c : Fin 1024), lidx_main_v7 (lidx_main_v8 (ix3 n l o) r) c = ix3 n l c := fun r c => funext fun a => Fin.ext (by
    match a with
    | ⟨0, _⟩ => rfl
    | ⟨1, _⟩ => rfl
    | ⟨2, _⟩ => rfl)
  have e5 : ∀ (r : Fin 8) (c : Fin 1024), ridx_main_v7 (lidx_main_v8 (ix3 n l o) r) c = ix2 r c := fun r c => funext fun a => Fin.ext (by
    match a with
    | ⟨0, _⟩ => rfl
    | ⟨1, _⟩ => rfl)
  have e6 : ∀ r : Fin 8, ridx_main_v8 (ix3 n l o) r = ix2 o r := fun r => funext fun a => Fin.ext (by
    match a with
    | ⟨0, _⟩ => rfl
    | ⟨1, _⟩ => rfl)
  simp only [e1, e2, e3, e4, e5, e6]
  rfl

/-- The second projection before it is read as heads: at (n, l, o) it is the dense product with row o of the second third of
    the stacked weight plus the bias, plus twice the rank-8 path. The slice of the fused product picks column
    1 · 1024 + o. -/
theorem proj1_apply (n : Fin 4) (l o : Fin 1024) :
    val_main_v16 (F := Ideal) x0 x1 x2 x5 x6 (ix3 n l o) = proj x0 x1 x2 x5 x6 1 n l o := by
  rw [val_main_v16_apply, val_main_v5_apply, val_main_v3_apply, val_main_v0_apply, val_main_v2_apply, val_main_v1_apply,
    val_main_v15_apply, val_main_v13_apply, val_main_v14_apply, val_main_cst_0_apply]
  simp only [val_main_v12_apply]
  have e1 : ∀ c : Fin 1024, lidx_main_v0 (idx_main_v5 (ix3 n l o)) c = ix3 n l c := fun c => funext fun a => Fin.ext (by
    match a with
    | ⟨0, _⟩ => rfl
    | ⟨1, _⟩ => rfl
    | ⟨2, _⟩ => rfl)
  have e2 : ∀ c : Fin 1024, ridx_main_v0 (idx_main_v5 (ix3 n l o)) c = ix2 (wrow 1 o) c := fun c => funext fun a => Fin.ext (by
    match a with
    | ⟨0, _⟩ => show 1024 + o.val = 1 * 1024 + o.val; omega
    | ⟨1, _⟩ => rfl)
  have e3 : idx_main_v1 (idx_main_v2 (idx_main_v5 (ix3 n l o))) = ix1 (wrow 1 o) := funext fun a => Fin.ext (by
    match a with
    | ⟨0, _⟩ => show 1024 + o.val = 1 * 1024 + o.val; omega)
  have e4 : ∀ (r : Fin 8) (c : Fin 1024), lidx_main_v12 (lidx_main_v13 (ix3 n l o) r) c = ix3 n l c := fun r c => funext fun a => Fin.ext (by
    match a with
    | ⟨0, _⟩ => rfl
    | ⟨1, _⟩ => rfl
    | ⟨2, _⟩ => rfl)
  have e5 : ∀ (r : Fin 8) (c : Fin 1024), ridx_main_v12 (lidx_main_v13 (ix3 n l o) r) c = ix2 r c := fun r c => funext fun a => Fin.ext (by
    match a with
    | ⟨0, _⟩ => rfl
    | ⟨1, _⟩ => rfl)
  have e6 : ∀ r : Fin 8, ridx_main_v13 (ix3 n l o) r = ix2 o r := fun r => funext fun a => Fin.ext (by
    match a with
    | ⟨0, _⟩ => rfl
    | ⟨1, _⟩ => rfl)
  simp only [e1, e2, e3, e4, e5, e6]
  rfl

/-- The third projection before it is read as heads: at (n, l, o) it is the dense product with row o of the third third of
    the stacked weight plus the bias, plus twice the rank-8 path. The slice of the fused product picks column
    2 · 1024 + o. -/
theorem proj2_apply (n : Fin 4) (l o : Fin 1024) :
    val_main_v21 (F := Ideal) x0 x1 x2 x7 x8 (ix3 n l o) = proj x0 x1 x2 x7 x8 2 n l o := by
  rw [val_main_v21_apply, val_main_v6_apply, val_main_v3_apply, val_main_v0_apply, val_main_v2_apply, val_main_v1_apply,
    val_main_v20_apply, val_main_v18_apply, val_main_v19_apply, val_main_cst_1_apply]
  simp only [val_main_v17_apply]
  have e1 : ∀ c : Fin 1024, lidx_main_v0 (idx_main_v6 (ix3 n l o)) c = ix3 n l c := fun c => funext fun a => Fin.ext (by
    match a with
    | ⟨0, _⟩ => rfl
    | ⟨1, _⟩ => rfl
    | ⟨2, _⟩ => rfl)
  have e2 : ∀ c : Fin 1024, ridx_main_v0 (idx_main_v6 (ix3 n l o)) c = ix2 (wrow 2 o) c := fun c => funext fun a => Fin.ext (by
    match a with
    | ⟨0, _⟩ => show 2048 + o.val = 2 * 1024 + o.val; omega
    | ⟨1, _⟩ => rfl)
  have e3 : idx_main_v1 (idx_main_v2 (idx_main_v6 (ix3 n l o))) = ix1 (wrow 2 o) := funext fun a => Fin.ext (by
    match a with
    | ⟨0, _⟩ => show 2048 + o.val = 2 * 1024 + o.val; omega)
  have e4 : ∀ (r : Fin 8) (c : Fin 1024), lidx_main_v17 (lidx_main_v18 (ix3 n l o) r) c = ix3 n l c := fun r c => funext fun a => Fin.ext (by
    match a with
    | ⟨0, _⟩ => rfl
    | ⟨1, _⟩ => rfl
    | ⟨2, _⟩ => rfl)
  have e5 : ∀ (r : Fin 8) (c : Fin 1024), ridx_main_v17 (lidx_main_v18 (ix3 n l o) r) c = ix2 r c := fun r c => funext fun a => Fin.ext (by
    match a with
    | ⟨0, _⟩ => rfl
    | ⟨1, _⟩ => rfl)
  have e6 : ∀ r : Fin 8, ridx_main_v18 (ix3 n l o) r = ix2 o r := fun r => funext fun a => Fin.ext (by
    match a with
    | ⟨0, _⟩ => rfl
    | ⟨1, _⟩ => rfl)
  simp only [e1, e2, e3, e4, e5, e6]
  rfl

/-- Reading the 1024 columns as 16 heads of 64 lanes and moving the head axis in front of the tokens:
    entry (n, h, l, d) is column h · 64 + d of row (n, l). -/
theorem heads0_apply (n : Fin 4) (h : Fin 16) (l : Fin 1024) (d : Fin 64) :
    val_main_v23 (F := Ideal) x0 x1 x2 x3 x4 (ix4 n h l d)
      = val_main_v11 (F := Ideal) x0 x1 x2 x3 x4 (ix3 n l (headCol h d)) := by
  rw [val_main_v23_apply, val_main_v22_apply]
  refine congrArg _ (funext fun a => Fin.ext ?_)
  have hn := n.isLt; have hh := h.isLt; have hl := l.isLt; have hd := d.isLt
  match a with
  | ⟨0, _⟩ => show (((n.val * 1024 + l.val) * 16 + h.val) * 64 + d.val) / 1048576 = n.val; omega
  | ⟨1, _⟩ => show (((n.val * 1024 + l.val) * 16 + h.val) * 64 + d.val) / 1024 % 1024 = l.val; omega
  | ⟨2, _⟩ => show (((n.val * 1024 + l.val) * 16 + h.val) * 64 + d.val) % 1024 = h.val * 64 + d.val; omega

theorem ref_heads0 : val_main_v23 (F := Ideal) x0 x1 x2 x3 x4 = heads (proj x0 x1 x2 x3 x4 0) := by
  funext i
  obtain ⟨n, h, l, d, rfl⟩ : ∃ (n : Fin 4) (h : Fin 16) (l : Fin 1024) (d : Fin 64), i = ix4 n h l d :=
    ⟨i 0, i 1, i 2, i 3, eq_ix4 i⟩
  rw [heads0_apply, proj0_apply]
  rfl

/-- Reading the 1024 columns as 16 heads of 64 lanes and moving the head axis in front of the tokens:
    entry (n, h, l, d) is column h · 64 + d of row (n, l). -/
theorem heads1_apply (n : Fin 4) (h : Fin 16) (l : Fin 1024) (d : Fin 64) :
    val_main_v25 (F := Ideal) x0 x1 x2 x5 x6 (ix4 n h l d)
      = val_main_v16 (F := Ideal) x0 x1 x2 x5 x6 (ix3 n l (headCol h d)) := by
  rw [val_main_v25_apply, val_main_v24_apply]
  refine congrArg _ (funext fun a => Fin.ext ?_)
  have hn := n.isLt; have hh := h.isLt; have hl := l.isLt; have hd := d.isLt
  match a with
  | ⟨0, _⟩ => show (((n.val * 1024 + l.val) * 16 + h.val) * 64 + d.val) / 1048576 = n.val; omega
  | ⟨1, _⟩ => show (((n.val * 1024 + l.val) * 16 + h.val) * 64 + d.val) / 1024 % 1024 = l.val; omega
  | ⟨2, _⟩ => show (((n.val * 1024 + l.val) * 16 + h.val) * 64 + d.val) % 1024 = h.val * 64 + d.val; omega

theorem ref_heads1 : val_main_v25 (F := Ideal) x0 x1 x2 x5 x6 = heads (proj x0 x1 x2 x5 x6 1) := by
  funext i
  obtain ⟨n, h, l, d, rfl⟩ : ∃ (n : Fin 4) (h : Fin 16) (l : Fin 1024) (d : Fin 64), i = ix4 n h l d :=
    ⟨i 0, i 1, i 2, i 3, eq_ix4 i⟩
  rw [heads1_apply, proj1_apply]
  rfl

/-- Reading the 1024 columns as 16 heads of 64 lanes and moving the head axis in front of the tokens:
    entry (n, h, l, d) is column h · 64 + d of row (n, l). -/
theorem heads2_apply (n : Fin 4) (h : Fin 16) (l : Fin 1024) (d : Fin 64) :
    val_main_v27 (F := Ideal) x0 x1 x2 x7 x8 (ix4 n h l d)
      = val_main_v21 (F := Ideal) x0 x1 x2 x7 x8 (ix3 n l (headCol h d)) := by
  rw [val_main_v27_apply, val_main_v26_apply]
  refine congrArg _ (funext fun a => Fin.ext ?_)
  have hn := n.isLt; have hh := h.isLt; have hl := l.isLt; have hd := d.isLt
  match a with
  | ⟨0, _⟩ => show (((n.val * 1024 + l.val) * 16 + h.val) * 64 + d.val) / 1048576 = n.val; omega
  | ⟨1, _⟩ => show (((n.val * 1024 + l.val) * 16 + h.val) * 64 + d.val) / 1024 % 1024 = l.val; omega
  | ⟨2, _⟩ => show (((n.val * 1024 + l.val) * 16 + h.val) * 64 + d.val) % 1024 = h.val * 64 + d.val; omega

theorem ref_heads2 : val_main_v27 (F := Ideal) x0 x1 x2 x7 x8 = heads (proj x0 x1 x2 x7 x8 2) := by
  funext i
  obtain ⟨n, h, l, d, rfl⟩ : ∃ (n : Fin 4) (h : Fin 16) (l : Fin 1024) (d : Fin 64), i = ix4 n h l d :=
    ⟨i 0, i 1, i 2, i 3, eq_ix4 i⟩
  rw [heads2_apply, proj2_apply]
  rfl

/-- The normalised queries: the first projection's head vectors, each over the larger of its norm and the floor. The sum of squares starts from the zero word, which adds nothing. -/
theorem ref_queries : val_main_v35 (F := Ideal) x0 x1 x2 x3 x4 = queries x0 x1 x2 x3 x4 := by
  funext i
  obtain ⟨n, h, l, d, rfl⟩ : ∃ (n : Fin 4) (h : Fin 16) (l : Fin 1024) (d : Fin 64), i = ix4 n h l d :=
    ⟨i 0, i 1, i 2, i 3, eq_ix4 i⟩
  rw [val_main_v35_apply, val_main_v34_apply, val_main_v33_apply, val_main_v31_apply, val_main_v30_apply,
    val_main_v29_apply, val_main_v32_apply, val_main_cst_3_apply, val_main_cst_2_apply]
  simp only [val_main_v28_apply]
  have e : ∀ e : Fin 64, idx_main_v29 (idx_main_v30 (idx_main_v34 (ix4 n h l d))) e = ix4 n h l e :=
    fun e => funext fun a => Fin.ext (by
      match a with
      | ⟨0, _⟩ => rfl
      | ⟨1, _⟩ => rfl
      | ⟨2, _⟩ => rfl
      | ⟨3, _⟩ => rfl)
  simp only [e]
  rw [ref_heads0]
  simp only [Ideal.hostDivf_def, Ideal.maximumf_def, Ideal.hostUnary_sqrt_def, Ideal.ofBits_def, Ideal.mulf_def,
    Ideal.ofBits_zero_f32, zero_add]
  rfl

/-- The normalised keys: the second projection's head vectors, each over the larger of its norm and the floor. The sum of squares starts from the zero word, which adds nothing. -/
theorem ref_keys : val_main_v43 (F := Ideal) x0 x1 x2 x5 x6 = keys x0 x1 x2 x5 x6 := by
  funext i
  obtain ⟨n, h, l, d, rfl⟩ : ∃ (n : Fin 4) (h : Fin 16) (l : Fin 1024) (d : Fin 64), i = ix4 n h l d :=
    ⟨i 0, i 1, i 2, i 3, eq_ix4 i⟩
  rw [val_main_v43_apply, val_main_v42_apply, val_main_v41_apply, val_main_v39_apply, val_main_v38_apply,
    val_main_v37_apply, val_main_v40_apply, val_main_cst_5_apply, val_main_cst_4_apply]
  simp only [val_main_v36_apply]
  have e : ∀ e : Fin 64, idx_main_v37 (idx_main_v38 (idx_main_v42 (ix4 n h l d))) e = ix4 n h l e :=
    fun e => funext fun a => Fin.ext (by
      match a with
      | ⟨0, _⟩ => rfl
      | ⟨1, _⟩ => rfl
      | ⟨2, _⟩ => rfl
      | ⟨3, _⟩ => rfl)
  simp only [e]
  rw [ref_heads1]
  simp only [Ideal.hostDivf_def, Ideal.maximumf_def, Ideal.hostUnary_sqrt_def, Ideal.ofBits_def, Ideal.mulf_def,
    Ideal.ofBits_zero_f32, zero_add]
  rfl

/-- The values: the third projection read as heads. -/
theorem ref_values : val_main_v27 (F := Ideal) x0 x1 x2 x7 x8 = values x0 x1 x2 x7 x8 := ref_heads2 x0 x1 x2 x7 x8

/-- The head scales: exp of the logit scale clamped at the cap. -/
theorem ref_scale : val_main_v47 (F := Ideal) x9 = scaleOf x9 := by
  funext i
  rw [val_main_v47_apply, val_main_v46_apply, val_main_v45_apply, val_main_cst_6_apply]
  rfl

/-- The scaled logits: the batched contraction of a query row with a key row over the 64 lanes, times the head's scale
    (broadcast from [16,1,1] through [1,16,1,1]). -/
theorem logit_apply (n : Fin 4) (h : Fin 16) (l m : Fin 1024) :
    val_main_v50 (F := Ideal) x0 x1 x2 x3 x4 x5 x6 x9 (ix4 n h l m) = logit (val_main_v35 (F := Ideal) x0 x1 x2 x3 x4) (val_main_v43 (F := Ideal) x0 x1 x2 x5 x6) (val_main_v47 (F := Ideal) x9) n h l m := by
  rw [val_main_v50_apply, val_main_v44_apply, val_main_v49_apply, val_main_v48_apply]
  have e1 : ∀ e : Fin 64, lidx_main_v44 (ix4 n h l m) e = ix4 n h l e := fun e => funext fun a => Fin.ext (by
    match a with
      | ⟨0, _⟩ => rfl
      | ⟨1, _⟩ => rfl
      | ⟨2, _⟩ => rfl
      | ⟨3, _⟩ => rfl)
  have e2 : ∀ e : Fin 64, ridx_main_v44 (ix4 n h l m) e = ix4 n h m e := fun e => funext fun a => Fin.ext (by
    match a with
      | ⟨0, _⟩ => rfl
      | ⟨1, _⟩ => rfl
      | ⟨2, _⟩ => rfl
      | ⟨3, _⟩ => rfl)
  have e3 : idx_main_v48 (idx_main_v49 (ix4 n h l m)) = ix3 h 0 0 := funext fun a => Fin.ext (by
    match a with
      | ⟨0, _⟩ => rfl
      | ⟨1, _⟩ => rfl
      | ⟨2, _⟩ => rfl)
  simp only [e1, e2, e3]
  rfl

/-- The host's reduce with a maximum body over the last axis of a [4,16,1024,1024] array, read at (n, h, l):
    the fold of max, from the initial value, over the row's 1024 entries. -/
theorem rowMax_apply (y : FVec Ideal S4x16x1024x1024 .f32) (init : FVec Ideal S_ .f32)
    (h' : S4x16x1024x1024.ReducesTo [3] S4x16x1024) (hu : 0 < S_.numel) (n : Fin 4) (h : Fin 16) (l : Fin 1024) :
    Host.reduce FloatOps.maximumf y init h' hu (ix3 n h l)
      = Finset.univ.fold max (init (Shape.Idx.first hu)) (fun m : Fin 1024 => y (ix4 n h l m)) := by
  have hr : S4x16x1024x1024.Reduces [3] S4x16x1024 := by decide
  rw [Host.reduce_eq_fold_single FloatOps.maximumf y init h' hr hu]
  have hf : (y ∘ hr.lift (ix3 n h l)) = fun m : Fin 1024 => y (ix4 n h l m) :=
    funext fun m => congrArg y (funext fun a => Fin.ext (by
      match a with
      | ⟨0, _⟩ => rfl
      | ⟨1, _⟩ => rfl
      | ⟨2, _⟩ => rfl
      | ⟨3, _⟩ => rfl))
  exact congrArg (fun f => Finset.fold max (init (Shape.Idx.first hu)) f (Finset.univ : Finset (Fin 1024))) hf

/-- The row maximum the softmax subtracts: the maximum, once more against −∞, of the fold of max from −∞ over the row. -/
theorem peak_apply (n : Fin 4) (h : Fin 16) (l : Fin 1024) :
    val_main_v53 (F := Ideal) x0 x1 x2 x3 x4 x5 x6 x9 (ix3 n h l) = peak (logit (val_main_v35 (F := Ideal) x0 x1 x2 x3 x4) (val_main_v43 (F := Ideal) x0 x1 x2 x5 x6) (val_main_v47 (F := Ideal) x9) n h l) := by
  rw [val_main_v53_apply, val_main_v52_apply, val_main_cst_8_apply]
  unfold val_main_v51
  rw [rowMax_apply]
  simp only [logit_apply]
  rfl

/-- The softmax numerators: exp of a logit less its row's maximum (the maximum broadcast back along the keys). -/
theorem weight_apply (n : Fin 4) (h : Fin 16) (l m : Fin 1024) :
    val_main_v57 (F := Ideal) x0 x1 x2 x3 x4 x5 x6 x9 (ix4 n h l m) = weight (val_main_v35 (F := Ideal) x0 x1 x2 x3 x4) (val_main_v43 (F := Ideal) x0 x1 x2 x5 x6) (val_main_v47 (F := Ideal) x9) n h l m := by
  rw [val_main_v57_apply, val_main_v56_apply, val_main_v55_apply, val_main_v54_apply]
  have e : idx_main_v54 (idx_main_v55 (ix4 n h l m)) = ix3 n h l := funext fun a => Fin.ext (by
    match a with
      | ⟨0, _⟩ => rfl
      | ⟨1, _⟩ => rfl
      | ⟨2, _⟩ => rfl)
  rw [e, logit_apply, peak_apply]
  rfl

/-- The softmax probabilities: a numerator over its row's sum; the sum starts from the zero word, which adds nothing. -/
theorem prob_apply (n : Fin 4) (h : Fin 16) (l m : Fin 1024) :
    val_main_v61 (F := Ideal) x0 x1 x2 x3 x4 x5 x6 x9 (ix4 n h l m) = prob (val_main_v35 (F := Ideal) x0 x1 x2 x3 x4) (val_main_v43 (F := Ideal) x0 x1 x2 x5 x6) (val_main_v47 (F := Ideal) x9) n h l m := by
  rw [val_main_v61_apply, val_main_v60_apply, val_main_v59_apply, val_main_v58_apply, val_main_cst_9_apply]
  have e : ∀ k : Fin 1024, idx_main_v58 (idx_main_v59 (idx_main_v60 (ix4 n h l m))) k = ix4 n h l k :=
    fun k => funext fun a => Fin.ext (by
      match a with
      | ⟨0, _⟩ => rfl
      | ⟨1, _⟩ => rfl
      | ⟨2, _⟩ => rfl
      | ⟨3, _⟩ => rfl)
  simp only [e, weight_apply]
  simp only [Ideal.hostDivf_def, Ideal.ofBits_def, Ideal.ofBits_zero_f32, zero_add]
  rfl

/-- The attention output with the heads merged: column c of row (n, l) is lane c mod 64 of head c div 64, where the
    batched contraction mixes the value rows with the probabilities. -/
theorem ref_mix : val_main_v64 (F := Ideal) x0 x1 x2 x3 x4 x5 x6 x7 x8 x9
    = mix (val_main_v35 (F := Ideal) x0 x1 x2 x3 x4) (val_main_v43 (F := Ideal) x0 x1 x2 x5 x6)
        (val_main_v27 (F := Ideal) x0 x1 x2 x7 x8) (val_main_v47 (F := Ideal) x9) := by
  funext i
  obtain ⟨n, l, c, rfl⟩ : ∃ (n : Fin 4) (l c : Fin 1024), i = ix3 n l c := ⟨i 0, i 1, i 2, eq_ix3 i⟩
  rw [val_main_v64_apply, val_main_v63_apply]
  have e0 : idx_main_v63 (idx_main_v64 (ix3 n l c)) = ix4 n (headOf c) l (laneOf c) := funext fun a => Fin.ext (by
    have hn := n.isLt; have hl := l.isLt; have hc := c.isLt
    match a with
    | ⟨0, _⟩ => show ((n.val * 1024 + l.val) * 1024 + c.val) / 1048576 = n.val; omega
    | ⟨1, _⟩ => show ((n.val * 1024 + l.val) * 1024 + c.val) / 64 % 16 = c.val / 64; omega
    | ⟨2, _⟩ => show ((n.val * 1024 + l.val) * 1024 + c.val) / 1024 % 1024 = l.val; omega
    | ⟨3, _⟩ => show ((n.val * 1024 + l.val) * 1024 + c.val) % 64 = c.val % 64; omega)
  rw [e0, val_main_v62_apply]
  have e1 : ∀ k : Fin 1024, lidx_main_v62 (ix4 n (headOf c) l (laneOf c)) k = ix4 n (headOf c) l k :=
    fun k => funext fun a => Fin.ext (by
      match a with
      | ⟨0, _⟩ => rfl
      | ⟨1, _⟩ => rfl
      | ⟨2, _⟩ => rfl
      | ⟨3, _⟩ => rfl)
  have e2 : ∀ k : Fin 1024, ridx_main_v62 (ix4 n (headOf c) l (laneOf c)) k = ix4 n (headOf c) k (laneOf c) :=
    fun k => funext fun a => Fin.ext (by
      match a with
      | ⟨0, _⟩ => rfl
      | ⟨1, _⟩ => rfl
      | ⟨2, _⟩ => rfl
      | ⟨3, _⟩ => rfl)
  simp only [e1, e2, prob_apply]
  rfl

/-- The output projection: the merged heads' row against a row of the output weight, plus the bias. -/
theorem ref_out : val_main_v68 (F := Ideal) x0 x1 x2 x3 x4 x5 x6 x7 x8 x9 x10 x11
    = outProj (val_main_v64 (F := Ideal) x0 x1 x2 x3 x4 x5 x6 x7 x8 x9) x10 x11 := by
  funext i
  obtain ⟨n, l, o, rfl⟩ : ∃ (n : Fin 4) (l o : Fin 1024), i = ix3 n l o := ⟨i 0, i 1, i 2, eq_ix3 i⟩
  rw [val_main_v68_apply, val_main_v65_apply, val_main_v67_apply, val_main_v66_apply]
  unfold outProj
  have el : ∀ k : Fin 1024, lidx_main_v65 (ix3 n l o) k = ix3 n l k := fun k => funext fun a => Fin.ext (by
    match a with
    | ⟨0, _⟩ => rfl
    | ⟨1, _⟩ => rfl
    | ⟨2, _⟩ => rfl)
  have er : ∀ k : Fin 1024, ridx_main_v65 (ix3 n l o) k = ix2 o k := fun k => funext fun a => Fin.ext (by
    match a with
    | ⟨0, _⟩ => rfl
    | ⟨1, _⟩ => rfl)
  have eb : idx_main_v66 (idx_main_v67 (ix3 n l o)) = ix1 o := funext fun a => Fin.ext (by
    match a with
    | ⟨0, _⟩ => rfl)
  rw [eb]
  simp only [el, er]
  rfl

/-- The whole reference program is the specification's block: the six stages, composed. -/
theorem ref_block : val_main_v68 (F := Ideal) x0 x1 x2 x3 x4 x5 x6 x7 x8 x9 x10 x11
    = block x0 x1 x2 x3 x4 x5 x6 x7 x8 x9 x10 x11 := by
  rw [ref_out, ref_mix, ref_queries, ref_keys, ref_values, ref_scale]; rfl

end Cert.ReferenceIdeal.Stages
end
-- ==== Proof.lean ====
/-
  A cosine-attention block with rank-8 adapters: the Pallas kernel (three pallas_calls among host transposes and
  slices) against its jnp reference, over the extended reals.

  Both programs compute ONE function of the twelve arguments, `Cert.AttnSpec.block` (Proof/Spec.lean): three
  projections of each token's row — a third of the stacked weight, its bias, and twice a rank-8 path —, the first two
  normalised head by head; per head, logits q·k scaled by exp(min(logit_scale, log 100)), a softmax along the
  keys, and the probabilities' mix of the values; and an output projection. The two programs differ only in how
  the work is laid out: the kernel slices and transposes the weights on the host, tiles by batch and by groups of
  four heads, and stores its intermediates in a narrower format, which changes nothing at the ideal values; its
  matrix products into zero accumulators and its lane reductions are the same sums and the same maxima as the
  reference's contractions and reductions. No law beyond that is used, so the precondition is never opened.

  The kernel side: each region's result array as a function of what the region finds on entry (Proof/RegionQkv,
  Proof/RegionMix, Proof/RegionOut, over the payloads read at an index in Proof/QkvBlock, Proof/MixBlock,
  Proof/OutProjBlock), what each region finds (Proof/Entry), composed (Proof/Whole) under the run with the result
  named (Proof/KernelRun). The reference side: its stages are the specification's functions (Proof/RefStages).
-/
import proofs.«113965_j91061896609820_2_alg».proof.Defs
import proofs.«113965_j91061896609820_2_alg».proof.Proof.Gen.Kernel
import proofs.«113965_j91061896609820_2_alg».proof.Proof.Gen.Kernel.Skeleton
import proofs.«113965_j91061896609820_2_alg».proof.Proof.Gen.Kernel.Launch
import proofs.«113965_j91061896609820_2_alg».proof.Proof.Gen.Kernel.Points
import proofs.«113965_j91061896609820_2_alg».proof.Proof.Gen.Kernel.Frame
import proofs.«113965_j91061896609820_2_alg».proof.Proof.Gen.KernelIdeal
import proofs.«113965_j91061896609820_2_alg».proof.Proof.Gen.KernelIdeal.Skeleton
import proofs.«113965_j91061896609820_2_alg».proof.Proof.Gen.KernelIdeal.Launch
import proofs.«113965_j91061896609820_2_alg».proof.Proof.Gen.KernelIdeal.Points
import proofs.«113965_j91061896609820_2_alg».proof.Proof.Gen.KernelIdeal.Frame
import proofs.«113965_j91061896609820_2_alg».proof.Proof.Gen.ReferenceIdeal
import proofs.«113965_j91061896609820_2_alg».proof.Proof.Gen.Pre_finite_inputs
import proofs.«113965_j91061896609820_2_alg».proof.Proof.Gen.ReferenceIdeal.Run
import proofs.«113965_j91061896609820_2_alg».proof.Proof.Gen.ReferenceIdeal.Read
import proofs.«113965_j91061896609820_2_alg».proof.Proof.Whole
import proofs.«113965_j91061896609820_2_alg».proof.Proof.RefStages
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the block's function of the arguments. -/
theorem algebraic : Cert.algebraic_KernelIdeal_ReferenceIdeal := by
  intro m ρ m' ρ' _ hagree
  refine ⟨fun c => Cert.AttnSpec.block (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v68_eq, h0, h1, h2, h3, h4, h5, h6, h7, h8, h9, h10, h11]
  exact Cert.ReferenceIdeal.Stages.ref_block _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
